-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v232)) (v1 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v232) = v0 c
          ∧ r.2.mem ((c.tc : Thread Cert.KernelIdeal.nD Cert.KernelIdeal.τ).loc Cert.KernelIdeal.main_v233) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_v351) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x10 : Shape := ⟨2, ![500000, 10]⟩
abbrev S4x2000000 : Shape := ⟨2, ![4, 2000000]⟩
abbrev S2000000 : Shape := ⟨1, ![2000000]⟩
abbrev S4x10x10 : Shape := ⟨3, ![4, 10, 10]⟩
abbrev S4x10 : Shape := ⟨2, ![4, 10]⟩
abbrev S_ : Shape := ⟨0, ![]⟩

class Facts : Prop where
  bcast_S_S500000x10 : S_.BroadcastsInDim S500000x10 (![] : Fin 0 → Fin S500000x10.rank)
  reducesTo_S500000x10_S_d0_1 : S500000x10.ReducesTo [0, 1] S_
  h_S_ : 0 < S_.numel
  bcast_S_S4x10x10 : S_.BroadcastsInDim S4x10x10 (![] : Fin 0 → Fin S4x10x10.rank)
  reducesTo_S4x10x10_S_d0_1_2 : S4x10x10.ReducesTo [0, 1, 2] S_
  bcast_S_S4x10 : S_.BroadcastsInDim S4x10 (![] : Fin 0 → Fin S4x10.rank)
  reducesTo_S4x10_S_d0_1 : S4x10.ReducesTo [0, 1] S_

variable [Facts]

def fn_part1 {F : FTy → Type} [FloatOps F] (main_arg8 : FVec F S4x10x10 .f32) (main_arg9 : FVec F S4x10x10 .f32) (main_arg10 : FVec F S4x10 .f32) (main_v13 : IVec S_ 1) (main_v16 : IVec S4x10 1) : IVec S_ 1 :=
  let main_c_5 : IVec S_ 1 := constantI S_ 1 1#1
  let main_v17 : IVec S_ 1 := (fun x v => Host.reduce IntOp.andi x v reducesTo_S4x10_S_d0_1 h_S_) main_v16 main_c_5
  let main_v18 : IVec S_ 1 := andi main_v13 main_v17
  let main_v19 : FVec F S4x10x10 .f32 := Host.absf main_arg8
  let main_cst_6 : FVec F S_ .f32 := constant S_ .f32 0x7F800000#32
  let main_v20 : FVec F S4x10x10 .f32 := broadcastInDim S4x10x10 ![] bcast_S_S4x10x10 main_cst_6
  let main_v21 : IVec S4x10x10 1 := cmpf .olt main_v19 main_v20
  let main_c_7 : IVec S_ 1 := constantI S_ 1 1#1
  let main_v22 : IVec S_ 1 := (fun x v => Host.reduce IntOp.andi x v reducesTo_S4x10x10_S_d0_1_2 h_S_) main_v21 main_c_7
  let main_v23 : IVec S_ 1 := andi main_v18 main_v22
  let main_v24 : FVec F S4x10x10 .f32 := Host.absf main_arg9
  let main_cst_8 : FVec F S_ .f32 := constant S_ .f32 0x7F800000#32
  let main_v25 : FVec F S4x10x10 .f32 := broadcastInDim S4x10x10 ![] bcast_S_S4x10x10 main_cst_8
  let main_v26 : IVec S4x10x10 1 := cmpf .olt main_v24 main_v25
  let main_c_9 : IVec S_ 1 := constantI S_ 1 1#1
  let main_v27 : IVec S_ 1 := (fun x v => Host.reduce IntOp.andi x v reducesTo_S4x10x10_S_d0_1_2 h_S_) main_v26 main_c_9
  let main_v28 : IVec S_ 1 := andi main_v23 main_v27
  let main_v29 : FVec F S4x10 .f32 := Host.absf main_arg10
  let main_cst_10 : FVec F S_ .f32 := constant S_ .f32 0x7F800000#32
  let main_v30 : FVec F S4x10 .f32 := broadcastInDim S4x10 ![] bcast_S_S4x10 main_cst_10
  let main_v31 : IVec S4x10 1 := cmpf .olt main_v29 main_v30
  let main_c_11 : IVec S_ 1 := constantI S_ 1 1#1
  let main_v32 : IVec S_ 1 := (fun x v => Host.reduce IntOp.andi x v reducesTo_S4x10_S_d0_1 h_S_) main_v31 main_c_11
  let main_v33 : IVec S_ 1 := andi main_v28 main_v32
  main_v33

def fn {F : FTy → Type} [FloatOps F] (main_arg0 : FVec F S500000x10 .f32) (main_arg1 : IVec S4x2000000 32) (main_arg2 : IVec S4x2000000 32) (main_arg3 : IVec S2000000 32) (main_arg4 : IVec S2000000 32) (main_arg5 : FVec F S4x10x10 .f32) (main_arg6 : FVec F S4x10x10 .f32) (main_arg7 : FVec F S4x10 .f32) (main_arg8 : FVec F S4x10x10 .f32) (main_arg9 : FVec F S4x10x10 .f32) (main_arg10 : FVec F S4x10 .f32) : IVec S_ 1 :=
  let main_v0 : FVec F S500000x10 .f32 := Host.absf main_arg0
  let main_cst : FVec F S_ .f32 := constant S_ .f32 0x7F800000#32
  let main_v1 : FVec F S500000x10 .f32 := broadcastInDim S500000x10 ![] bcast_S_S500000x10 main_cst
  let main_v2 : IVec S500000x10 1 := cmpf .olt main_v0 main_v1
  let main_c : IVec S_ 1 := constantI S_ 1 1#1
  let main_v3 : IVec S_ 1 := (fun x v => Host.reduce IntOp.andi x v reducesTo_S500000x10_S_d0_1 h_S_) main_v2 main_c
  let main_v4 : FVec F S4x10x10 .f32 := Host.absf main_arg5
  let main_cst_0 : FVec F S_ .f32 := constant S_ .f32 0x7F800000#32
  let main_v5 : FVec F S4x10x10 .f32 := broadcastInDim S4x10x10 ![] bcast_S_S4x10x10 main_cst_0
  let main_v6 : IVec S4x10x10 1 := cmpf .olt main_v4 main_v5
  let main_c_1 : IVec S_ 1 := constantI S_ 1 1#1
  let main_v7 : IVec S_ 1 := (fun x v => Host.reduce IntOp.andi x v reducesTo_S4x10x10_S_d0_1_2 h_S_) main_v6 main_c_1
  let main_v8 : IVec S_ 1 := andi main_v3 main_v7
  let main_v9 : FVec F S4x10x10 .f32 := Host.absf main_arg6
  let main_cst_2 : FVec F S_ .f32 := constant S_ .f32 0x7F800000#32
  let main_v10 : FVec F S4x10x10 .f32 := broadcastInDim S4x10x10 ![] bcast_S_S4x10x10 main_cst_2
  let main_v11 : IVec S4x10x10 1 := cmpf .olt main_v9 main_v10
  let main_c_3 : IVec S_ 1 := constantI S_ 1 1#1
  let main_v12 : IVec S_ 1 := (fun x v => Host.reduce IntOp.andi x v reducesTo_S4x10x10_S_d0_1_2 h_S_) main_v11 main_c_3
  let main_v13 : IVec S_ 1 := andi main_v8 main_v12
  let main_v14 : FVec F S4x10 .f32 := Host.absf main_arg7
  let main_cst_4 : FVec F S_ .f32 := constant S_ .f32 0x7F800000#32
  let main_v15 : FVec F S4x10 .f32 := broadcastInDim S4x10 ![] bcast_S_S4x10 main_cst_4
  let main_v16 : IVec S4x10 1 := cmpf .olt main_v14 main_v15
  fn_part1 (F := F) main_arg8 main_arg9 main_arg10 main_v13 main_v16
-- ==== Kernel.lean ====
abbrev S500000x10 : Shape := ⟨2, ![500000, 10]⟩
abbrev S4x2000000 : Shape := ⟨2, ![4, 2000000]⟩
abbrev S2000000 : Shape := ⟨1, ![2000000]⟩
abbrev S4x10x10 : Shape := ⟨3, ![4, 10, 10]⟩
abbrev S4x10 : Shape := ⟨2, ![4, 10]⟩
abbrev S_ : Shape := ⟨0, ![]⟩
abbrev S1x2000000 : Shape := ⟨2, ![1, 2000000]⟩
abbrev S500000 : Shape := ⟨1, ![500000]⟩
abbrev S2000000x1 : Shape := ⟨2, ![2000000, 1]⟩
abbrev S500000x1 : Shape := ⟨2, ![500000, 1]⟩
abbrev S1x500000x1 : Shape := ⟨3, ![1, 500000, 1]⟩
abbrev S4x500000x1 : Shape := ⟨3, ![4, 500000, 1]⟩
abbrev S2000000x10 : Shape := ⟨2, ![2000000, 10]⟩
abbrev S500000x40 : Shape := ⟨2, ![500000, 40]⟩
abbrev S5000x10 : Shape := ⟨2, ![5000, 10]⟩
abbrev S5000x40 : Shape := ⟨2, ![5000, 40]⟩
abbrev S1x10x10 : Shape := ⟨3, ![1, 10, 10]⟩
abbrev S10x10 : Shape := ⟨2, ![10, 10]⟩
abbrev S1x10 : Shape := ⟨2, ![1, 10]⟩
abbrev S10 : Shape := ⟨1, ![10]⟩
abbrev S4000000x10 : Shape := ⟨2, ![4000000, 10]⟩
abbrev S4001792x10 : Shape := ⟨2, ![4001792, 10]⟩
abbrev S4001792 : Shape := ⟨1, ![4001792]⟩
abbrev S4096x10 : Shape := ⟨2, ![4096, 10]⟩
abbrev S4096 : Shape := ⟨1, ![4096]⟩
abbrev S4000000 : Shape := ⟨1, ![4000000]⟩

abbrev nBuf : Space → Nat
  | .hbm => 294
  | .vmem => 24
  | .smem => 0
  | _ => 0

abbrev hbmTy0_0 (i : Nat) : BufTy := match i % 128 with
  | 0 => ⟨S500000x10, .f32⟩
  | 1 => ⟨S4x2000000, .i32⟩
  | 2 => ⟨S4x2000000, .i32⟩
  | 3 => ⟨S2000000, .i32⟩
  | 4 => ⟨S2000000, .i32⟩
  | 5 => ⟨S4x10x10, .f32⟩
  | 6 => ⟨S4x10x10, .f32⟩
  | 7 => ⟨S4x10, .f32⟩
  | 8 => ⟨S4x10x10, .f32⟩
  | 9 => ⟨S4x10x10, .f32⟩
  | 10 => ⟨S4x10, .f32⟩
  | 11 => ⟨S_, .f32⟩
  | 12 => ⟨S2000000, .f32⟩
  | 13 => ⟨S1x2000000, .i32⟩
  | 14 => ⟨S2000000, .i32⟩
  | 15 => ⟨S_, .f32⟩
  | 16 => ⟨S500000, .f32⟩
  | 17 => ⟨S2000000x1, .i32⟩
  | 18 => ⟨S500000, .f32⟩
  | 19 => ⟨S_, .f32⟩
  | 20 => ⟨S500000, .f32⟩
  | 21 => ⟨S500000, .f32⟩
  | 22 => ⟨S_, .f32⟩
  | 23 => ⟨S500000, .f32⟩
  | 24 => ⟨S500000, .f32⟩
  | 25 => ⟨S500000x1, .f32⟩
  | 26 => ⟨S1x2000000, .i32⟩
  | 27 => ⟨S2000000, .i32⟩
  | 28 => ⟨S_, .f32⟩
  | 29 => ⟨S500000, .f32⟩
  | 30 => ⟨S2000000x1, .i32⟩
  | 31 => ⟨S500000, .f32⟩
  | 32 => ⟨S_, .f32⟩
  | 33 => ⟨S500000, .f32⟩
  | 34 => ⟨S500000, .f32⟩
  | 35 => ⟨S_, .f32⟩
  | 36 => ⟨S500000, .f32⟩
  | 37 => ⟨S500000, .f32⟩
  | 38 => ⟨S500000x1, .f32⟩
  | 39 => ⟨S1x2000000, .i32⟩
  | 40 => ⟨S2000000, .i32⟩
  | 41 => ⟨S_, .f32⟩
  | 42 => ⟨S500000, .f32⟩
  | 43 => ⟨S2000000x1, .i32⟩
  | 44 => ⟨S500000, .f32⟩
  | 45 => ⟨S_, .f32⟩
  | 46 => ⟨S500000, .f32⟩
  | 47 => ⟨S500000, .f32⟩
  | 48 => ⟨S_, .f32⟩
  | 49 => ⟨S500000, .f32⟩
  | 50 => ⟨S500000, .f32⟩
  | 51 => ⟨S500000x1, .f32⟩
  | 52 => ⟨S1x2000000, .i32⟩
  | 53 => ⟨S2000000, .i32⟩
  | 54 => ⟨S_, .f32⟩
  | 55 => ⟨S500000, .f32⟩
  | 56 => ⟨S2000000x1, .i32⟩
  | 57 => ⟨S500000, .f32⟩
  | 58 => ⟨S_, .f32⟩
  | 59 => ⟨S500000, .f32⟩
  | 60 => ⟨S500000, .f32⟩
  | 61 => ⟨S_, .f32⟩
  | 62 => ⟨S500000, .f32⟩
  | 63 => ⟨S500000, .f32⟩
  | 64 => ⟨S500000x1, .f32⟩
  | 65 => ⟨S1x500000x1, .f32⟩
  | 66 => ⟨S1x500000x1, .f32⟩
  | 67 => ⟨S1x500000x1, .f32⟩
  | 68 => ⟨S1x500000x1, .f32⟩
  | 69 => ⟨S4x500000x1, .f32⟩
  | 70 => ⟨S1x2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x10, .f32⟩
  | 81 => ⟨S1x2000000, .i32⟩
  | 82 => ⟨S2000000, .i32⟩
  | 83 => ⟨S_, .f32⟩
  | 84 => ⟨S500000x10, .f32⟩
  | 85 => ⟨S2000000x1, .i32⟩
  | 86 => ⟨S500000x10, .f32⟩
  | 87 => ⟨S1x500000x1, .f32⟩
  | 88 => ⟨S500000x1, .f32⟩
  | 89 => ⟨S500000x10, .f32⟩
  | 90 => ⟨S500000x10, .f32⟩
  | 91 => ⟨S1x2000000, .i32⟩
  | 92 => ⟨S2000000, .i32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x10, .f32⟩
  | 102 => ⟨S1x2000000, .i32⟩
  | 103 => ⟨S2000000, .i32⟩
  | 104 => ⟨S_, .f32⟩
  | 105 => ⟨S500000x10, .f32⟩
  | 106 => ⟨S2000000x1, .i32⟩
  | 107 => ⟨S500000x10, .f32⟩
  | 108 => ⟨S1x500000x1, .f32⟩
  | 109 => ⟨S500000x1, .f32⟩
  | 110 => ⟨S500000x10, .f32⟩
  | 111 => ⟨S500000x10, .f32⟩
  | 112 => ⟨S1x2000000, .i32⟩
  | 113 => ⟨S2000000, .i32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S2000000x10, .f32⟩
  | 123 => ⟨S1x2000000, .i32⟩
  | 124 => ⟨S2000000, .i32⟩
  | 125 => ⟨S_, .f32⟩
  | 126 => ⟨S500000x10, .f32⟩
  | 127 => ⟨S2000000x1, .i32⟩
  | _ => ⟨S500000x10, .f32⟩

abbrev hbmTy0_1 (i : Nat) : BufTy := match i % 128 with
  | 0 => ⟨S500000x10, .f32⟩
  | 1 => ⟨S1x500000x1, .f32⟩
  | 2 => ⟨S500000x1, .f32⟩
  | 3 => ⟨S500000x10, .f32⟩
  | 4 => ⟨S500000x10, .f32⟩
  | 5 => ⟨S1x2000000, .i32⟩
  | 6 => ⟨S2000000, .i32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x10, .f32⟩
  | 16 => ⟨S1x2000000, .i32⟩
  | 17 => ⟨S2000000, .i32⟩
  | 18 => ⟨S_, .f32⟩
  | 19 => ⟨S500000x10, .f32⟩
  | 20 => ⟨S2000000x1, .i32⟩
  | 21 => ⟨S500000x10, .f32⟩
  | 22 => ⟨S1x500000x1, .f32⟩
  | 23 => ⟨S500000x1, .f32⟩
  | 24 => ⟨S500000x10, .f32⟩
  | 25 => ⟨S500000x10, .f32⟩
  | 26 => ⟨S500000x40, .f32⟩
  | 27 => ⟨S500000x10, .f32⟩
  | 28 => ⟨S1x2000000, .i32⟩
  | 29 => ⟨S2000000, .i32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000x10, .f32⟩
  | 39 => ⟨S1x2000000, .i32⟩
  | 40 => ⟨S2000000, .i32⟩
  | 41 => ⟨S_, .f32⟩
  | 42 => ⟨S500000x10, .f32⟩
  | 43 => ⟨S2000000x1, .i32⟩
  | 44 => ⟨S500000x10, .f32⟩
  | 45 => ⟨S1x500000x1, .f32⟩
  | 46 => ⟨S500000x1, .f32⟩
  | 47 => ⟨S500000x10, .f32⟩
  | 48 => ⟨S500000x10, .f32⟩
  | 49 => ⟨S1x2000000, .i32⟩
  | 50 => ⟨S2000000, .i32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x10, .f32⟩
  | 60 => ⟨S1x2000000, .i32⟩
  | 61 => ⟨S2000000, .i32⟩
  | 62 => ⟨S_, .f32⟩
  | 63 => ⟨S500000x10, .f32⟩
  | 64 => ⟨S2000000x1, .i32⟩
  | 65 => ⟨S500000x10, .f32⟩
  | 66 => ⟨S1x500000x1, .f32⟩
  | 67 => ⟨S500000x1, .f32⟩
  | 68 => ⟨S500000x10, .f32⟩
  | 69 => ⟨S500000x10, .f32⟩
  | 70 => ⟨S1x2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x10, .f32⟩
  | 81 => ⟨S1x2000000, .i32⟩
  | 82 => ⟨S2000000, .i32⟩
  | 83 => ⟨S_, .f32⟩
  | 84 => ⟨S500000x10, .f32⟩
  | 85 => ⟨S2000000x1, .i32⟩
  | 86 => ⟨S500000x10, .f32⟩
  | 87 => ⟨S1x500000x1, .f32⟩
  | 88 => ⟨S500000x1, .f32⟩
  | 89 => ⟨S500000x10, .f32⟩
  | 90 => ⟨S500000x10, .f32⟩
  | 91 => ⟨S1x2000000, .i32⟩
  | 92 => ⟨S2000000, .i32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x10, .f32⟩
  | 102 => ⟨S1x2000000, .i32⟩
  | 103 => ⟨S2000000, .i32⟩
  | 104 => ⟨S_, .f32⟩
  | 105 => ⟨S500000x10, .f32⟩
  | 106 => ⟨S2000000x1, .i32⟩
  | 107 => ⟨S500000x10, .f32⟩
  | 108 => ⟨S1x500000x1, .f32⟩
  | 109 => ⟨S500000x1, .f32⟩
  | 110 => ⟨S500000x10, .f32⟩
  | 111 => ⟨S500000x10, .f32⟩
  | 112 => ⟨S500000x40, .f32⟩
  | 113 => ⟨S500000x10, .f32⟩
  | 114 => ⟨S1x2000000, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S2000000x10, .f32⟩
  | 125 => ⟨S1x2000000, .i32⟩
  | 126 => ⟨S2000000, .i32⟩
  | 127 => ⟨S_, .i32⟩
  | _ => ⟨S500000x10, .f32⟩

abbrev hbmTy0_2 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x10, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000x10, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000x10, .f32⟩
  | 26 => ⟨S4000000x10, .f32⟩
  | 27 => ⟨S4000000x10, .f32⟩
  | 28 => ⟨S_, .i32⟩
  | 29 => ⟨S_, .f32⟩
  | 30 => ⟨S4001792x10, .f32⟩
  | 31 => ⟨S_, .i32⟩
  | 32 => ⟨S_, .f32⟩
  | 33 => ⟨S4001792x10, .f32⟩
  | 34 => ⟨S4001792, .f32⟩
  | 35 => ⟨S4000000, .f32⟩
  | 36 => ⟨S2000000, .f32⟩
  | 37 => ⟨S2000000, .f32⟩
  | _ => ⟨S500000x10, .f32⟩

abbrev hbmTy (i : Nat) : BufTy := match i / 128 with
  | 0 => hbmTy0_0 i
  | 1 => hbmTy0_1 i
  | 2 => hbmTy0_2 i
  | _ => ⟨S500000x10, .f32⟩

abbrev bufTy : (tb : Table) → Fin (tcTables nBuf tb) → BufTy
  | .hbm, ⟨i, _⟩ => hbmTy i
  | .local _ .vmem, ⟨0, _⟩ => ⟨S5000x10, .f32⟩
  | .local _ .vmem, ⟨1, _⟩ => ⟨S5000x10, .f32⟩
  | .local _ .vmem, ⟨2, _⟩ => ⟨S5000x40, .f32⟩
  | .local _ .vmem, ⟨3, _⟩ => ⟨S5000x40, .f32⟩
  | .local _ .vmem, ⟨4, _⟩ => ⟨S4x10x10, .f32⟩
  | .local _ .vmem, ⟨5, _⟩ => ⟨S4x10x10, .f32⟩
  | .local _ .vmem, ⟨6, _⟩ => ⟨S4x10, .f32⟩
  | .local _ .vmem, ⟨7, _⟩ => ⟨S5000x10, .f32⟩
  | .local _ .vmem, ⟨8, _⟩ => ⟨S5000x10, .f32⟩
  | .local _ .vmem, ⟨9, _⟩ => ⟨S5000x10, .f32⟩
  | .local _ .vmem, ⟨10, _⟩ => ⟨S5000x10, .f32⟩
  | .local _ .vmem, ⟨11, _⟩ => ⟨S5000x40, .f32⟩
  | .local _ .vmem, ⟨12, _⟩ => ⟨S5000x40, .f32⟩
  | .local _ .vmem, ⟨13, _⟩ => ⟨S4x10x10, .f32⟩
  | .local _ .vmem, ⟨14, _⟩ => ⟨S4x10x10, .f32⟩
  | .local _ .vmem, ⟨15, _⟩ => ⟨S4x10, .f32⟩
  | .local _ .vmem, ⟨16, _⟩ => ⟨S5000x10, .f32⟩
  | .local _ .vmem, ⟨17, _⟩ => ⟨S5000x10, .f32⟩
  | .local _ .vmem, ⟨18, _⟩ => ⟨S4096x10, .f32⟩
  | .local _ .vmem, ⟨19, _⟩ => ⟨S4096x10, .f32⟩
  | .local _ .vmem, ⟨20, _⟩ => ⟨S4096x10, .f32⟩
  | .local _ .vmem, ⟨21, _⟩ => ⟨S4096x10, .f32⟩
  | .local _ .vmem, ⟨22, _⟩ => ⟨S4096, .f32⟩
  | .local _ .vmem, ⟨23, _⟩ => ⟨S4096, .f32⟩
  | _, _ => ⟨S500000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_17 : Ref sig .tc := ⟨.hbm, 114, rfl⟩
abbrev main_v84 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_20 : Ref sig .tc := ⟨.hbm, 135, rfl⟩
abbrev main_v102 : Ref sig .tc := ⟨.hbm, 136, rfl⟩
abbrev main_v103 : Ref sig .tc := ⟨.hbm, 137, rfl⟩
abbrev main_c_21 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_22 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_23 : Ref sig .tc := ⟨.hbm, 158, rfl⟩
abbrev main_v122 : Ref sig .tc := ⟨.hbm, 159, rfl⟩
abbrev main_v123 : Ref sig .tc := ⟨.hbm, 160, rfl⟩
abbrev main_c_24 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_25 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_26 : Ref sig .tc := ⟨.hbm, 179, rfl⟩
abbrev main_v140 : Ref sig .tc := ⟨.hbm, 180, rfl⟩
abbrev main_v141 : Ref sig .tc := ⟨.hbm, 181, rfl⟩
abbrev main_c_27 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_28 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_29 : Ref sig .tc := ⟨.hbm, 200, rfl⟩
abbrev main_v158 : Ref sig .tc := ⟨.hbm, 201, rfl⟩
abbrev main_v159 : Ref sig .tc := ⟨.hbm, 202, rfl⟩
abbrev main_c_30 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_31 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_c_32 : Ref sig .tc := ⟨.hbm, 221, rfl⟩
abbrev main_v176 : Ref sig .tc := ⟨.hbm, 222, rfl⟩
abbrev main_v177 : Ref sig .tc := ⟨.hbm, 223, rfl⟩
abbrev main_c_33 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_cst_34 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_c_35 : Ref sig .tc := ⟨.hbm, 244, rfl⟩
abbrev main_v196 : Ref sig .tc := ⟨.hbm, 245, rfl⟩
abbrev main_v197 : Ref sig .tc := ⟨.hbm, 246, rfl⟩
abbrev main_c_36 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_c_37 : Ref sig .tc := ⟨.hbm, 255, rfl⟩
abbrev main_v205 : Ref sig .tc := ⟨.hbm, 256, rfl⟩
abbrev main_v206 : Ref sig .tc := ⟨.hbm, 257, rfl⟩
abbrev main_c_38 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_c_39 : Ref sig .tc := ⟨.hbm, 264, rfl⟩
abbrev main_v212 : Ref sig .tc := ⟨.hbm, 265, rfl⟩
abbrev main_v213 : Ref sig .tc := ⟨.hbm, 266, rfl⟩
abbrev main_c_40 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_c_41 : Ref sig .tc := ⟨.hbm, 273, rfl⟩
abbrev main_v219 : Ref sig .tc := ⟨.hbm, 274, rfl⟩
abbrev main_v220 : Ref sig .tc := ⟨.hbm, 275, rfl⟩
abbrev main_c_42 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_c_43 : Ref sig .tc := ⟨.hbm, 284, rfl⟩
abbrev main_call0_v0 : Ref sig .tc := ⟨.hbm, 285, rfl⟩
abbrev main_v228 : Ref sig .tc := ⟨.hbm, 286, rfl⟩
abbrev main_c_44 : Ref sig .tc := ⟨.hbm, 287, rfl⟩
abbrev main_call1_v0 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x10x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x10x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![977], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S2000000 : S_.BroadcastsInDim S2000000 (![] : Fin 0 → Fin S2000000.rank)
  slices_S4x2000000_S1x2000000_0_0 : S4x2000000.Slices ![0, 0] S1x2000000
  shapeCasts_S1x2000000_S2000000 : S1x2000000.ShapeCasts S2000000
  bcast_S_S500000 : S_.BroadcastsInDim S500000 (![] : Fin 0 → Fin S500000.rank)
  bcast_S2000000_S2000000x1_0 : S2000000.BroadcastsInDim S2000000x1 (![0] : Fin 1 → Fin S2000000x1.rank)
  bcast_S500000_S500000x1_0 : S500000.BroadcastsInDim S500000x1 (![0] : Fin 1 → Fin S500000x1.rank)
  slices_S4x2000000_S1x2000000_1_0 : S4x2000000.Slices ![1, 0] S1x2000000
  slices_S4x2000000_S1x2000000_2_0 : S4x2000000.Slices ![2, 0] S1x2000000
  slices_S4x2000000_S1x2000000_3_0 : S4x2000000.Slices ![3, 0] S1x2000000
  bcast_S500000x1_S1x500000x1_1_2 : S500000x1.BroadcastsInDim S1x500000x1 (![1, 2] : Fin 2 → Fin S1x500000x1.rank)
  concatenates_S1x500000x1_S1x500000x1_S1x500000x1_S1x500000x1_S4x500000x1_d0 : Shape.Concatenates [S1x500000x1, S1x500000x1, S1x500000x1, S1x500000x1] S4x500000x1 0
  bcast_S_S500000x10 : S_.BroadcastsInDim S500000x10 (![] : Fin 0 → Fin S500000x10.rank)
  slices_S4x500000x1_S1x500000x1_0_0_0 : S4x500000x1.Slices ![0, 0, 0] S1x500000x1
  shapeCasts_S1x500000x1_S500000x1 : S1x500000x1.ShapeCasts S500000x1
  bcast_S500000x1_S500000x10_0_1 : S500000x1.BroadcastsInDim S500000x10 (![0, 1] : Fin 2 → Fin S500000x10.rank)
  slices_S4x500000x1_S1x500000x1_1_0_0 : S4x500000x1.Slices ![1, 0, 0] S1x500000x1
  slices_S4x500000x1_S1x500000x1_2_0_0 : S4x500000x1.Slices ![2, 0, 0] S1x500000x1
  slices_S4x500000x1_S1x500000x1_3_0_0 : S4x500000x1.Slices ![3, 0, 0] S1x500000x1
  concatenates_S500000x10_S500000x10_S500000x10_S500000x10_S500000x40_d1 : Shape.Concatenates [S500000x10, S500000x10, S500000x10, S500000x10] S500000x40 1
  inb_S5000x10_S5000x10_0_0 : ∀ a, (![0, 0] : Fin 2 → Nat) a + S5000x10.size a ≤ S5000x10.size a
  h_S5000x10 : 0 < S5000x10.numel
  bitsLt_bf16_f32 : FTy.bits .bf16 < FTy.bits .f32
  inb_S5000x40_S5000x10_0_0 : ∀ a, (![0, 0] : Fin 2 → Nat) a + S5000x10.size a ≤ S5000x40.size a
  shapeCasts_S5000x10_S5000x10 : S5000x10.ShapeCasts S5000x10
  inb_S4x10x10_S1x10x10_0_0_0 : ∀ a, (![0, 0, 0] : Fin 3 → Nat) a + S1x10x10.size a ≤ S4x10x10.size a
  h_S1x10x10 : 0 < S1x10x10.numel
  shapeCasts_S1x10x10_S10x10 : S1x10x10.ShapeCasts S10x10
  transposes_S10x10_p1_0_S10x10 : S10x10.Transposes [1, 0] S10x10
  inb_S4x10_S1x10_0_0 : ∀ a, (![0, 0] : Fin 2 → Nat) a + S1x10.size a ≤ S4x10.size a
  h_S1x10 : 0 < S1x10.numel
  shapeCasts_S1x10_S10 : S1x10.ShapeCasts S10
  shapeCasts_S10_S1x10 : S10.ShapeCasts S1x10
  broadcasts_S1x10_S5000x10 : S1x10.Broadcasts S5000x10
  inb_S5000x40_S5000x10_0_10 : ∀ a, (![0, 10] : Fin 2 → Nat) a + S5000x10.size a ≤ S5000x40.size a
  inb_S4x10x10_S1x10x10_1_0_0 : ∀ a, (![1, 0, 0] : Fin 3 → Nat) a + S1x10x10.size a ≤ S4x10x10.size a
  inb_S4x10_S1x10_1_0 : ∀ a, (![1, 0] : Fin 2 → Nat) a + S1x10.size a ≤ S4x10.size a
  inb_S5000x40_S5000x10_0_20 : ∀ a, (![0, 20] : Fin 2 → Nat) a + S5000x10.size a ≤ S5000x40.size a
  inb_S4x10x10_S1x10x10_2_0_0 : ∀ a, (![2, 0, 0] : Fin 3 → Nat) a + S1x10x10.size a ≤ S4x10x10.size a
  inb_S4x10_S1x10_2_0 : ∀ a, (![2, 0] : Fin 2 → Nat) a + S1x10.size a ≤ S4x10.size a
  inb_S5000x40_S5000x10_0_30 : ∀ a, (![0, 30] : Fin 2 → Nat) a + S5000x10.size a ≤ S5000x40.size a
  inb_S4x10x10_S1x10x10_3_0_0 : ∀ a, (![3, 0, 0] : Fin 3 → Nat) a + S1x10x10.size a ≤ S4x10x10.size a
  inb_S4x10_S1x10_3_0 : ∀ a, (![3, 0] : Fin 2 → Nat) a + S1x10.size a ≤ S4x10.size a
  concatenates_S2000000x10_S2000000x10_S4000000x10_d0 : Shape.Concatenates [S2000000x10, S2000000x10] S4000000x10 0
  pads_S4000000x10_S4001792x10_017920_000 : S4000000x10.Pads (![0, 0] : Fin 2 → Nat) ![1792, 0] ![0, 0] S4001792x10
  h_S_ : 0 < S_.numel
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  reduces_S4096x10_S4096 : S4096x10.Reduces [1] S4096
  inb_S4096_S4096_0 : ∀ a, (![0] : Fin 1 → Nat) a + S4096.size a ≤ S4096.size a
  h_S4096 : 0 < S4096.numel
  slices_S4001792_S4000000_0 : S4001792.Slices ![0] S4000000
  slices_S4000000_S2000000_0 : S4000000.Slices ![0] S2000000
  slices_S4000000_S2000000_2000000 : S4000000.Slices ![2000000] S2000000
  scatter_S500000_S2000000x1_S2000000_n_0_0_1_wf : ScatterDims.WF S500000 S2000000x1 S2000000 [] [0] [0] 1
  gather_S500000x10_S2000000x1_S2000000x10_1_0_n_n_0_1_110_wf : GatherDims.WF S500000x10 S2000000x1 S2000000x10 [1] [0] [] [0] [] 1 ![1, 10]
  scatter_S500000x10_S2000000x1_S2000000x10_1_0_0_1_wf : ScatterDims.WF S500000x10 S2000000x1 S2000000x10 [1] [0] [0] 1
  dot_S5000x10_S10x10_S5000x10_1_0_0_1_n_n_wf : DotDims.WF S5000x10 S10x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S500000x10.size a
  hwx0_0 : ∀ i : grid0.Coords, EltTy.bits .f32 = 32 ∨ (Rect.block (s := S500000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x40.size a ≤ S500000x40.size a
  hwx0_1 : ∀ i : grid0.Coords, EltTy.bits .f32 = 32 ∨ (Rect.block (s := S500000x40) S5000x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x10x10.size a ≤ S4x10x10.size a
  hwx0_2 : ∀ i : grid0.Coords, EltTy.bits .f32 = 32 ∨ (Rect.block (s := S4x10x10) S4x10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x10x10.size a ≤ S4x10x10.size a
  hwx0_3 : ∀ i : grid0.Coords, EltTy.bits .f32 = 32 ∨ (Rect.block (s := S4x10x10) S4x10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x10.size a ≤ S4x10.size a
  hwx0_4 : ∀ i : grid0.Coords, EltTy.bits .f32 = 32 ∨ (Rect.block (s := S4x10) S4x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x10.size a ≤ S500000x10.size a
  hwx0_5 : ∀ i : grid0.Coords, EltTy.bits .f32 = 32 ∨ (Rect.block (s := S500000x10) S5000x10.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S500000x10.size a
  hwx1_0 : ∀ i : grid1.Coords, EltTy.bits .f32 = 32 ∨ (Rect.block (s := S500000x10) S5000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x40.size a ≤ S500000x40.size a
  hwx1_1 : ∀ i : grid1.Coords, EltTy.bits .f32 = 32 ∨ (Rect.block (s := S500000x40) S5000x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x10x10.size a ≤ S4x10x10.size a
  hwx1_2 : ∀ i : grid1.Coords, EltTy.bits .f32 = 32 ∨ (Rect.block (s := S4x10x10) S4x10x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x10x10.size a ≤ S4x10x10.size a
  hwx1_3 : ∀ i : grid1.Coords, EltTy.bits .f32 = 32 ∨ (Rect.block (s := S4x10x10) S4x10x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x10.size a ≤ S4x10.size a
  hwx1_4 : ∀ i : grid1.Coords, EltTy.bits .f32 = 32 ∨ (Rect.block (s := S4x10) S4x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S500000x10.size a
  hwx1_5 : ∀ i : grid1.Coords, EltTy.bits .f32 = 32 ∨ (Rect.block (s := S500000x10) S5000x10.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x10.size a ≤ S4001792x10.size a
  hwx2_0 : ∀ i : grid2.Coords, EltTy.bits .f32 = 32 ∨ (Rect.block (s := S4001792x10) S4096x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x10.size a ≤ S4001792x10.size a
  hwx2_1 : ∀ i : grid2.Coords, EltTy.bits .f32 = 32 ∨ (Rect.block (s := S4001792x10) S4096x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S4001792.size a
  hwx2_2 : ∀ i : grid2.Coords, EltTy.bits .f32 = 32 ∨ (Rect.block (s := S4001792) S4096.size (cc2_transform_2 i) (hinb2_2 i)).WholeWords (EltTy.packing .f32)

variable [Facts₀]

def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x10_S2000000x1_S2000000x10_1_0_n_n_0_1_110 : GatherDims S500000x10 S2000000x1 S2000000x10 where
  offsetDims := [1]
  collapsedSliceDims := [0]
  operandBatchingDims := []
  startIndicesBatchingDims := []
  startIndexMap := [0]
  indexVectorDim := 1
  sliceSizes := ![1, 10]
  wf := gather_S500000x10_S2000000x1_S2000000x10_1_0_n_n_0_1_110_wf
def scatter_S500000x10_S2000000x1_S2000000x10_1_0_0_1 : ScatterDims S500000x10 S2000000x1 S2000000x10 where
  updateWindowDims := [1]
  insertedWindowDims := [0]
  scatterDimsToOperandDims := [0]
  indexVectorDim := 1
  wf := scatter_S500000x10_S2000000x1_S2000000x10_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v118) S5000x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4x10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S4x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v119) S5000x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v119) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v192) S5000x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S4x10x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S4x10x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S4x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v193) S5000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v228) S4096x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v229) S4096x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v230) S4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S500000x10 : Shape := ⟨2, ![500000, 10]⟩
abbrev S4x2000000 : Shape := ⟨2, ![4, 2000000]⟩
abbrev S2000000 : Shape := ⟨1, ![2000000]⟩
abbrev S4x10x10 : Shape := ⟨3, ![4, 10, 10]⟩
abbrev S4x10 : Shape := ⟨2, ![4, 10]⟩
abbrev S_ : Shape := ⟨0, ![]⟩
abbrev S1x2000000 : Shape := ⟨2, ![1, 2000000]⟩
abbrev S500000 : Shape := ⟨1, ![500000]⟩
abbrev S2000000x1 : Shape := ⟨2, ![2000000, 1]⟩
abbrev S2000000x10 : Shape := ⟨2, ![2000000, 10]⟩
abbrev S500000x1 : Shape := ⟨2, ![500000, 1]⟩
abbrev S1x10x10 : Shape := ⟨3, ![1, 10, 10]⟩
abbrev S10x10 : Shape := ⟨2, ![10, 10]⟩
abbrev S1x10 : Shape := ⟨2, ![1, 10]⟩
abbrev S10 : Shape := ⟨1, ![10]⟩

abbrev nBuf : Space → Nat
  | .hbm => 417
  | .vmem => 0
  | .smem => 0
  | _ => 0

abbrev hbmTy0_0 (i : Nat) : BufTy := match i % 128 with
  | 0 => ⟨S500000x10, .f32⟩
  | 1 => ⟨S4x2000000, .i32⟩
  | 2 => ⟨S4x2000000, .i32⟩
  | 3 => ⟨S2000000, .i32⟩
  | 4 => ⟨S2000000, .i32⟩
  | 5 => ⟨S4x10x10, .f32⟩
  | 6 => ⟨S4x10x10, .f32⟩
  | 7 => ⟨S4x10, .f32⟩
  | 8 => ⟨S4x10x10, .f32⟩
  | 9 => ⟨S4x10x10, .f32⟩
  | 10 => ⟨S4x10, .f32⟩
  | 11 => ⟨S_, .f32⟩
  | 12 => ⟨S500000x10, .f32⟩
  | 13 => ⟨S_, .f32⟩
  | 14 => ⟨S2000000, .f32⟩
  | 15 => ⟨S1x2000000, .i32⟩
  | 16 => ⟨S2000000, .i32⟩
  | 17 => ⟨S_, .f32⟩
  | 18 => ⟨S500000, .f32⟩
  | 19 => ⟨S2000000x1, .i32⟩
  | 20 => ⟨S500000, .f32⟩
  | 21 => ⟨S1x2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x10, .f32⟩
  | 32 => ⟨S1x2000000, .i32⟩
  | 33 => ⟨S2000000, .i32⟩
  | 34 => ⟨S_, .f32⟩
  | 35 => ⟨S500000x10, .f32⟩
  | 36 => ⟨S2000000x1, .i32⟩
  | 37 => ⟨S500000x10, .f32⟩
  | 38 => ⟨S_, .f32⟩
  | 39 => ⟨S500000, .f32⟩
  | 40 => ⟨S500000, .f32⟩
  | 41 => ⟨S500000x1, .f32⟩
  | 42 => ⟨S500000x10, .f32⟩
  | 43 => ⟨S500000x10, .f32⟩
  | 44 => ⟨S1x10x10, .f32⟩
  | 45 => ⟨S10x10, .f32⟩
  | 46 => ⟨S10x10, .f32⟩
  | 47 => ⟨S500000x10, .f32⟩
  | 48 => ⟨S500000x10, .f32⟩
  | 49 => ⟨S1x10x10, .f32⟩
  | 50 => ⟨S10x10, .f32⟩
  | 51 => ⟨S10x10, .f32⟩
  | 52 => ⟨S500000x10, .f32⟩
  | 53 => ⟨S500000x10, .f32⟩
  | 54 => ⟨S1x10, .f32⟩
  | 55 => ⟨S10, .f32⟩
  | 56 => ⟨S1x10, .f32⟩
  | 57 => ⟨S500000x10, .f32⟩
  | 58 => ⟨S500000x10, .f32⟩
  | 59 => ⟨S1x2000000, .i32⟩
  | 60 => ⟨S2000000, .i32⟩
  | 61 => ⟨S_, .f32⟩
  | 62 => ⟨S500000, .f32⟩
  | 63 => ⟨S2000000x1, .i32⟩
  | 64 => ⟨S500000, .f32⟩
  | 65 => ⟨S1x2000000, .i32⟩
  | 66 => ⟨S2000000, .i32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x10, .f32⟩
  | 76 => ⟨S1x2000000, .i32⟩
  | 77 => ⟨S2000000, .i32⟩
  | 78 => ⟨S_, .f32⟩
  | 79 => ⟨S500000x10, .f32⟩
  | 80 => ⟨S2000000x1, .i32⟩
  | 81 => ⟨S500000x10, .f32⟩
  | 82 => ⟨S_, .f32⟩
  | 83 => ⟨S500000, .f32⟩
  | 84 => ⟨S500000, .f32⟩
  | 85 => ⟨S500000x1, .f32⟩
  | 86 => ⟨S500000x10, .f32⟩
  | 87 => ⟨S500000x10, .f32⟩
  | 88 => ⟨S1x10x10, .f32⟩
  | 89 => ⟨S10x10, .f32⟩
  | 90 => ⟨S10x10, .f32⟩
  | 91 => ⟨S500000x10, .f32⟩
  | 92 => ⟨S500000x10, .f32⟩
  | 93 => ⟨S1x10x10, .f32⟩
  | 94 => ⟨S10x10, .f32⟩
  | 95 => ⟨S10x10, .f32⟩
  | 96 => ⟨S500000x10, .f32⟩
  | 97 => ⟨S500000x10, .f32⟩
  | 98 => ⟨S1x10, .f32⟩
  | 99 => ⟨S10, .f32⟩
  | 100 => ⟨S1x10, .f32⟩
  | 101 => ⟨S500000x10, .f32⟩
  | 102 => ⟨S500000x10, .f32⟩
  | 103 => ⟨S1x2000000, .i32⟩
  | 104 => ⟨S2000000, .i32⟩
  | 105 => ⟨S_, .f32⟩
  | 106 => ⟨S500000, .f32⟩
  | 107 => ⟨S2000000x1, .i32⟩
  | 108 => ⟨S500000, .f32⟩
  | 109 => ⟨S1x2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x10, .f32⟩
  | 120 => ⟨S1x2000000, .i32⟩
  | 121 => ⟨S2000000, .i32⟩
  | 122 => ⟨S_, .f32⟩
  | 123 => ⟨S500000x10, .f32⟩
  | 124 => ⟨S2000000x1, .i32⟩
  | 125 => ⟨S500000x10, .f32⟩
  | 126 => ⟨S_, .f32⟩
  | 127 => ⟨S500000, .f32⟩
  | _ => ⟨S500000x10, .f32⟩

abbrev hbmTy0_1 (i : Nat) : BufTy := match i % 128 with
  | 0 => ⟨S500000, .f32⟩
  | 1 => ⟨S500000x1, .f32⟩
  | 2 => ⟨S500000x10, .f32⟩
  | 3 => ⟨S500000x10, .f32⟩
  | 4 => ⟨S1x10x10, .f32⟩
  | 5 => ⟨S10x10, .f32⟩
  | 6 => ⟨S10x10, .f32⟩
  | 7 => ⟨S500000x10, .f32⟩
  | 8 => ⟨S500000x10, .f32⟩
  | 9 => ⟨S1x10x10, .f32⟩
  | 10 => ⟨S10x10, .f32⟩
  | 11 => ⟨S10x10, .f32⟩
  | 12 => ⟨S500000x10, .f32⟩
  | 13 => ⟨S500000x10, .f32⟩
  | 14 => ⟨S1x10, .f32⟩
  | 15 => ⟨S10, .f32⟩
  | 16 => ⟨S1x10, .f32⟩
  | 17 => ⟨S500000x10, .f32⟩
  | 18 => ⟨S500000x10, .f32⟩
  | 19 => ⟨S1x2000000, .i32⟩
  | 20 => ⟨S2000000, .i32⟩
  | 21 => ⟨S_, .f32⟩
  | 22 => ⟨S500000, .f32⟩
  | 23 => ⟨S2000000x1, .i32⟩
  | 24 => ⟨S500000, .f32⟩
  | 25 => ⟨S1x2000000, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x10, .f32⟩
  | 36 => ⟨S1x2000000, .i32⟩
  | 37 => ⟨S2000000, .i32⟩
  | 38 => ⟨S_, .f32⟩
  | 39 => ⟨S500000x10, .f32⟩
  | 40 => ⟨S2000000x1, .i32⟩
  | 41 => ⟨S500000x10, .f32⟩
  | 42 => ⟨S_, .f32⟩
  | 43 => ⟨S500000, .f32⟩
  | 44 => ⟨S500000, .f32⟩
  | 45 => ⟨S500000x1, .f32⟩
  | 46 => ⟨S500000x10, .f32⟩
  | 47 => ⟨S500000x10, .f32⟩
  | 48 => ⟨S1x10x10, .f32⟩
  | 49 => ⟨S10x10, .f32⟩
  | 50 => ⟨S10x10, .f32⟩
  | 51 => ⟨S500000x10, .f32⟩
  | 52 => ⟨S500000x10, .f32⟩
  | 53 => ⟨S1x10x10, .f32⟩
  | 54 => ⟨S10x10, .f32⟩
  | 55 => ⟨S10x10, .f32⟩
  | 56 => ⟨S500000x10, .f32⟩
  | 57 => ⟨S500000x10, .f32⟩
  | 58 => ⟨S1x10, .f32⟩
  | 59 => ⟨S10, .f32⟩
  | 60 => ⟨S1x10, .f32⟩
  | 61 => ⟨S500000x10, .f32⟩
  | 62 => ⟨S500000x10, .f32⟩
  | 63 => ⟨S_, .f32⟩
  | 64 => ⟨S500000x10, .f32⟩
  | 65 => ⟨S_, .f32⟩
  | 66 => ⟨S2000000, .f32⟩
  | 67 => ⟨S1x2000000, .i32⟩
  | 68 => ⟨S2000000, .i32⟩
  | 69 => ⟨S_, .f32⟩
  | 70 => ⟨S500000, .f32⟩
  | 71 => ⟨S2000000x1, .i32⟩
  | 72 => ⟨S500000, .f32⟩
  | 73 => ⟨S1x2000000, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i32⟩
  | 81 => ⟨S2000000, .i32⟩
  | 82 => ⟨S2000000x1, .i32⟩
  | 83 => ⟨S2000000x10, .f32⟩
  | 84 => ⟨S1x2000000, .i32⟩
  | 85 => ⟨S2000000, .i32⟩
  | 86 => ⟨S_, .f32⟩
  | 87 => ⟨S500000x10, .f32⟩
  | 88 => ⟨S2000000x1, .i32⟩
  | 89 => ⟨S500000x10, .f32⟩
  | 90 => ⟨S_, .f32⟩
  | 91 => ⟨S500000, .f32⟩
  | 92 => ⟨S500000, .f32⟩
  | 93 => ⟨S500000x1, .f32⟩
  | 94 => ⟨S500000x10, .f32⟩
  | 95 => ⟨S500000x10, .f32⟩
  | 96 => ⟨S1x10x10, .f32⟩
  | 97 => ⟨S10x10, .f32⟩
  | 98 => ⟨S10x10, .f32⟩
  | 99 => ⟨S500000x10, .f32⟩
  | 100 => ⟨S500000x10, .f32⟩
  | 101 => ⟨S1x10x10, .f32⟩
  | 102 => ⟨S10x10, .f32⟩
  | 103 => ⟨S10x10, .f32⟩
  | 104 => ⟨S500000x10, .f32⟩
  | 105 => ⟨S500000x10, .f32⟩
  | 106 => ⟨S1x10, .f32⟩
  | 107 => ⟨S10, .f32⟩
  | 108 => ⟨S1x10, .f32⟩
  | 109 => ⟨S500000x10, .f32⟩
  | 110 => ⟨S500000x10, .f32⟩
  | 111 => ⟨S1x2000000, .i32⟩
  | 112 => ⟨S2000000, .i32⟩
  | 113 => ⟨S_, .f32⟩
  | 114 => ⟨S500000, .f32⟩
  | 115 => ⟨S2000000x1, .i32⟩
  | 116 => ⟨S500000, .f32⟩
  | 117 => ⟨S1x2000000, .i32⟩
  | 118 => ⟨S2000000, .i32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x10, .f32⟩
  | _ => ⟨S500000x10, .f32⟩

abbrev hbmTy0_2 (i : Nat) : BufTy := match i % 128 with
  | 0 => ⟨S1x2000000, .i32⟩
  | 1 => ⟨S2000000, .i32⟩
  | 2 => ⟨S_, .f32⟩
  | 3 => ⟨S500000x10, .f32⟩
  | 4 => ⟨S2000000x1, .i32⟩
  | 5 => ⟨S500000x10, .f32⟩
  | 6 => ⟨S_, .f32⟩
  | 7 => ⟨S500000, .f32⟩
  | 8 => ⟨S500000, .f32⟩
  | 9 => ⟨S500000x1, .f32⟩
  | 10 => ⟨S500000x10, .f32⟩
  | 11 => ⟨S500000x10, .f32⟩
  | 12 => ⟨S1x10x10, .f32⟩
  | 13 => ⟨S10x10, .f32⟩
  | 14 => ⟨S10x10, .f32⟩
  | 15 => ⟨S500000x10, .f32⟩
  | 16 => ⟨S500000x10, .f32⟩
  | 17 => ⟨S1x10x10, .f32⟩
  | 18 => ⟨S10x10, .f32⟩
  | 19 => ⟨S10x10, .f32⟩
  | 20 => ⟨S500000x10, .f32⟩
  | 21 => ⟨S500000x10, .f32⟩
  | 22 => ⟨S1x10, .f32⟩
  | 23 => ⟨S10, .f32⟩
  | 24 => ⟨S1x10, .f32⟩
  | 25 => ⟨S500000x10, .f32⟩
  | 26 => ⟨S500000x10, .f32⟩
  | 27 => ⟨S1x2000000, .i32⟩
  | 28 => ⟨S2000000, .i32⟩
  | 29 => ⟨S_, .f32⟩
  | 30 => ⟨S500000, .f32⟩
  | 31 => ⟨S2000000x1, .i32⟩
  | 32 => ⟨S500000, .f32⟩
  | 33 => ⟨S1x2000000, .i32⟩
  | 34 => ⟨S2000000, .i32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x10, .f32⟩
  | 44 => ⟨S1x2000000, .i32⟩
  | 45 => ⟨S2000000, .i32⟩
  | 46 => ⟨S_, .f32⟩
  | 47 => ⟨S500000x10, .f32⟩
  | 48 => ⟨S2000000x1, .i32⟩
  | 49 => ⟨S500000x10, .f32⟩
  | 50 => ⟨S_, .f32⟩
  | 51 => ⟨S500000, .f32⟩
  | 52 => ⟨S500000, .f32⟩
  | 53 => ⟨S500000x1, .f32⟩
  | 54 => ⟨S500000x10, .f32⟩
  | 55 => ⟨S500000x10, .f32⟩
  | 56 => ⟨S1x10x10, .f32⟩
  | 57 => ⟨S10x10, .f32⟩
  | 58 => ⟨S10x10, .f32⟩
  | 59 => ⟨S500000x10, .f32⟩
  | 60 => ⟨S500000x10, .f32⟩
  | 61 => ⟨S1x10x10, .f32⟩
  | 62 => ⟨S10x10, .f32⟩
  | 63 => ⟨S10x10, .f32⟩
  | 64 => ⟨S500000x10, .f32⟩
  | 65 => ⟨S500000x10, .f32⟩
  | 66 => ⟨S1x10, .f32⟩
  | 67 => ⟨S10, .f32⟩
  | 68 => ⟨S1x10, .f32⟩
  | 69 => ⟨S500000x10, .f32⟩
  | 70 => ⟨S500000x10, .f32⟩
  | 71 => ⟨S1x2000000, .i32⟩
  | 72 => ⟨S2000000, .i32⟩
  | 73 => ⟨S_, .f32⟩
  | 74 => ⟨S500000, .f32⟩
  | 75 => ⟨S2000000x1, .i32⟩
  | 76 => ⟨S500000, .f32⟩
  | 77 => ⟨S1x2000000, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x10, .f32⟩
  | 88 => ⟨S1x2000000, .i32⟩
  | 89 => ⟨S2000000, .i32⟩
  | 90 => ⟨S_, .f32⟩
  | 91 => ⟨S500000x10, .f32⟩
  | 92 => ⟨S2000000x1, .i32⟩
  | 93 => ⟨S500000x10, .f32⟩
  | 94 => ⟨S_, .f32⟩
  | 95 => ⟨S500000, .f32⟩
  | 96 => ⟨S500000, .f32⟩
  | 97 => ⟨S500000x1, .f32⟩
  | 98 => ⟨S500000x10, .f32⟩
  | 99 => ⟨S500000x10, .f32⟩
  | 100 => ⟨S1x10x10, .f32⟩
  | 101 => ⟨S10x10, .f32⟩
  | 102 => ⟨S10x10, .f32⟩
  | 103 => ⟨S500000x10, .f32⟩
  | 104 => ⟨S500000x10, .f32⟩
  | 105 => ⟨S1x10x10, .f32⟩
  | 106 => ⟨S10x10, .f32⟩
  | 107 => ⟨S10x10, .f32⟩
  | 108 => ⟨S500000x10, .f32⟩
  | 109 => ⟨S500000x10, .f32⟩
  | 110 => ⟨S1x10, .f32⟩
  | 111 => ⟨S10, .f32⟩
  | 112 => ⟨S1x10, .f32⟩
  | 113 => ⟨S500000x10, .f32⟩
  | 114 => ⟨S500000x10, .f32⟩
  | 115 => ⟨S1x2000000, .i32⟩
  | 116 => ⟨S2000000, .i32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S2000000x1, .i32⟩
  | 125 => ⟨S2000000x10, .f32⟩
  | 126 => ⟨S1x2000000, .i32⟩
  | 127 => ⟨S2000000, .i32⟩
  | _ => ⟨S500000x10, .f32⟩

abbrev hbmTy0_3 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S2000000x10, .f32⟩
  | 9 => ⟨S2000000x10, .f32⟩
  | 10 => ⟨S_, .f32⟩
  | 11 => ⟨S2000000, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x10, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x10, .f32⟩
  | 30 => ⟨S2000000x10, .f32⟩
  | 31 => ⟨S_, .f32⟩
  | 32 => ⟨S2000000, .f32⟩
  | _ => ⟨S500000x10, .f32⟩

abbrev hbmTy (i : Nat) : BufTy := match i / 128 with
  | 0 => hbmTy0_0 i
  | 1 => hbmTy0_1 i
  | 2 => hbmTy0_2 i
  | 3 => hbmTy0_3 i
  | _ => ⟨S500000x10, .f32⟩

abbrev bufTy : (tb : Table) → Fin (tcTables nBuf tb) → BufTy
  | .hbm, ⟨i, _⟩ => hbmTy i
  | _, _ => ⟨S500000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_11 : Ref sig .tc := ⟨.hbm, 111, rfl⟩
abbrev main_v87 : Ref sig .tc := ⟨.hbm, 112, rfl⟩
abbrev main_v88 : Ref sig .tc := ⟨.hbm, 113, rfl⟩
abbrev main_c_12 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_14 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_15 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_c_16 : Ref sig .tc := ⟨.hbm, 155, rfl⟩
abbrev main_v126 : Ref sig .tc := ⟨.hbm, 156, rfl⟩
abbrev main_v127 : Ref sig .tc := ⟨.hbm, 157, rfl⟩
abbrev main_c_17 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_18 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_19 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_20 : Ref sig .tc := ⟨.hbm, 191, rfl⟩
abbrev main_v158 : Ref sig .tc := ⟨.hbm, 192, rfl⟩
abbrev main_cst_21 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_22 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_c_23 : Ref sig .tc := ⟨.hbm, 203, rfl⟩
abbrev main_v167 : Ref sig .tc := ⟨.hbm, 204, rfl⟩
abbrev main_v168 : Ref sig .tc := ⟨.hbm, 205, rfl⟩
abbrev main_c_24 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_cst_25 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_cst_26 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_cst_27 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_c_28 : Ref sig .tc := ⟨.hbm, 247, rfl⟩
abbrev main_v206 : Ref sig .tc := ⟨.hbm, 248, rfl⟩
abbrev main_v207 : Ref sig .tc := ⟨.hbm, 249, rfl⟩
abbrev main_c_29 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_cst_30 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_cst_31 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_cst_32 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_c_33 : Ref sig .tc := ⟨.hbm, 291, rfl⟩
abbrev main_v245 : Ref sig .tc := ⟨.hbm, 292, rfl⟩
abbrev main_v246 : Ref sig .tc := ⟨.hbm, 293, rfl⟩
abbrev main_c_34 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_cst_35 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_cst_36 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_cst_37 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_c_38 : Ref sig .tc := ⟨.hbm, 335, rfl⟩
abbrev main_v284 : Ref sig .tc := ⟨.hbm, 336, rfl⟩
abbrev main_v285 : Ref sig .tc := ⟨.hbm, 337, rfl⟩
abbrev main_c_39 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_cst_40 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_cst_41 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_c_42 : Ref sig .tc := ⟨.hbm, 373, rfl⟩
abbrev main_v318 : Ref sig .tc := ⟨.hbm, 374, rfl⟩
abbrev main_v319 : Ref sig .tc := ⟨.hbm, 375, rfl⟩
abbrev main_c_43 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_c_44 : Ref sig .tc := ⟨.hbm, 384, rfl⟩
abbrev main_v327 : Ref sig .tc := ⟨.hbm, 385, rfl⟩
abbrev main_v328 : Ref sig .tc := ⟨.hbm, 386, rfl⟩
abbrev main_c_45 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_cst_46 : Ref sig .tc := ⟨.hbm, 394, rfl⟩
abbrev main_v335 : Ref sig .tc := ⟨.hbm, 395, rfl⟩
abbrev main_c_47 : Ref sig .tc := ⟨.hbm, 396, rfl⟩
abbrev main_v336 : Ref sig .tc := ⟨.hbm, 397, rfl⟩
abbrev main_v337 : Ref sig .tc := ⟨.hbm, 398, rfl⟩
abbrev main_c_48 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_c_49 : Ref sig .tc := ⟨.hbm, 405, rfl⟩
abbrev main_v343 : Ref sig .tc := ⟨.hbm, 406, rfl⟩
abbrev main_v344 : Ref sig .tc := ⟨.hbm, 407, rfl⟩
abbrev main_c_50 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_cst_51 : Ref sig .tc := ⟨.hbm, 415, rfl⟩
abbrev main_v351 : Ref sig .tc := ⟨.hbm, 416, rfl⟩

abbrev nD : Nat := 1
abbrev τ : Topo := Topo.v7x

variable {F : FTy → Type} [FloatOps F]

class Facts₀ : Prop where
  bcast_S_S500000x10 : S_.BroadcastsInDim S500000x10 (![] : Fin 0 → Fin S500000x10.rank)
  bcast_S_S2000000 : S_.BroadcastsInDim S2000000 (![] : Fin 0 → Fin S2000000.rank)
  slices_S4x2000000_S1x2000000_0_0 : S4x2000000.Slices ![0, 0] S1x2000000
  shapeCasts_S1x2000000_S2000000 : S1x2000000.ShapeCasts S2000000
  bcast_S_S500000 : S_.BroadcastsInDim S500000 (![] : Fin 0 → Fin S500000.rank)
  bcast_S2000000_S2000000x1_0 : S2000000.BroadcastsInDim S2000000x1 (![0] : Fin 1 → Fin S2000000x1.rank)
  bcast_S500000_S500000x1_0 : S500000.BroadcastsInDim S500000x1 (![0] : Fin 1 → Fin S500000x1.rank)
  bcast_S500000x1_S500000x10_0_1 : S500000x1.BroadcastsInDim S500000x10 (![0, 1] : Fin 2 → Fin S500000x10.rank)
  slices_S4x10x10_S1x10x10_0_0_0 : S4x10x10.Slices ![0, 0, 0] S1x10x10
  shapeCasts_S1x10x10_S10x10 : S1x10x10.ShapeCasts S10x10
  transposes_S10x10_S10x10_1_0 : S10x10.Transposes [1, 0] S10x10
  slices_S4x10_S1x10_0_0 : S4x10.Slices ![0, 0] S1x10
  shapeCasts_S1x10_S10 : S1x10.ShapeCasts S10
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  slices_S4x2000000_S1x2000000_1_0 : S4x2000000.Slices ![1, 0] S1x2000000
  slices_S4x10x10_S1x10x10_1_0_0 : S4x10x10.Slices ![1, 0, 0] S1x10x10
  slices_S4x10_S1x10_1_0 : S4x10.Slices ![1, 0] S1x10
  slices_S4x2000000_S1x2000000_2_0 : S4x2000000.Slices ![2, 0] S1x2000000
  slices_S4x10x10_S1x10x10_2_0_0 : S4x10x10.Slices ![2, 0, 0] S1x10x10
  slices_S4x10_S1x10_2_0 : S4x10.Slices ![2, 0] S1x10
  slices_S4x2000000_S1x2000000_3_0 : S4x2000000.Slices ![3, 0] S1x2000000
  slices_S4x10x10_S1x10x10_3_0_0 : S4x10x10.Slices ![3, 0, 0] S1x10x10
  slices_S4x10_S1x10_3_0 : S4x10.Slices ![3, 0] S1x10
  reducesTo_S2000000x10_S2000000_d1 : S2000000x10.ReducesTo [1] S2000000
  h_S_ : 0 < S_.numel
  scatter_S500000_S2000000x1_S2000000_n_0_0_1_wf : ScatterDims.WF S500000 S2000000x1 S2000000 [] [0] [0] 1
  gather_S500000x10_S2000000x1_S2000000x10_1_0_n_n_0_1_110_wf : GatherDims.WF S500000x10 S2000000x1 S2000000x10 [1] [0] [] [0] [] 1 ![1, 10]
  scatter_S500000x10_S2000000x1_S2000000x10_1_0_0_1_wf : ScatterDims.WF S500000x10 S2000000x1 S2000000x10 [1] [0] [0] 1
  dot_S500000x10_S10x10_S500000x10_1_0_0_1_n_n_wf : DotDims.WF S500000x10 S10x10 S500000x10 [1] [0] [0] [1] [] []

variable [Facts₀]

def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x10_S2000000x1_S2000000x10_1_0_n_n_0_1_110 : GatherDims S500000x10 S2000000x1 S2000000x10 where
  offsetDims := [1]
  collapsedSliceDims := [0]
  operandBatchingDims := []
  startIndicesBatchingDims := []
  startIndexMap := [0]
  indexVectorDim := 1
  sliceSizes := ![1, 10]
  wf := gather_S500000x10_S2000000x1_S2000000x10_1_0_n_n_0_1_110_wf
def scatter_S500000x10_S2000000x1_S2000000x10_1_0_0_1 : ScatterDims S500000x10 S2000000x1 S2000000x10 where
  updateWindowDims := [1]
  insertedWindowDims := [0]
  scatterDimsToOperandDims := [0]
  indexVectorDim := 1
  wf := scatter_S500000x10_S2000000x1_S2000000x10_1_0_0_1_wf
def dot_S500000x10_S10x10_S500000x10_1_0_0_1_n_n : DotDims S500000x10 S10x10 S500000x10 where
  lhsContracting := [1]
  rhsContracting := [0]
  lhsNonContracting := [0]
  rhsNonContracting := [1]
  lhsBatch := []
  rhsBatch := []
  wf := dot_S500000x10_S10x10_S500000x10_1_0_0_1_n_n_wf

class Facts : Prop extends Facts₀ where

variable [Facts]
-- ==== Proof.BitsCombine1.lean ====
import proofs.«163996_j25580825215696_1_alg».proof.Proof.Gen.Kernel.Launch
import proofs.«163996_j25580825215696_1_alg».proof.Proof.Gen.Kernel.Skeleton
import proofs.«163996_j25580825215696_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The dense combination of layer 1: one block of 5000 nodes per grid point

Per point the body reads a 5000×10 block of node features, the matching 5000×40 block of the four relations'
neighbour means side by side, the four 10×10 self and neighbour weight matrices and the four bias rows, and stores
one 5000×10 block: the sum over the relations of features · selfᵀ + mean · neighbourᵀ + bias. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or the block index
    has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether the point fetches it or the block index
    has not moved since it was fetched. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether the point fetches it or the block index
    has not moved since it was fetched. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether the point fetches it or the block index
    has not moved since it was fetched. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether the point fetches it or the block index
    has not moved since it was fetched. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The rectangles the body reads and writes: the whole feature block, the four 10-column bands of the means,
    one weight matrix and one bias row per relation -/

abbrev rH0 : Rect S5000x10 := Rect.unit (s := S5000x10) ![0, 0] S5000x10.size inb_S5000x10_S5000x10_0_0
abbrev rM0_0 : Rect S5000x40 := Rect.unit (s := S5000x40) ![0, 0] S5000x10.size inb_S5000x40_S5000x10_0_0
abbrev rW0_0 : Rect S4x10x10 := Rect.unit (s := S4x10x10) ![0, 0, 0] S1x10x10.size inb_S4x10x10_S1x10x10_0_0_0
abbrev rB0_0 : Rect S4x10 := Rect.unit (s := S4x10) ![0, 0] S1x10.size inb_S4x10_S1x10_0_0
abbrev rM0_1 : Rect S5000x40 := Rect.unit (s := S5000x40) ![0, 10] S5000x10.size inb_S5000x40_S5000x10_0_10
abbrev rW0_1 : Rect S4x10x10 := Rect.unit (s := S4x10x10) ![1, 0, 0] S1x10x10.size inb_S4x10x10_S1x10x10_1_0_0
abbrev rB0_1 : Rect S4x10 := Rect.unit (s := S4x10) ![1, 0] S1x10.size inb_S4x10_S1x10_1_0
abbrev rM0_2 : Rect S5000x40 := Rect.unit (s := S5000x40) ![0, 20] S5000x10.size inb_S5000x40_S5000x10_0_20
abbrev rW0_2 : Rect S4x10x10 := Rect.unit (s := S4x10x10) ![2, 0, 0] S1x10x10.size inb_S4x10x10_S1x10x10_2_0_0
abbrev rB0_2 : Rect S4x10 := Rect.unit (s := S4x10) ![2, 0] S1x10.size inb_S4x10_S1x10_2_0
abbrev rM0_3 : Rect S5000x40 := Rect.unit (s := S5000x40) ![0, 30] S5000x10.size inb_S5000x40_S5000x10_0_30
abbrev rW0_3 : Rect S4x10x10 := Rect.unit (s := S4x10x10) ![3, 0, 0] S1x10x10.size inb_S4x10x10_S1x10x10_3_0_0
abbrev rB0_3 : Rect S4x10 := Rect.unit (s := S4x10) ![3, 0] S1x10.size inb_S4x10_S1x10_3_0

/-- The output buffer after the body: its one store, of the accumulated sum over the four relations, written over the
    whole 5000×10 block. -/
def out0_5 (x0 : Vec F S5000x10 .f32) (x1 : Vec F S5000x40 .f32) (x2 : Vec F S4x10x10 .f32) (x3 : Vec F S4x10x10 .f32) (x4 : Vec F S4x10 .f32) : Vec F S5000x10 .f32 :=
  View.canon [⟨rH0, k0_pay1 (k0_pay2 (View.ld x0 rH0))
    (k0_pay6 (k0_pay2 (View.ld x0 rH0)) (k0_pay3 (View.ld x1 rM0_1)) (k0_pay4 (View.ld x3 rW0_1))
      (k0_pay5 (View.ld x0 rH0) (View.ld x1 rM0_0) (View.ld x2 rW0_0) (View.ld x3 rW0_0) (View.ld x4 rB0_0) (View.ld x2 rW0_1))
      (View.ld x4 rB0_1) (View.ld x1 rM0_2) (View.ld x2 rW0_2) (View.ld x3 rW0_2) (View.ld x4 rB0_2))
    (k0_pay7 (View.ld x1 rM0_3)) (k0_pay8 (View.ld x2 rW0_3)) (k0_pay9 (View.ld x3 rW0_3)) (View.ld x4 rB0_3)⟩]

/-- The one store covers the whole block. -/
theorem cover0_5 (p0 : Vec F S5000x10 .f32) (y : S5000x10.Idx) :
    ∃ pc ∈ ([⟨rH0, p0⟩] : List (View.Piece (Elt F) S5000x10 .f32)), y ∈ pc.1.set :=
  View.cover_of_tiled [⟨rH0, p0⟩] S5000x10.size (by rfl) y

set_option maxHeartbeats 1000000 in
/-- The body, on whole staging buffers holding the five inputs' blocks and an output buffer at anything, runs to its
    end without a fault, leaves the inputs as they were and the output buffer at `out0_5` of them. -/
theorem sound_kernel0 (c : Dev nD) (E : Set ℕ) (i : grid0.Coords)
    (arg1 : Memref sig .tc .vmem S5000x10 .f32) (harg1 : arg1.IsWhole) (arg2 : Memref sig .tc .vmem S5000x40 .f32) (harg2 : arg2.IsWhole)
    (arg3 : Memref sig .tc .vmem S4x10x10 .f32) (harg3 : arg3.IsWhole) (arg4 : Memref sig .tc .vmem S4x10x10 .f32) (harg4 : arg4.IsWhole)
    (arg5 : Memref sig .tc .vmem S4x10 .f32) (harg5 : arg5.IsWhole) (arg6 : Memref sig .tc .vmem S5000x10 .f32) (harg6 : arg6.IsWhole)
    (x0 : Vec F S5000x10 .f32) (x1 : Vec F S5000x40 .f32) (x2 : Vec F S4x10x10 .f32) (x3 : Vec F S4x10x10 .f32) (x4 : Vec F S4x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_combine_kernel i arg1 harg1 arg2 harg2 arg3 harg3 arg4 harg4 arg5 harg5 arg6 harg6) K := by
  simp only [cc0__sage_combine_kernel_eq_skeleton]; unfold cc0__sage_combine_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

section
variable (V : (c : Dev nD) → (b : Ref sig .tc) → Buf (Elt F) ((c : Thread nD τ).loc b))

/-- The proof data of this pipeline on core `c`: the arrays as the region finds them; after the body at point `t`
    each input's buffer still at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every point. -/
theorem body_obligation0 (c : Dev nD) : BodyObligation (dat0 (F := F) V c) (defs₀ (F := F)) Variants.none () Set.univ := fun t => by
  rw [bigSep_W0, bigSep_W0]
  exact sound_body0 V c t

end

end Cert.Kernel.Regions

end
-- ==== Proof.BitsCombine2.lean ====
import proofs.«163996_j25580825215696_1_alg».proof.Proof.Gen.Kernel.Launch
import proofs.«163996_j25580825215696_1_alg».proof.Proof.Gen.Kernel.Skeleton
import proofs.«163996_j25580825215696_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The dense combination of layer 2: one block of 5000 nodes per grid point

Per point the body reads a 5000×10 block of node features, the matching 5000×40 block of the four relations'
neighbour means side by side, the four 10×10 self and neighbour weight matrices and the four bias rows, and stores
one 5000×10 block: the sum over the relations of features · selfᵀ + mean · neighbourᵀ + bias. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or the block index
    has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether the point fetches it or the block index
    has not moved since it was fetched. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether the point fetches it or the block index
    has not moved since it was fetched. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether the point fetches it or the block index
    has not moved since it was fetched. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether the point fetches it or the block index
    has not moved since it was fetched. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The rectangles the body reads and writes: the whole feature block, the four 10-column bands of the means,
    one weight matrix and one bias row per relation -/

abbrev rH1 : Rect S5000x10 := Rect.unit (s := S5000x10) ![0, 0] S5000x10.size inb_S5000x10_S5000x10_0_0
abbrev rM1_0 : Rect S5000x40 := Rect.unit (s := S5000x40) ![0, 0] S5000x10.size inb_S5000x40_S5000x10_0_0
abbrev rW1_0 : Rect S4x10x10 := Rect.unit (s := S4x10x10) ![0, 0, 0] S1x10x10.size inb_S4x10x10_S1x10x10_0_0_0
abbrev rB1_0 : Rect S4x10 := Rect.unit (s := S4x10) ![0, 0] S1x10.size inb_S4x10_S1x10_0_0
abbrev rM1_1 : Rect S5000x40 := Rect.unit (s := S5000x40) ![0, 10] S5000x10.size inb_S5000x40_S5000x10_0_10
abbrev rW1_1 : Rect S4x10x10 := Rect.unit (s := S4x10x10) ![1, 0, 0] S1x10x10.size inb_S4x10x10_S1x10x10_1_0_0
abbrev rB1_1 : Rect S4x10 := Rect.unit (s := S4x10) ![1, 0] S1x10.size inb_S4x10_S1x10_1_0
abbrev rM1_2 : Rect S5000x40 := Rect.unit (s := S5000x40) ![0, 20] S5000x10.size inb_S5000x40_S5000x10_0_20
abbrev rW1_2 : Rect S4x10x10 := Rect.unit (s := S4x10x10) ![2, 0, 0] S1x10x10.size inb_S4x10x10_S1x10x10_2_0_0
abbrev rB1_2 : Rect S4x10 := Rect.unit (s := S4x10) ![2, 0] S1x10.size inb_S4x10_S1x10_2_0
abbrev rM1_3 : Rect S5000x40 := Rect.unit (s := S5000x40) ![0, 30] S5000x10.size inb_S5000x40_S5000x10_0_30
abbrev rW1_3 : Rect S4x10x10 := Rect.unit (s := S4x10x10) ![3, 0, 0] S1x10x10.size inb_S4x10x10_S1x10x10_3_0_0
abbrev rB1_3 : Rect S4x10 := Rect.unit (s := S4x10) ![3, 0] S1x10.size inb_S4x10_S1x10_3_0

/-- The output buffer after the body: its one store, of the accumulated sum over the four relations, written over the
    whole 5000×10 block. -/
def out1_5 (x0 : Vec F S5000x10 .f32) (x1 : Vec F S5000x40 .f32) (x2 : Vec F S4x10x10 .f32) (x3 : Vec F S4x10x10 .f32) (x4 : Vec F S4x10 .f32) : Vec F S5000x10 .f32 :=
  View.canon [⟨rH1, k1_pay1 (k1_pay2 (View.ld x0 rH1))
    (k1_pay7 (k1_pay2 (View.ld x0 rH1))
      (k1_pay3 (View.ld x0 rH1) (View.ld x1 rM1_0) (View.ld x2 rW1_0) (View.ld x3 rW1_0) (View.ld x4 rB1_0))
      (k1_pay4 (View.ld x1 rM1_1)) (k1_pay5 (View.ld x3 rW1_1)) (k1_pay6 (View.ld x0 rH1) (View.ld x2 rW1_1))
      (View.ld x4 rB1_1) (View.ld x1 rM1_2) (View.ld x2 rW1_2) (View.ld x3 rW1_2) (View.ld x4 rB1_2))
    (k1_pay8 (View.ld x1 rM1_3)) (k1_pay9 (View.ld x2 rW1_3)) (k1_pay10 (View.ld x3 rW1_3)) (View.ld x4 rB1_3)⟩]

/-- The one store covers the whole block. -/
theorem cover1_5 (p0 : Vec F S5000x10 .f32) (y : S5000x10.Idx) :
    ∃ pc ∈ ([⟨rH1, p0⟩] : List (View.Piece (Elt F) S5000x10 .f32)), y ∈ pc.1.set :=
  View.cover_of_tiled [⟨rH1, p0⟩] S5000x10.size (by rfl) y

set_option maxHeartbeats 1000000 in
/-- The body, on whole staging buffers holding the five inputs' blocks and an output buffer at anything, runs to its
    end without a fault, leaves the inputs as they were and the output buffer at `out1_5` of them. -/
theorem sound_kernel1 (c : Dev nD) (E : Set ℕ) (i : grid1.Coords)
    (arg1 : Memref sig .tc .vmem S5000x10 .f32) (harg1 : arg1.IsWhole) (arg2 : Memref sig .tc .vmem S5000x40 .f32) (harg2 : arg2.IsWhole)
    (arg3 : Memref sig .tc .vmem S4x10x10 .f32) (harg3 : arg3.IsWhole) (arg4 : Memref sig .tc .vmem S4x10x10 .f32) (harg4 : arg4.IsWhole)
    (arg5 : Memref sig .tc .vmem S4x10 .f32) (harg5 : arg5.IsWhole) (arg6 : Memref sig .tc .vmem S5000x10 .f32) (harg6 : arg6.IsWhole)
    (x0 : Vec F S5000x10 .f32) (x1 : Vec F S5000x40 .f32) (x2 : Vec F S4x10x10 .f32) (x3 : Vec F S4x10x10 .f32) (x4 : Vec F S4x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_combine_kernel i arg1 harg1 arg2 harg2 arg3 harg3 arg4 harg4 arg5 harg5 arg6 harg6) K := by
  simp only [cc1__sage_combine_kernel_eq_skeleton]; unfold cc1__sage_combine_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

section
variable (V : (c : Dev nD) → (b : Ref sig .tc) → Buf (Elt F) ((c : Thread nD τ).loc b))

/-- The proof data of this pipeline on core `c`: the arrays as the region finds them; after the body at point `t`
    each input's buffer still at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is handed at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every point. -/
theorem body_obligation1 (c : Dev nD) : BodyObligation (dat1 (F := F) V c) (defs₀ (F := F)) Variants.none () Set.univ := fun t => by
  rw [bigSep_W1, bigSep_W1]
  exact sound_body1 V c t

end

end Cert.Kernel.Regions

end
-- ==== Proof.BitsScore.lean ====
import proofs.«163996_j25580825215696_1_alg».proof.Proof.Gen.Kernel.Launch
import proofs.«163996_j25580825215696_1_alg».proof.Proof.Gen.Kernel.Skeleton
import proofs.«163996_j25580825215696_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The edge scores: one block of 4096 edges per grid point

Per point the body reads the two 4096×10 blocks of gathered end-point features and stores, for each of the 4096 edges,
the sum over the ten features of their product. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

abbrev rE2 : Rect S4096x10 := Rect.unit (s := S4096x10) ![0, 0] S4096x10.size inb_S4096x10_S4096x10_0_0
abbrev rS2 : Rect S4096 := Rect.unit (s := S4096) ![0] S4096.size inb_S4096_S4096_0

/-- The output buffer after the body: its one store, of the 4096 row sums of the products. -/
def out2_2 (x0 : Vec F S4096x10 .f32) (x1 : Vec F S4096x10 .f32) : Vec F S4096 .f32 :=
  View.canon [⟨rS2, k2_pay1 (View.ld x0 rE2) (View.ld x1 rE2)⟩]

theorem cover2_2 (p0 : Vec F S4096 .f32) (y : S4096.Idx) :
    ∃ pc ∈ ([⟨rS2, p0⟩] : List (View.Piece (Elt F) S4096 .f32)), y ∈ pc.1.set :=
  View.cover_of_tiled [⟨rS2, p0⟩] S4096.size (by rfl) y

set_option maxHeartbeats 1000000 in
/-- The body, on whole staging buffers holding the two inputs' blocks and an output buffer at anything, runs to its end
    without a fault, leaves the inputs as they were and the output buffer at `out2_2` of them. -/
theorem sound_kernel2 (c : Dev nD) (E : Set ℕ) (i : grid2.Coords)
    (arg1 : Memref sig .tc .vmem S4096x10 .f32) (harg1 : arg1.IsWhole) (arg2 : Memref sig .tc .vmem S4096x10 .f32) (harg2 : arg2.IsWhole)
    (arg3 : Memref sig .tc .vmem S4096 .f32) (harg3 : arg3.IsWhole)
    (x0 : Vec F S4096x10 .f32) (x1 : Vec F S4096x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__score_kernel i arg1 harg1 arg2 harg2 arg3 harg3) K := by
  simp only [cc2__score_kernel_eq_skeleton]; unfold cc2__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

section
variable (V : (c : Dev nD) → (b : Ref sig .tc) → Buf (Elt F) ((c : Thread nD τ).loc b))

/-- The proof data of this pipeline on core `c`: the arrays as the region finds them; after the body at point `t`
    each input's buffer still at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch theorems, at every point. -/
theorem body_obligation2 (c : Dev nD) : BodyObligation (dat2 (F := F) V c) (defs₀ (F := F)) Variants.none () Set.univ := fun t => by
  rw [bigSep_W2, bigSep_W2]
  exact sound_body2 V c t

end

end Cert.Kernel.Regions

end
-- ==== Proof.BitsRun.lean ====
import proofs.«163996_j25580825215696_1_alg».proof.Proof.BitsCombine1
import proofs.«163996_j25580825215696_1_alg».proof.Proof.BitsCombine2
import proofs.«163996_j25580825215696_1_alg».proof.Proof.BitsScore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: the buffers' contents at every boundary between @main's items

@main is fourteen items: eleven stretches of host operations and the three kernel regions. `W j c` is core `c`'s
buffer contents after item `j − 1`: a stretch applies its operations in order; a region leaves in each of its arrays what
its write-backs left and every other buffer as it found it. -/

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev W3 : Dev nD → Valuation τ sig (Elt F) := fun c => StableHlo.after main_part2_ops0 (W2 m ρ c)
/-- The contents region 0 is entered with, read at the TensorCore's references. -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after main_part2_ops1 (W4 m ρ c)
abbrev W6 : Dev nD → Valuation τ sig (Elt F) := fun c => StableHlo.after main_part3_ops0 (W5 m ρ c)
/-- The contents region 1 is entered with, read at the TensorCore's references. -/
abbrev V6 : (c : Dev nD) → (b : Ref sig .tc) → Buf (Elt F) ((c : Thread nD τ).loc b) := fun c b => W6 m ρ c b
/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
abbrev W8 : Dev nD → Valuation τ sig (Elt F) := fun c => StableHlo.after main_part3_ops1 (W7 m ρ c)
abbrev W9 : Dev nD → Valuation τ sig (Elt F) := fun c => StableHlo.after main_part4_ops0 (W8 m ρ c)
abbrev W10 : Dev nD → Valuation τ sig (Elt F) := fun c => StableHlo.after main_part4_ops1 (W9 m ρ c)
abbrev W11 : Dev nD → Valuation τ sig (Elt F) := fun c => StableHlo.after main_part4_ops2 (W10 m ρ c)
abbrev W12 : Dev nD → Valuation τ sig (Elt F) := fun c => StableHlo.after main_part4_ops3 (W11 m ρ c)
/-- The contents region 2 is entered with, read at the TensorCore's references. -/
abbrev V12 : (c : Dev nD) → (b : Ref sig .tc) → Buf (Elt F) ((c : Thread nD τ).loc b) := fun c b => W12 m ρ c b
/-- At region 2's exit: its arrays at what the pipeline leaves, every other buffer as entered. -/
def W13 (c : Dev nD) : Valuation τ sig (Elt F) :=
  Pipeline.withArrays spec2 c (W12 m ρ c) fun w => (dat2 (V12 m ρ) c).arrAt w cfg2.N
theorem W13_arr (c : Dev nD) (w : Fin cfg2.W) :
    W13 m ρ c (Proc.devRef .tc (Pipeline.arrRef spec2 w)) = (dat2 (V12 m ρ) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev V13 : (c : Dev nD) → (b : Ref sig .tc) → Buf (Elt F) ((c : Thread nD τ).loc b) := fun c b => W13 m ρ c b
theorem hF2 (c : Dev nD) (w : Fin cfg2.W) : (dat2 (V12 m ρ) c).arrAt w cfg2.N = V13 m ρ c (Pipeline.arrRef spec2 w) :=
  (W13_arr m ρ c w).symm
theorem hrest2 (c : Dev nD) : ∀ b, b ∉ Finset.univ.image (Pipeline.arrRef spec2) → V13 m ρ c b = V12 m ρ c b :=
  fun b hb => W13_of_ne m ρ c b fun w e => hb (Finset.mem_image.mpr ⟨w, Finset.mem_univ _, e⟩)
abbrev W14 : Dev nD → Valuation τ sig (Elt F) := fun c => StableHlo.after main_part4_ops4 (W13 m ρ c)

/-! ## What the host stretches write: each operation writes its one result buffer, and none allocates -/

theorem main_part0_ops0_fresh : (main_part0_ops0 : List (HloOp τ sig (Elt F))).Forall fun op => op.fresh = ∅ := by
  simp only [List.Forall]; repeat' constructor
abbrev main_part0_ops0_W : List (Ref sig .tc) := [main_cst, main_v0, main_v1, main_v2, main_cst_0, main_v3, main_v4, main_v5, main_cst_1, main_v6, main_v7, main_cst_2, main_v8, main_v9, main_v10, main_v11, main_v12, main_cst_3, main_v13, main_v14, main_v15, main_cst_4, main_v16, main_v17, main_cst_5, main_v18, main_v19, main_v20, main_v21, main_v22, main_cst_6, main_v23, main_v24, main_v25, main_cst_7, main_v26, main_v27, main_cst_8, main_v28, main_v29, main_v30, main_v31, main_v32, main_cst_9, main_v33, main_v34, main_v35, main_cst_10, main_v36, main_v37, main_cst_11, main_v38, main_v39, main_v40, main_v41, main_v42, main_v43, main_v44, main_v45, main_v46]
theorem main_part0_ops0_writes : (main_part0_ops0 : List (HloOp τ sig (Elt F))).Forall fun op => op.writes ⊆ ((main_part0_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part1_ops0_fresh : (main_part1_ops0 : List (HloOp τ sig (Elt F))).Forall fun op => op.fresh = ∅ := by
  simp only [List.Forall]; repeat' constructor
abbrev main_part1_ops0_W : List (Ref sig .tc) := [main_v47, main_c, main_v48, main_v49, main_c_12, main_v50, main_v51, main_v52, main_v53, main_v54, main_v55, main_v56, main_cst_13, main_v57, main_v58, main_v59, main_v60, main_v61, main_v62, main_v63, main_v64, main_v65, main_c_14, main_v66, main_v67, main_c_15, main_v68, main_v69, main_v70, main_v71, main_v72, main_v73, main_v74, main_cst_16, main_v75, main_v76, main_v77, main_v78, main_v79, main_v80, main_v81, main_v82, main_v83, main_c_17, main_v84, main_v85, main_c_18, main_v86, main_v87, main_v88, main_v89, main_v90, main_v91, main_v92, main_cst_19, main_v93, main_v94, main_v95, main_v96, main_v97]
theorem main_part1_ops0_writes : (main_part1_ops0 : List (HloOp τ sig (Elt F))).Forall fun op => op.writes ⊆ ((main_part1_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part2_ops0_fresh : (main_part2_ops0 : List (HloOp τ sig (Elt F))).Forall fun op => op.fresh = ∅ := by
  simp only [List.Forall]; repeat' constructor
abbrev main_part2_ops0_W : List (Ref sig .tc) := [main_v98, main_v99, main_v100, main_v101, main_c_20, main_v102, main_v103, main_c_21, main_v104, main_v105, main_v106, main_v107, main_v108, main_v109, main_v110, main_cst_22, main_v111, main_v112, main_v113, main_v114, main_v115, main_v116, main_v117, main_v118]
theorem main_part2_ops0_writes : (main_part2_ops0 : List (HloOp τ sig (Elt F))).Forall fun op => op.writes ⊆ ((main_part2_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part2_ops1_fresh : (main_part2_ops1 : List (HloOp τ sig (Elt F))).Forall fun op => op.fresh = ∅ := by
  simp only [List.Forall]; repeat' constructor
abbrev main_part2_ops1_W : List (Ref sig .tc) := [main_v120, main_v121, main_c_23, main_v122, main_v123, main_c_24, main_v124, main_v125, main_v126, main_v127, main_v128, main_v129, main_v130, main_cst_25, main_v131, main_v132, main_v133, main_v134, main_v135, main_v136, main_v137, main_v138, main_v139, main_c_26, main_v140, main_v141, main_c_27, main_v142, main_v143, main_v144, main_v145, main_v146, main_v147, main_v148, main_cst_28]
theorem main_part2_ops1_writes : (main_part2_ops1 : List (HloOp τ sig (Elt F))).Forall fun op => op.writes ⊆ ((main_part2_ops1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part3_ops0_fresh : (main_part3_ops0 : List (HloOp τ sig (Elt F))).Forall fun op => op.fresh = ∅ := by
  simp only [List.Forall]; repeat' constructor
abbrev main_part3_ops0_W : List (Ref sig .tc) := [main_v149, main_v150, main_v151, main_v152, main_v153, main_v154, main_v155, main_v156, main_v157, main_c_29, main_v158, main_v159, main_c_30, main_v160, main_v161, main_v162, main_v163, main_v164, main_v165, main_v166, main_cst_31, main_v167, main_v168, main_v169, main_v170, main_v171, main_v172, main_v173, main_v174, main_v175, main_c_32, main_v176, main_v177, main_c_33, main_v178, main_v179, main_v180, main_v181, main_v182, main_v183, main_v184, main_cst_34, main_v185, main_v186, main_v187, main_v188, main_v189, main_v190, main_v191, main_v192]
theorem main_part3_ops0_writes : (main_part3_ops0 : List (HloOp τ sig (Elt F))).Forall fun op => op.writes ⊆ ((main_part3_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part3_ops1_fresh : (main_part3_ops1 : List (HloOp τ sig (Elt F))).Forall fun op => op.fresh = ∅ := by
  simp only [List.Forall]; repeat' constructor
abbrev main_part3_ops1_W : List (Ref sig .tc) := [main_v194, main_v195, main_c_35, main_v196, main_v197, main_c_36, main_v198, main_v199, main_v200]
theorem main_part3_ops1_writes : (main_part3_ops1 : List (HloOp τ sig (Elt F))).Forall fun op => op.writes ⊆ ((main_part3_ops1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops0_fresh : (main_part4_ops0 : List (HloOp τ sig (Elt F))).Forall fun op => op.fresh = ∅ := by
  simp only [List.Forall]; repeat' constructor
abbrev main_part4_ops0_W : List (Ref sig .tc) := [main_v201, main_v202, main_v203, main_v204, main_c_37, main_v205, main_v206, main_c_38, main_v207, main_v208, main_v209, main_v210, main_v211, main_c_39, main_v212, main_v213, main_c_40, main_v214, main_v215, main_v216, main_v217, main_v218, main_c_41, main_v219, main_v220, main_c_42, main_v221, main_v222, main_v223, main_v224, main_v225, main_v226, main_v227, main_c_43]
theorem main_part4_ops0_writes : (main_part4_ops0 : List (HloOp τ sig (Elt F))).Forall fun op => op.writes ⊆ ((main_part4_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops1_fresh : (main_part4_ops1 : List (HloOp τ sig (Elt F))).Forall fun op => op.fresh = ∅ := by
  simp only [List.Forall]; repeat' constructor
abbrev main_part4_ops1_W : List (Ref sig .tc) := [main_call0_v0, main_v228]
theorem main_part4_ops1_writes : (main_part4_ops1 : List (HloOp τ sig (Elt F))).Forall fun op => op.writes ⊆ ((main_part4_ops1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops2_fresh : (main_part4_ops2 : List (HloOp τ sig (Elt F))).Forall fun op => op.fresh = ∅ := by
  simp only [List.Forall]; repeat' constructor
abbrev main_part4_ops2_W : List (Ref sig .tc) := [main_c_44]
theorem main_part4_ops2_writes : (main_part4_ops2 : List (HloOp τ sig (Elt F))).Forall fun op => op.writes ⊆ ((main_part4_ops2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops3_fresh : (main_part4_ops3 : List (HloOp τ sig (Elt F))).Forall fun op => op.fresh = ∅ := by
  simp only [List.Forall]; repeat' constructor
abbrev main_part4_ops3_W : List (Ref sig .tc) := [main_call1_v0, main_v229]
theorem main_part4_ops3_writes : (main_part4_ops3 : List (HloOp τ sig (Elt F))).Forall fun op => op.writes ⊆ ((main_part4_ops3_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops4_fresh : (main_part4_ops4 : List (HloOp τ sig (Elt F))).Forall fun op => op.fresh = ∅ := by
  simp only [List.Forall]; repeat' constructor
abbrev main_part4_ops4_W : List (Ref sig .tc) := [main_v231, main_v232, main_v233]
theorem main_part4_ops4_writes : (main_part4_ops4 : List (HloOp τ sig (Elt F))).Forall fun op => op.writes ⊆ ((main_part4_ops4_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

/-! ## The arguments end as launched: no host operation writes one, and a region reads it through an input window or not at all -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := StableHlo.after_of_writes_sub main_part4_ops4 _ main_part4_ops4_writes (by decide)
    _ = W12 m ρ c (Proc.devRef .tc main_arg0) := W13_of_ne m ρ c main_arg0 (by decide)
    _ = W11 m ρ c (Proc.devRef .tc main_arg0) := StableHlo.after_of_writes_sub main_part4_ops3 _ main_part4_ops3_writes (by decide)
    _ = W10 m ρ c (Proc.devRef .tc main_arg0) := StableHlo.after_of_writes_sub main_part4_ops2 _ main_part4_ops2_writes (by decide)
    _ = W9 m ρ c (Proc.devRef .tc main_arg0) := StableHlo.after_of_writes_sub main_part4_ops1 _ main_part4_ops1_writes (by decide)
    _ = W8 m ρ c (Proc.devRef .tc main_arg0) := StableHlo.after_of_writes_sub main_part4_ops0 _ main_part4_ops0_writes (by decide)
    _ = W7 m ρ c (Proc.devRef .tc main_arg0) := StableHlo.after_of_writes_sub main_part3_ops1 _ main_part3_ops1_writes (by decide)
    _ = W6 m ρ c (Proc.devRef .tc main_arg0) := W7_of_ne m ρ c main_arg0 (by decide)
    _ = W5 m ρ c (Proc.devRef .tc main_arg0) := StableHlo.after_of_writes_sub main_part3_ops0 _ main_part3_ops0_writes (by decide)
    _ = W4 m ρ c (Proc.devRef .tc main_arg0) := StableHlo.after_of_writes_sub main_part2_ops1 _ main_part2_ops1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub main_part2_ops0 _ main_part2_ops0_writes (by decide)
    _ = W1 m ρ c (Proc.devRef .tc main_arg0) := StableHlo.after_of_writes_sub main_part1_ops0 _ main_part1_ops0_writes (by decide)
    _ = W0 m ρ c (Proc.devRef .tc main_arg0) := StableHlo.after_of_writes_sub main_part0_ops0 _ main_part0_ops0_writes (by decide)
    _ = m ((c : Thread nD τ).loc main_arg0) := rfl

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := StableHlo.after_of_writes_sub main_part4_ops4 _ main_part4_ops4_writes (by decide)
    _ = W12 m ρ c (Proc.devRef .tc main_arg1) := W13_of_ne m ρ c main_arg1 (by decide)
    _ = W11 m ρ c (Proc.devRef .tc main_arg1) := StableHlo.after_of_writes_sub main_part4_ops3 _ main_part4_ops3_writes (by decide)
    _ = W10 m ρ c (Proc.devRef .tc main_arg1) := StableHlo.after_of_writes_sub main_part4_ops2 _ main_part4_ops2_writes (by decide)
    _ = W9 m ρ c (Proc.devRef .tc main_arg1) := StableHlo.after_of_writes_sub main_part4_ops1 _ main_part4_ops1_writes (by decide)
    _ = W8 m ρ c (Proc.devRef .tc main_arg1) := StableHlo.after_of_writes_sub main_part4_ops0 _ main_part4_ops0_writes (by decide)
    _ = W7 m ρ c (Proc.devRef .tc main_arg1) := StableHlo.after_of_writes_sub main_part3_ops1 _ main_part3_ops1_writes (by decide)
    _ = W6 m ρ c (Proc.devRef .tc main_arg1) := W7_of_ne m ρ c main_arg1 (by decide)
    _ = W5 m ρ c (Proc.devRef .tc main_arg1) := StableHlo.after_of_writes_sub main_part3_ops0 _ main_part3_ops0_writes (by decide)
    _ = W4 m ρ c (Proc.devRef .tc main_arg1) := StableHlo.after_of_writes_sub main_part2_ops1 _ main_part2_ops1_writes (by decide)
    _ = W3 m ρ c (Proc.devRef .tc main_arg1) := W4_of_ne m ρ c main_arg1 (by decide)
    _ = W2 m ρ c (Proc.devRef .tc main_arg1) := StableHlo.after_of_writes_sub main_part2_ops0 _ main_part2_ops0_writes (by decide)
    _ = W1 m ρ c (Proc.devRef .tc main_arg1) := StableHlo.after_of_writes_sub main_part1_ops0 _ main_part1_ops0_writes (by decide)
    _ = W0 m ρ c (Proc.devRef .tc main_arg1) := StableHlo.after_of_writes_sub main_part0_ops0 _ main_part0_ops0_writes (by decide)
    _ = m ((c : Thread nD τ).loc main_arg1) := rfl

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := StableHlo.after_of_writes_sub main_part4_ops4 _ main_part4_ops4_writes (by decide)
    _ = W12 m ρ c (Proc.devRef .tc main_arg2) := W13_of_ne m ρ c main_arg2 (by decide)
    _ = W11 m ρ c (Proc.devRef .tc main_arg2) := StableHlo.after_of_writes_sub main_part4_ops3 _ main_part4_ops3_writes (by decide)
    _ = W10 m ρ c (Proc.devRef .tc main_arg2) := StableHlo.after_of_writes_sub main_part4_ops2 _ main_part4_ops2_writes (by decide)
    _ = W9 m ρ c (Proc.devRef .tc main_arg2) := StableHlo.after_of_writes_sub main_part4_ops1 _ main_part4_ops1_writes (by decide)
    _ = W8 m ρ c (Proc.devRef .tc main_arg2) := StableHlo.after_of_writes_sub main_part4_ops0 _ main_part4_ops0_writes (by decide)
    _ = W7 m ρ c (Proc.devRef .tc main_arg2) := StableHlo.after_of_writes_sub main_part3_ops1 _ main_part3_ops1_writes (by decide)
    _ = W6 m ρ c (Proc.devRef .tc main_arg2) := W7_of_ne m ρ c main_arg2 (by decide)
    _ = W5 m ρ c (Proc.devRef .tc main_arg2) := StableHlo.after_of_writes_sub main_part3_ops0 _ main_part3_ops0_writes (by decide)
    _ = W4 m ρ c (Proc.devRef .tc main_arg2) := StableHlo.after_of_writes_sub main_part2_ops1 _ main_part2_ops1_writes (by decide)
    _ = W3 m ρ c (Proc.devRef .tc main_arg2) := W4_of_ne m ρ c main_arg2 (by decide)
    _ = W2 m ρ c (Proc.devRef .tc main_arg2) := StableHlo.after_of_writes_sub main_part2_ops0 _ main_part2_ops0_writes (by decide)
    _ = W1 m ρ c (Proc.devRef .tc main_arg2) := StableHlo.after_of_writes_sub main_part1_ops0 _ main_part1_ops0_writes (by decide)
    _ = W0 m ρ c (Proc.devRef .tc main_arg2) := StableHlo.after_of_writes_sub main_part0_ops0 _ main_part0_ops0_writes (by decide)
    _ = m ((c : Thread nD τ).loc main_arg2) := rfl

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := StableHlo.after_of_writes_sub main_part4_ops4 _ main_part4_ops4_writes (by decide)
    _ = W12 m ρ c (Proc.devRef .tc main_arg3) := W13_of_ne m ρ c main_arg3 (by decide)
    _ = W11 m ρ c (Proc.devRef .tc main_arg3) := StableHlo.after_of_writes_sub main_part4_ops3 _ main_part4_ops3_writes (by decide)
    _ = W10 m ρ c (Proc.devRef .tc main_arg3) := StableHlo.after_of_writes_sub main_part4_ops2 _ main_part4_ops2_writes (by decide)
    _ = W9 m ρ c (Proc.devRef .tc main_arg3) := StableHlo.after_of_writes_sub main_part4_ops1 _ main_part4_ops1_writes (by decide)
    _ = W8 m ρ c (Proc.devRef .tc main_arg3) := StableHlo.after_of_writes_sub main_part4_ops0 _ main_part4_ops0_writes (by decide)
    _ = W7 m ρ c (Proc.devRef .tc main_arg3) := StableHlo.after_of_writes_sub main_part3_ops1 _ main_part3_ops1_writes (by decide)
    _ = W6 m ρ c (Proc.devRef .tc main_arg3) := W7_of_ne m ρ c main_arg3 (by decide)
    _ = W5 m ρ c (Proc.devRef .tc main_arg3) := StableHlo.after_of_writes_sub main_part3_ops0 _ main_part3_ops0_writes (by decide)
    _ = W4 m ρ c (Proc.devRef .tc main_arg3) := StableHlo.after_of_writes_sub main_part2_ops1 _ main_part2_ops1_writes (by decide)
    _ = W3 m ρ c (Proc.devRef .tc main_arg3) := W4_of_ne m ρ c main_arg3 (by decide)
    _ = W2 m ρ c (Proc.devRef .tc main_arg3) := StableHlo.after_of_writes_sub main_part2_ops0 _ main_part2_ops0_writes (by decide)
    _ = W1 m ρ c (Proc.devRef .tc main_arg3) := StableHlo.after_of_writes_sub main_part1_ops0 _ main_part1_ops0_writes (by decide)
    _ = W0 m ρ c (Proc.devRef .tc main_arg3) := StableHlo.after_of_writes_sub main_part0_ops0 _ main_part0_ops0_writes (by decide)
    _ = m ((c : Thread nD τ).loc main_arg3) := rfl

theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := StableHlo.after_of_writes_sub main_part4_ops4 _ main_part4_ops4_writes (by decide)
    _ = W12 m ρ c (Proc.devRef .tc main_arg4) := W13_of_ne m ρ c main_arg4 (by decide)
    _ = W11 m ρ c (Proc.devRef .tc main_arg4) := StableHlo.after_of_writes_sub main_part4_ops3 _ main_part4_ops3_writes (by decide)
    _ = W10 m ρ c (Proc.devRef .tc main_arg4) := StableHlo.after_of_writes_sub main_part4_ops2 _ main_part4_ops2_writes (by decide)
    _ = W9 m ρ c (Proc.devRef .tc main_arg4) := StableHlo.after_of_writes_sub main_part4_ops1 _ main_part4_ops1_writes (by decide)
    _ = W8 m ρ c (Proc.devRef .tc main_arg4) := StableHlo.after_of_writes_sub main_part4_ops0 _ main_part4_ops0_writes (by decide)
    _ = W7 m ρ c (Proc.devRef .tc main_arg4) := StableHlo.after_of_writes_sub main_part3_ops1 _ main_part3_ops1_writes (by decide)
    _ = W6 m ρ c (Proc.devRef .tc main_arg4) := W7_of_ne m ρ c main_arg4 (by decide)
    _ = W5 m ρ c (Proc.devRef .tc main_arg4) := StableHlo.after_of_writes_sub main_part3_ops0 _ main_part3_ops0_writes (by decide)
    _ = W4 m ρ c (Proc.devRef .tc main_arg4) := StableHlo.after_of_writes_sub main_part2_ops1 _ main_part2_ops1_writes (by decide)
    _ = W3 m ρ c (Proc.devRef .tc main_arg4) := W4_of_ne m ρ c main_arg4 (by decide)
    _ = W2 m ρ c (Proc.devRef .tc main_arg4) := StableHlo.after_of_writes_sub main_part2_ops0 _ main_part2_ops0_writes (by decide)
    _ = W1 m ρ c (Proc.devRef .tc main_arg4) := StableHlo.after_of_writes_sub main_part1_ops0 _ main_part1_ops0_writes (by decide)
    _ = W0 m ρ c (Proc.devRef .tc main_arg4) := StableHlo.after_of_writes_sub main_part0_ops0 _ main_part0_ops0_writes (by decide)
    _ = m ((c : Thread nD τ).loc main_arg4) := rfl

theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := StableHlo.after_of_writes_sub main_part4_ops4 _ main_part4_ops4_writes (by decide)
    _ = W12 m ρ c (Proc.devRef .tc main_arg5) := W13_of_ne m ρ c main_arg5 (by decide)
    _ = W11 m ρ c (Proc.devRef .tc main_arg5) := StableHlo.after_of_writes_sub main_part4_ops3 _ main_part4_ops3_writes (by decide)
    _ = W10 m ρ c (Proc.devRef .tc main_arg5) := StableHlo.after_of_writes_sub main_part4_ops2 _ main_part4_ops2_writes (by decide)
    _ = W9 m ρ c (Proc.devRef .tc main_arg5) := StableHlo.after_of_writes_sub main_part4_ops1 _ main_part4_ops1_writes (by decide)
    _ = W8 m ρ c (Proc.devRef .tc main_arg5) := StableHlo.after_of_writes_sub main_part4_ops0 _ main_part4_ops0_writes (by decide)
    _ = W7 m ρ c (Proc.devRef .tc main_arg5) := StableHlo.after_of_writes_sub main_part3_ops1 _ main_part3_ops1_writes (by decide)
    _ = W6 m ρ c (Proc.devRef .tc main_arg5) := W7_of_ne m ρ c main_arg5 (by decide)
    _ = W5 m ρ c (Proc.devRef .tc main_arg5) := StableHlo.after_of_writes_sub main_part3_ops0 _ main_part3_ops0_writes (by decide)
    _ = W4 m ρ c (Proc.devRef .tc main_arg5) := StableHlo.after_of_writes_sub main_part2_ops1 _ main_part2_ops1_writes (by decide)
    _ = W3 m ρ c (Proc.devRef .tc main_arg5) := (W4_arr m ρ c 2).trans (((dat0 (V3 m ρ) c).arrAt_in 2 rfl _).trans (A_eq0 (V3 m ρ) c 2))
    _ = W2 m ρ c (Proc.devRef .tc main_arg5) := StableHlo.after_of_writes_sub main_part2_ops0 _ main_part2_ops0_writes (by decide)
    _ = W1 m ρ c (Proc.devRef .tc main_arg5) := StableHlo.after_of_writes_sub main_part1_ops0 _ main_part1_ops0_writes (by decide)
    _ = W0 m ρ c (Proc.devRef .tc main_arg5) := StableHlo.after_of_writes_sub main_part0_ops0 _ main_part0_ops0_writes (by decide)
    _ = m ((c : Thread nD τ).loc main_arg5) := rfl

theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := StableHlo.after_of_writes_sub main_part4_ops4 _ main_part4_ops4_writes (by decide)
    _ = W12 m ρ c (Proc.devRef .tc main_arg6) := W13_of_ne m ρ c main_arg6 (by decide)
    _ = W11 m ρ c (Proc.devRef .tc main_arg6) := StableHlo.after_of_writes_sub main_part4_ops3 _ main_part4_ops3_writes (by decide)
    _ = W10 m ρ c (Proc.devRef .tc main_arg6) := StableHlo.after_of_writes_sub main_part4_ops2 _ main_part4_ops2_writes (by decide)
    _ = W9 m ρ c (Proc.devRef .tc main_arg6) := StableHlo.after_of_writes_sub main_part4_ops1 _ main_part4_ops1_writes (by decide)
    _ = W8 m ρ c (Proc.devRef .tc main_arg6) := StableHlo.after_of_writes_sub main_part4_ops0 _ main_part4_ops0_writes (by decide)
    _ = W7 m ρ c (Proc.devRef .tc main_arg6) := StableHlo.after_of_writes_sub main_part3_ops1 _ main_part3_ops1_writes (by decide)
    _ = W6 m ρ c (Proc.devRef .tc main_arg6) := W7_of_ne m ρ c main_arg6 (by decide)
    _ = W5 m ρ c (Proc.devRef .tc main_arg6) := StableHlo.after_of_writes_sub main_part3_ops0 _ main_part3_ops0_writes (by decide)
    _ = W4 m ρ c (Proc.devRef .tc main_arg6) := StableHlo.after_of_writes_sub main_part2_ops1 _ main_part2_ops1_writes (by decide)
    _ = W3 m ρ c (Proc.devRef .tc main_arg6) := (W4_arr m ρ c 3).trans (((dat0 (V3 m ρ) c).arrAt_in 3 rfl _).trans (A_eq0 (V3 m ρ) c 3))
    _ = W2 m ρ c (Proc.devRef .tc main_arg6) := StableHlo.after_of_writes_sub main_part2_ops0 _ main_part2_ops0_writes (by decide)
    _ = W1 m ρ c (Proc.devRef .tc main_arg6) := StableHlo.after_of_writes_sub main_part1_ops0 _ main_part1_ops0_writes (by decide)
    _ = W0 m ρ c (Proc.devRef .tc main_arg6) := StableHlo.after_of_writes_sub main_part0_ops0 _ main_part0_ops0_writes (by decide)
    _ = m ((c : Thread nD τ).loc main_arg6) := rfl

theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := StableHlo.after_of_writes_sub main_part4_ops4 _ main_part4_ops4_writes (by decide)
    _ = W12 m ρ c (Proc.devRef .tc main_arg7) := W13_of_ne m ρ c main_arg7 (by decide)
    _ = W11 m ρ c (Proc.devRef .tc main_arg7) := StableHlo.after_of_writes_sub main_part4_ops3 _ main_part4_ops3_writes (by decide)
    _ = W10 m ρ c (Proc.devRef .tc main_arg7) := StableHlo.after_of_writes_sub main_part4_ops2 _ main_part4_ops2_writes (by decide)
    _ = W9 m ρ c (Proc.devRef .tc main_arg7) := StableHlo.after_of_writes_sub main_part4_ops1 _ main_part4_ops1_writes (by decide)
    _ = W8 m ρ c (Proc.devRef .tc main_arg7) := StableHlo.after_of_writes_sub main_part4_ops0 _ main_part4_ops0_writes (by decide)
    _ = W7 m ρ c (Proc.devRef .tc main_arg7) := StableHlo.after_of_writes_sub main_part3_ops1 _ main_part3_ops1_writes (by decide)
    _ = W6 m ρ c (Proc.devRef .tc main_arg7) := W7_of_ne m ρ c main_arg7 (by decide)
    _ = W5 m ρ c (Proc.devRef .tc main_arg7) := StableHlo.after_of_writes_sub main_part3_ops0 _ main_part3_ops0_writes (by decide)
    _ = W4 m ρ c (Proc.devRef .tc main_arg7) := StableHlo.after_of_writes_sub main_part2_ops1 _ main_part2_ops1_writes (by decide)
    _ = W3 m ρ c (Proc.devRef .tc main_arg7) := (W4_arr m ρ c 4).trans (((dat0 (V3 m ρ) c).arrAt_in 4 rfl _).trans (A_eq0 (V3 m ρ) c 4))
    _ = W2 m ρ c (Proc.devRef .tc main_arg7) := StableHlo.after_of_writes_sub main_part2_ops0 _ main_part2_ops0_writes (by decide)
    _ = W1 m ρ c (Proc.devRef .tc main_arg7) := StableHlo.after_of_writes_sub main_part1_ops0 _ main_part1_ops0_writes (by decide)
    _ = W0 m ρ c (Proc.devRef .tc main_arg7) := StableHlo.after_of_writes_sub main_part0_ops0 _ main_part0_ops0_writes (by decide)
    _ = m ((c : Thread nD τ).loc main_arg7) := rfl

theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := StableHlo.after_of_writes_sub main_part4_ops4 _ main_part4_ops4_writes (by decide)
    _ = W12 m ρ c (Proc.devRef .tc main_arg8) := W13_of_ne m ρ c main_arg8 (by decide)
    _ = W11 m ρ c (Proc.devRef .tc main_arg8) := StableHlo.after_of_writes_sub main_part4_ops3 _ main_part4_ops3_writes (by decide)
    _ = W10 m ρ c (Proc.devRef .tc main_arg8) := StableHlo.after_of_writes_sub main_part4_ops2 _ main_part4_ops2_writes (by decide)
    _ = W9 m ρ c (Proc.devRef .tc main_arg8) := StableHlo.after_of_writes_sub main_part4_ops1 _ main_part4_ops1_writes (by decide)
    _ = W8 m ρ c (Proc.devRef .tc main_arg8) := StableHlo.after_of_writes_sub main_part4_ops0 _ main_part4_ops0_writes (by decide)
    _ = W7 m ρ c (Proc.devRef .tc main_arg8) := StableHlo.after_of_writes_sub main_part3_ops1 _ main_part3_ops1_writes (by decide)
    _ = W6 m ρ c (Proc.devRef .tc main_arg8) := (W7_arr m ρ c 2).trans (((dat1 (V6 m ρ) c).arrAt_in 2 rfl _).trans (A_eq1 (V6 m ρ) c 2))
    _ = W5 m ρ c (Proc.devRef .tc main_arg8) := StableHlo.after_of_writes_sub main_part3_ops0 _ main_part3_ops0_writes (by decide)
    _ = W4 m ρ c (Proc.devRef .tc main_arg8) := StableHlo.after_of_writes_sub main_part2_ops1 _ main_part2_ops1_writes (by decide)
    _ = W3 m ρ c (Proc.devRef .tc main_arg8) := W4_of_ne m ρ c main_arg8 (by decide)
    _ = W2 m ρ c (Proc.devRef .tc main_arg8) := StableHlo.after_of_writes_sub main_part2_ops0 _ main_part2_ops0_writes (by decide)
    _ = W1 m ρ c (Proc.devRef .tc main_arg8) := StableHlo.after_of_writes_sub main_part1_ops0 _ main_part1_ops0_writes (by decide)
    _ = W0 m ρ c (Proc.devRef .tc main_arg8) := StableHlo.after_of_writes_sub main_part0_ops0 _ main_part0_ops0_writes (by decide)
    _ = m ((c : Thread nD τ).loc main_arg8) := rfl

theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := StableHlo.after_of_writes_sub main_part4_ops4 _ main_part4_ops4_writes (by decide)
    _ = W12 m ρ c (Proc.devRef .tc main_arg9) := W13_of_ne m ρ c main_arg9 (by decide)
    _ = W11 m ρ c (Proc.devRef .tc main_arg9) := StableHlo.after_of_writes_sub main_part4_ops3 _ main_part4_ops3_writes (by decide)
    _ = W10 m ρ c (Proc.devRef .tc main_arg9) := StableHlo.after_of_writes_sub main_part4_ops2 _ main_part4_ops2_writes (by decide)
    _ = W9 m ρ c (Proc.devRef .tc main_arg9) := StableHlo.after_of_writes_sub main_part4_ops1 _ main_part4_ops1_writes (by decide)
    _ = W8 m ρ c (Proc.devRef .tc main_arg9) := StableHlo.after_of_writes_sub main_part4_ops0 _ main_part4_ops0_writes (by decide)
    _ = W7 m ρ c (Proc.devRef .tc main_arg9) := StableHlo.after_of_writes_sub main_part3_ops1 _ main_part3_ops1_writes (by decide)
    _ = W6 m ρ c (Proc.devRef .tc main_arg9) := (W7_arr m ρ c 3).trans (((dat1 (V6 m ρ) c).arrAt_in 3 rfl _).trans (A_eq1 (V6 m ρ) c 3))
    _ = W5 m ρ c (Proc.devRef .tc main_arg9) := StableHlo.after_of_writes_sub main_part3_ops0 _ main_part3_ops0_writes (by decide)
    _ = W4 m ρ c (Proc.devRef .tc main_arg9) := StableHlo.after_of_writes_sub main_part2_ops1 _ main_part2_ops1_writes (by decide)
    _ = W3 m ρ c (Proc.devRef .tc main_arg9) := W4_of_ne m ρ c main_arg9 (by decide)
    _ = W2 m ρ c (Proc.devRef .tc main_arg9) := StableHlo.after_of_writes_sub main_part2_ops0 _ main_part2_ops0_writes (by decide)
    _ = W1 m ρ c (Proc.devRef .tc main_arg9) := StableHlo.after_of_writes_sub main_part1_ops0 _ main_part1_ops0_writes (by decide)
    _ = W0 m ρ c (Proc.devRef .tc main_arg9) := StableHlo.after_of_writes_sub main_part0_ops0 _ main_part0_ops0_writes (by decide)
    _ = m ((c : Thread nD τ).loc main_arg9) := rfl

theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := StableHlo.after_of_writes_sub main_part4_ops4 _ main_part4_ops4_writes (by decide)
    _ = W12 m ρ c (Proc.devRef .tc main_arg10) := W13_of_ne m ρ c main_arg10 (by decide)
    _ = W11 m ρ c (Proc.devRef .tc main_arg10) := StableHlo.after_of_writes_sub main_part4_ops3 _ main_part4_ops3_writes (by decide)
    _ = W10 m ρ c (Proc.devRef .tc main_arg10) := StableHlo.after_of_writes_sub main_part4_ops2 _ main_part4_ops2_writes (by decide)
    _ = W9 m ρ c (Proc.devRef .tc main_arg10) := StableHlo.after_of_writes_sub main_part4_ops1 _ main_part4_ops1_writes (by decide)
    _ = W8 m ρ c (Proc.devRef .tc main_arg10) := StableHlo.after_of_writes_sub main_part4_ops0 _ main_part4_ops0_writes (by decide)
    _ = W7 m ρ c (Proc.devRef .tc main_arg10) := StableHlo.after_of_writes_sub main_part3_ops1 _ main_part3_ops1_writes (by decide)
    _ = W6 m ρ c (Proc.devRef .tc main_arg10) := (W7_arr m ρ c 4).trans (((dat1 (V6 m ρ) c).arrAt_in 4 rfl _).trans (A_eq1 (V6 m ρ) c 4))
    _ = W5 m ρ c (Proc.devRef .tc main_arg10) := StableHlo.after_of_writes_sub main_part3_ops0 _ main_part3_ops0_writes (by decide)
    _ = W4 m ρ c (Proc.devRef .tc main_arg10) := StableHlo.after_of_writes_sub main_part2_ops1 _ main_part2_ops1_writes (by decide)
    _ = W3 m ρ c (Proc.devRef .tc main_arg10) := W4_of_ne m ρ c main_arg10 (by decide)
    _ = W2 m ρ c (Proc.devRef .tc main_arg10) := StableHlo.after_of_writes_sub main_part2_ops0 _ main_part2_ops0_writes (by decide)
    _ = W1 m ρ c (Proc.devRef .tc main_arg10) := StableHlo.after_of_writes_sub main_part1_ops0 _ main_part1_ops0_writes (by decide)
    _ = W0 m ρ c (Proc.devRef .tc main_arg10) := StableHlo.after_of_writes_sub main_part0_ops0 _ main_part0_ops0_writes (by decide)
    _ = m ((c : Thread nD τ).loc main_arg10) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V12 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W12`, left at `W13`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V12 m ρ) c).loose
  hwaits := Pipeline.hwaits_of_owed_zero _ _ _ _ L lv 2 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec2 c (V12 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V12 m ρ c) (V13 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part2_ops0 main_part2_ops0_sub main_part2_ops0_fresh (W2 m ρ)),
    .region (reg0 m ρ),
    .host (hseg main_part2_ops1 main_part2_ops1_sub main_part2_ops1_fresh (W4 m ρ)),
    .host (hseg main_part3_ops0 main_part3_ops0_sub main_part3_ops0_fresh (W5 m ρ)),
    .region (reg1 m ρ),
    .host (hseg main_part3_ops1 main_part3_ops1_sub main_part3_ops1_fresh (W7 m ρ)),
    .host (hseg main_part4_ops0 main_part4_ops0_sub main_part4_ops0_fresh (W8 m ρ)),
    .host (hseg main_part4_ops1 main_part4_ops1_sub main_part4_ops1_fresh (W9 m ρ)),
    .host (hseg main_part4_ops2 main_part4_ops2_sub main_part4_ops2_fresh (W10 m ρ)),
    .host (hseg main_part4_ops3 main_part4_ops3_sub main_part4_ops3_fresh (W11 m ρ)),
    .region (reg2 m ρ),
    .host (hseg main_part4_ops4 main_part4_ops4_sub main_part4_ops4_fresh (W13 m ρ)) ]

/-- @main is the run of the segments. -/
theorem main_run (c : Dev nD) : main (F := F) c = Pipeline.Seg.run (segs m ρ) := (main_chain_windows c).trans (by chain_rfl)

set_option backward.isDefEq.respectTransparency.types false in
/-- The run: from any memory with zero counters, every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c)⟩) (run_all m ρ)

end Cert.Kernel.Regions

end
-- ==== Proof.IdealCombine1.lean ====
import proofs.«163996_j25580825215696_1_alg».proof.Proof.Gen.KernelIdeal.Launch
import proofs.«163996_j25580825215696_1_alg».proof.Proof.Gen.KernelIdeal.Skeleton
import proofs.«163996_j25580825215696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The dense combination of layer 1: one block of 5000 nodes per grid point

Per point the body reads a 5000×10 block of node features, the matching 5000×40 block of the four relations'
neighbour means side by side, the four 10×10 self and neighbour weight matrices and the four bias rows, and stores
one 5000×10 block: the sum over the relations of features · selfᵀ + mean · neighbourᵀ + bias. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or the block index
    has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether the point fetches it or the block index
    has not moved since it was fetched. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether the point fetches it or the block index
    has not moved since it was fetched. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether the point fetches it or the block index
    has not moved since it was fetched. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether the point fetches it or the block index
    has not moved since it was fetched. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The rectangles the body reads and writes: the whole feature block, the four 10-column bands of the means,
    one weight matrix and one bias row per relation -/

abbrev rH0 : Rect S5000x10 := Rect.unit (s := S5000x10) ![0, 0] S5000x10.size inb_S5000x10_S5000x10_0_0
abbrev rM0_0 : Rect S5000x40 := Rect.unit (s := S5000x40) ![0, 0] S5000x10.size inb_S5000x40_S5000x10_0_0
abbrev rW0_0 : Rect S4x10x10 := Rect.unit (s := S4x10x10) ![0, 0, 0] S1x10x10.size inb_S4x10x10_S1x10x10_0_0_0
abbrev rB0_0 : Rect S4x10 := Rect.unit (s := S4x10) ![0, 0] S1x10.size inb_S4x10_S1x10_0_0
abbrev rM0_1 : Rect S5000x40 := Rect.unit (s := S5000x40) ![0, 10] S5000x10.size inb_S5000x40_S5000x10_0_10
abbrev rW0_1 : Rect S4x10x10 := Rect.unit (s := S4x10x10) ![1, 0, 0] S1x10x10.size inb_S4x10x10_S1x10x10_1_0_0
abbrev rB0_1 : Rect S4x10 := Rect.unit (s := S4x10) ![1, 0] S1x10.size inb_S4x10_S1x10_1_0
abbrev rM0_2 : Rect S5000x40 := Rect.unit (s := S5000x40) ![0, 20] S5000x10.size inb_S5000x40_S5000x10_0_20
abbrev rW0_2 : Rect S4x10x10 := Rect.unit (s := S4x10x10) ![2, 0, 0] S1x10x10.size inb_S4x10x10_S1x10x10_2_0_0
abbrev rB0_2 : Rect S4x10 := Rect.unit (s := S4x10) ![2, 0] S1x10.size inb_S4x10_S1x10_2_0
abbrev rM0_3 : Rect S5000x40 := Rect.unit (s := S5000x40) ![0, 30] S5000x10.size inb_S5000x40_S5000x10_0_30
abbrev rW0_3 : Rect S4x10x10 := Rect.unit (s := S4x10x10) ![3, 0, 0] S1x10x10.size inb_S4x10x10_S1x10x10_3_0_0
abbrev rB0_3 : Rect S4x10 := Rect.unit (s := S4x10) ![3, 0] S1x10.size inb_S4x10_S1x10_3_0

/-- The output buffer after the body: its one store, of the accumulated sum over the four relations, written over the
    whole 5000×10 block. -/
def out0_5 (x0 : Vec F S5000x10 .f32) (x1 : Vec F S5000x40 .f32) (x2 : Vec F S4x10x10 .f32) (x3 : Vec F S4x10x10 .f32) (x4 : Vec F S4x10 .f32) : Vec F S5000x10 .f32 :=
  View.canon [⟨rH0, k0_pay1 (k0_pay2 (View.ld x0 rH0))
    (k0_pay6 (k0_pay2 (View.ld x0 rH0)) (k0_pay3 (View.ld x1 rM0_1)) (k0_pay4 (View.ld x3 rW0_1))
      (k0_pay5 (View.ld x0 rH0) (View.ld x1 rM0_0) (View.ld x2 rW0_0) (View.ld x3 rW0_0) (View.ld x4 rB0_0) (View.ld x2 rW0_1))
      (View.ld x4 rB0_1) (View.ld x1 rM0_2) (View.ld x2 rW0_2) (View.ld x3 rW0_2) (View.ld x4 rB0_2))
    (k0_pay7 (View.ld x1 rM0_3)) (k0_pay8 (View.ld x2 rW0_3)) (k0_pay9 (View.ld x3 rW0_3)) (View.ld x4 rB0_3)⟩]

/-- The one store covers the whole block. -/
theorem cover0_5 (p0 : Vec F S5000x10 .f32) (y : S5000x10.Idx) :
    ∃ pc ∈ ([⟨rH0, p0⟩] : List (View.Piece (Elt F) S5000x10 .f32)), y ∈ pc.1.set :=
  View.cover_of_tiled [⟨rH0, p0⟩] S5000x10.size (by rfl) y

set_option maxHeartbeats 1000000 in
/-- The body, on whole staging buffers holding the five inputs' blocks and an output buffer at anything, runs to its
    end without a fault, leaves the inputs as they were and the output buffer at `out0_5` of them. -/
theorem sound_kernel0 (c : Dev nD) (E : Set ℕ) (i : grid0.Coords)
    (arg1 : Memref sig .tc .vmem S5000x10 .f32) (harg1 : arg1.IsWhole) (arg2 : Memref sig .tc .vmem S5000x40 .f32) (harg2 : arg2.IsWhole)
    (arg3 : Memref sig .tc .vmem S4x10x10 .f32) (harg3 : arg3.IsWhole) (arg4 : Memref sig .tc .vmem S4x10x10 .f32) (harg4 : arg4.IsWhole)
    (arg5 : Memref sig .tc .vmem S4x10 .f32) (harg5 : arg5.IsWhole) (arg6 : Memref sig .tc .vmem S5000x10 .f32) (harg6 : arg6.IsWhole)
    (x0 : Vec F S5000x10 .f32) (x1 : Vec F S5000x40 .f32) (x2 : Vec F S4x10x10 .f32) (x3 : Vec F S4x10x10 .f32) (x4 : Vec F S4x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_combine_kernel i arg1 harg1 arg2 harg2 arg3 harg3 arg4 harg4 arg5 harg5 arg6 harg6) K := by
  simp only [cc0__sage_combine_kernel_eq_skeleton]; unfold cc0__sage_combine_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

section
variable (V : (c : Dev nD) → (b : Ref sig .tc) → Buf (Elt F) ((c : Thread nD τ).loc b))

/-- The proof data of this pipeline on core `c`: the arrays as the region finds them; after the body at point `t`
    each input's buffer still at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Regions

end
-- ==== Proof.IdealCombine2.lean ====
import proofs.«163996_j25580825215696_1_alg».proof.Proof.Gen.KernelIdeal.Launch
import proofs.«163996_j25580825215696_1_alg».proof.Proof.Gen.KernelIdeal.Skeleton
import proofs.«163996_j25580825215696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The dense combination of layer 2: one block of 5000 nodes per grid point

Per point the body reads a 5000×10 block of node features, the matching 5000×40 block of the four relations'
neighbour means side by side, the four 10×10 self and neighbour weight matrices and the four bias rows, and stores
one 5000×10 block: the sum over the relations of features · selfᵀ + mean · neighbourᵀ + bias. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or the block index
    has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether the point fetches it or the block index
    has not moved since it was fetched. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether the point fetches it or the block index
    has not moved since it was fetched. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether the point fetches it or the block index
    has not moved since it was fetched. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether the point fetches it or the block index
    has not moved since it was fetched. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The rectangles the body reads and writes: the whole feature block, the four 10-column bands of the means,
    one weight matrix and one bias row per relation -/

abbrev rH1 : Rect S5000x10 := Rect.unit (s := S5000x10) ![0, 0] S5000x10.size inb_S5000x10_S5000x10_0_0
abbrev rM1_0 : Rect S5000x40 := Rect.unit (s := S5000x40) ![0, 0] S5000x10.size inb_S5000x40_S5000x10_0_0
abbrev rW1_0 : Rect S4x10x10 := Rect.unit (s := S4x10x10) ![0, 0, 0] S1x10x10.size inb_S4x10x10_S1x10x10_0_0_0
abbrev rB1_0 : Rect S4x10 := Rect.unit (s := S4x10) ![0, 0] S1x10.size inb_S4x10_S1x10_0_0
abbrev rM1_1 : Rect S5000x40 := Rect.unit (s := S5000x40) ![0, 10] S5000x10.size inb_S5000x40_S5000x10_0_10
abbrev rW1_1 : Rect S4x10x10 := Rect.unit (s := S4x10x10) ![1, 0, 0] S1x10x10.size inb_S4x10x10_S1x10x10_1_0_0
abbrev rB1_1 : Rect S4x10 := Rect.unit (s := S4x10) ![1, 0] S1x10.size inb_S4x10_S1x10_1_0
abbrev rM1_2 : Rect S5000x40 := Rect.unit (s := S5000x40) ![0, 20] S5000x10.size inb_S5000x40_S5000x10_0_20
abbrev rW1_2 : Rect S4x10x10 := Rect.unit (s := S4x10x10) ![2, 0, 0] S1x10x10.size inb_S4x10x10_S1x10x10_2_0_0
abbrev rB1_2 : Rect S4x10 := Rect.unit (s := S4x10) ![2, 0] S1x10.size inb_S4x10_S1x10_2_0
abbrev rM1_3 : Rect S5000x40 := Rect.unit (s := S5000x40) ![0, 30] S5000x10.size inb_S5000x40_S5000x10_0_30
abbrev rW1_3 : Rect S4x10x10 := Rect.unit (s := S4x10x10) ![3, 0, 0] S1x10x10.size inb_S4x10x10_S1x10x10_3_0_0
abbrev rB1_3 : Rect S4x10 := Rect.unit (s := S4x10) ![3, 0] S1x10.size inb_S4x10_S1x10_3_0

/-- The output buffer after the body: its one store, of the accumulated sum over the four relations, written over the
    whole 5000×10 block. -/
def out1_5 (x0 : Vec F S5000x10 .f32) (x1 : Vec F S5000x40 .f32) (x2 : Vec F S4x10x10 .f32) (x3 : Vec F S4x10x10 .f32) (x4 : Vec F S4x10 .f32) : Vec F S5000x10 .f32 :=
  View.canon [⟨rH1, k1_pay1 (k1_pay2 (View.ld x0 rH1))
    (k1_pay7 (k1_pay2 (View.ld x0 rH1))
      (k1_pay3 (View.ld x0 rH1) (View.ld x1 rM1_0) (View.ld x2 rW1_0) (View.ld x3 rW1_0) (View.ld x4 rB1_0))
      (k1_pay4 (View.ld x1 rM1_1)) (k1_pay5 (View.ld x3 rW1_1)) (k1_pay6 (View.ld x0 rH1) (View.ld x2 rW1_1))
      (View.ld x4 rB1_1) (View.ld x1 rM1_2) (View.ld x2 rW1_2) (View.ld x3 rW1_2) (View.ld x4 rB1_2))
    (k1_pay8 (View.ld x1 rM1_3)) (k1_pay9 (View.ld x2 rW1_3)) (k1_pay10 (View.ld x3 rW1_3)) (View.ld x4 rB1_3)⟩]

/-- The one store covers the whole block. -/
theorem cover1_5 (p0 : Vec F S5000x10 .f32) (y : S5000x10.Idx) :
    ∃ pc ∈ ([⟨rH1, p0⟩] : List (View.Piece (Elt F) S5000x10 .f32)), y ∈ pc.1.set :=
  View.cover_of_tiled [⟨rH1, p0⟩] S5000x10.size (by rfl) y

set_option maxHeartbeats 1000000 in
/-- The body, on whole staging buffers holding the five inputs' blocks and an output buffer at anything, runs to its
    end without a fault, leaves the inputs as they were and the output buffer at `out1_5` of them. -/
theorem sound_kernel1 (c : Dev nD) (E : Set ℕ) (i : grid1.Coords)
    (arg1 : Memref sig .tc .vmem S5000x10 .f32) (harg1 : arg1.IsWhole) (arg2 : Memref sig .tc .vmem S5000x40 .f32) (harg2 : arg2.IsWhole)
    (arg3 : Memref sig .tc .vmem S4x10x10 .f32) (harg3 : arg3.IsWhole) (arg4 : Memref sig .tc .vmem S4x10x10 .f32) (harg4 : arg4.IsWhole)
    (arg5 : Memref sig .tc .vmem S4x10 .f32) (harg5 : arg5.IsWhole) (arg6 : Memref sig .tc .vmem S5000x10 .f32) (harg6 : arg6.IsWhole)
    (x0 : Vec F S5000x10 .f32) (x1 : Vec F S5000x40 .f32) (x2 : Vec F S4x10x10 .f32) (x3 : Vec F S4x10x10 .f32) (x4 : Vec F S4x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_combine_kernel i arg1 harg1 arg2 harg2 arg3 harg3 arg4 harg4 arg5 harg5 arg6 harg6) K := by
  simp only [cc1__sage_combine_kernel_eq_skeleton]; unfold cc1__sage_combine_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

section
variable (V : (c : Dev nD) → (b : Ref sig .tc) → Buf (Elt F) ((c : Thread nD τ).loc b))

/-- The proof data of this pipeline on core `c`: the arrays as the region finds them; after the body at point `t`
    each input's buffer still at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is handed at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Regions

end
-- ==== Proof.IdealScore.lean ====
import proofs.«163996_j25580825215696_1_alg».proof.Proof.Gen.KernelIdeal.Launch
import proofs.«163996_j25580825215696_1_alg».proof.Proof.Gen.KernelIdeal.Skeleton
import proofs.«163996_j25580825215696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The edge scores: one block of 4096 edges per grid point

Per point the body reads the two 4096×10 blocks of gathered end-point features and stores, for each of the 4096 edges,
the sum over the ten features of their product. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

abbrev rE2 : Rect S4096x10 := Rect.unit (s := S4096x10) ![0, 0] S4096x10.size inb_S4096x10_S4096x10_0_0
abbrev rS2 : Rect S4096 := Rect.unit (s := S4096) ![0] S4096.size inb_S4096_S4096_0

/-- The output buffer after the body: its one store, of the 4096 row sums of the products. -/
def out2_2 (x0 : Vec F S4096x10 .f32) (x1 : Vec F S4096x10 .f32) : Vec F S4096 .f32 :=
  View.canon [⟨rS2, k2_pay1 (View.ld x0 rE2) (View.ld x1 rE2)⟩]

theorem cover2_2 (p0 : Vec F S4096 .f32) (y : S4096.Idx) :
    ∃ pc ∈ ([⟨rS2, p0⟩] : List (View.Piece (Elt F) S4096 .f32)), y ∈ pc.1.set :=
  View.cover_of_tiled [⟨rS2, p0⟩] S4096.size (by rfl) y

set_option maxHeartbeats 1000000 in
/-- The body, on whole staging buffers holding the two inputs' blocks and an output buffer at anything, runs to its end
    without a fault, leaves the inputs as they were and the output buffer at `out2_2` of them. -/
theorem sound_kernel2 (c : Dev nD) (E : Set ℕ) (i : grid2.Coords)
    (arg1 : Memref sig .tc .vmem S4096x10 .f32) (harg1 : arg1.IsWhole) (arg2 : Memref sig .tc .vmem S4096x10 .f32) (harg2 : arg2.IsWhole)
    (arg3 : Memref sig .tc .vmem S4096 .f32) (harg3 : arg3.IsWhole)
    (x0 : Vec F S4096x10 .f32) (x1 : Vec F S4096x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__score_kernel i arg1 harg1 arg2 harg2 arg3 harg3) K := by
  simp only [cc2__score_kernel_eq_skeleton]; unfold cc2__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

section
variable (V : (c : Dev nD) → (b : Ref sig .tc) → Buf (Elt F) ((c : Thread nD τ).loc b))

/-- The proof data of this pipeline on core `c`: the arrays as the region finds them; after the body at point `t`
    each input's buffer still at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch theorems, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Regions

end
-- ==== Proof.IdealRun.lean ====
import proofs.«163996_j25580825215696_1_alg».proof.Proof.IdealCombine1
import proofs.«163996_j25580825215696_1_alg».proof.Proof.IdealCombine2
import proofs.«163996_j25580825215696_1_alg».proof.Proof.IdealScore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: the buffers' contents at every boundary between @main's items

@main is fourteen items: eleven stretches of host operations and the three kernel regions. `W j c` is core `c`'s
buffer contents after item `j − 1`: a stretch applies its operations in order; a region leaves in each of its arrays what
its write-backs left and every other buffer as it found it. -/

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev W3 : Dev nD → Valuation τ sig (Elt F) := fun c => StableHlo.after main_part2_ops0 (W2 m ρ c)
/-- The contents region 0 is entered with, read at the TensorCore's references. -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after main_part2_ops1 (W4 m ρ c)
abbrev W6 : Dev nD → Valuation τ sig (Elt F) := fun c => StableHlo.after main_part3_ops0 (W5 m ρ c)
/-- The contents region 1 is entered with, read at the TensorCore's references. -/
abbrev V6 : (c : Dev nD) → (b : Ref sig .tc) → Buf (Elt F) ((c : Thread nD τ).loc b) := fun c b => W6 m ρ c b
/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
abbrev W8 : Dev nD → Valuation τ sig (Elt F) := fun c => StableHlo.after main_part3_ops1 (W7 m ρ c)
abbrev W9 : Dev nD → Valuation τ sig (Elt F) := fun c => StableHlo.after main_part4_ops0 (W8 m ρ c)
abbrev W10 : Dev nD → Valuation τ sig (Elt F) := fun c => StableHlo.after main_part4_ops1 (W9 m ρ c)
abbrev W11 : Dev nD → Valuation τ sig (Elt F) := fun c => StableHlo.after main_part4_ops2 (W10 m ρ c)
abbrev W12 : Dev nD → Valuation τ sig (Elt F) := fun c => StableHlo.after main_part4_ops3 (W11 m ρ c)
/-- The contents region 2 is entered with, read at the TensorCore's references. -/
abbrev V12 : (c : Dev nD) → (b : Ref sig .tc) → Buf (Elt F) ((c : Thread nD τ).loc b) := fun c b => W12 m ρ c b
/-- At region 2's exit: its arrays at what the pipeline leaves, every other buffer as entered. -/
def W13 (c : Dev nD) : Valuation τ sig (Elt F) :=
  Pipeline.withArrays spec2 c (W12 m ρ c) fun w => (dat2 (V12 m ρ) c).arrAt w cfg2.N
theorem W13_arr (c : Dev nD) (w : Fin cfg2.W) :
    W13 m ρ c (Proc.devRef .tc (Pipeline.arrRef spec2 w)) = (dat2 (V12 m ρ) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev V13 : (c : Dev nD) → (b : Ref sig .tc) → Buf (Elt F) ((c : Thread nD τ).loc b) := fun c b => W13 m ρ c b
theorem hF2 (c : Dev nD) (w : Fin cfg2.W) : (dat2 (V12 m ρ) c).arrAt w cfg2.N = V13 m ρ c (Pipeline.arrRef spec2 w) :=
  (W13_arr m ρ c w).symm
theorem hrest2 (c : Dev nD) : ∀ b, b ∉ Finset.univ.image (Pipeline.arrRef spec2) → V13 m ρ c b = V12 m ρ c b :=
  fun b hb => W13_of_ne m ρ c b fun w e => hb (Finset.mem_image.mpr ⟨w, Finset.mem_univ _, e⟩)
abbrev W14 : Dev nD → Valuation τ sig (Elt F) := fun c => StableHlo.after main_part4_ops4 (W13 m ρ c)

/-! ## What the host stretches write: each operation writes its one result buffer, and none allocates -/

theorem main_part0_ops0_fresh : (main_part0_ops0 : List (HloOp τ sig (Elt F))).Forall fun op => op.fresh = ∅ := by
  simp only [List.Forall]; repeat' constructor
abbrev main_part0_ops0_W : List (Ref sig .tc) := [main_cst, main_v0, main_v1, main_v2, main_cst_0, main_v3, main_v4, main_v5, main_cst_1, main_v6, main_v7, main_cst_2, main_v8, main_v9, main_v10, main_v11, main_v12, main_cst_3, main_v13, main_v14, main_v15, main_cst_4, main_v16, main_v17, main_cst_5, main_v18, main_v19, main_v20, main_v21, main_v22, main_cst_6, main_v23, main_v24, main_v25, main_cst_7, main_v26, main_v27, main_cst_8, main_v28, main_v29, main_v30, main_v31, main_v32, main_cst_9, main_v33, main_v34, main_v35, main_cst_10, main_v36, main_v37, main_cst_11, main_v38, main_v39, main_v40, main_v41, main_v42, main_v43, main_v44, main_v45, main_v46]
theorem main_part0_ops0_writes : (main_part0_ops0 : List (HloOp τ sig (Elt F))).Forall fun op => op.writes ⊆ ((main_part0_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part1_ops0_fresh : (main_part1_ops0 : List (HloOp τ sig (Elt F))).Forall fun op => op.fresh = ∅ := by
  simp only [List.Forall]; repeat' constructor
abbrev main_part1_ops0_W : List (Ref sig .tc) := [main_v47, main_c, main_v48, main_v49, main_c_12, main_v50, main_v51, main_v52, main_v53, main_v54, main_v55, main_v56, main_cst_13, main_v57, main_v58, main_v59, main_v60, main_v61, main_v62, main_v63, main_v64, main_v65, main_c_14, main_v66, main_v67, main_c_15, main_v68, main_v69, main_v70, main_v71, main_v72, main_v73, main_v74, main_cst_16, main_v75, main_v76, main_v77, main_v78, main_v79, main_v80, main_v81, main_v82, main_v83, main_c_17, main_v84, main_v85, main_c_18, main_v86, main_v87, main_v88, main_v89, main_v90, main_v91, main_v92, main_cst_19, main_v93, main_v94, main_v95, main_v96, main_v97]
theorem main_part1_ops0_writes : (main_part1_ops0 : List (HloOp τ sig (Elt F))).Forall fun op => op.writes ⊆ ((main_part1_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part2_ops0_fresh : (main_part2_ops0 : List (HloOp τ sig (Elt F))).Forall fun op => op.fresh = ∅ := by
  simp only [List.Forall]; repeat' constructor
abbrev main_part2_ops0_W : List (Ref sig .tc) := [main_v98, main_v99, main_v100, main_v101, main_c_20, main_v102, main_v103, main_c_21, main_v104, main_v105, main_v106, main_v107, main_v108, main_v109, main_v110, main_cst_22, main_v111, main_v112, main_v113, main_v114, main_v115, main_v116, main_v117, main_v118]
theorem main_part2_ops0_writes : (main_part2_ops0 : List (HloOp τ sig (Elt F))).Forall fun op => op.writes ⊆ ((main_part2_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part2_ops1_fresh : (main_part2_ops1 : List (HloOp τ sig (Elt F))).Forall fun op => op.fresh = ∅ := by
  simp only [List.Forall]; repeat' constructor
abbrev main_part2_ops1_W : List (Ref sig .tc) := [main_v120, main_v121, main_c_23, main_v122, main_v123, main_c_24, main_v124, main_v125, main_v126, main_v127, main_v128, main_v129, main_v130, main_cst_25, main_v131, main_v132, main_v133, main_v134, main_v135, main_v136, main_v137, main_v138, main_v139, main_c_26, main_v140, main_v141, main_c_27, main_v142, main_v143, main_v144, main_v145, main_v146, main_v147, main_v148, main_cst_28]
theorem main_part2_ops1_writes : (main_part2_ops1 : List (HloOp τ sig (Elt F))).Forall fun op => op.writes ⊆ ((main_part2_ops1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part3_ops0_fresh : (main_part3_ops0 : List (HloOp τ sig (Elt F))).Forall fun op => op.fresh = ∅ := by
  simp only [List.Forall]; repeat' constructor
abbrev main_part3_ops0_W : List (Ref sig .tc) := [main_v149, main_v150, main_v151, main_v152, main_v153, main_v154, main_v155, main_v156, main_v157, main_c_29, main_v158, main_v159, main_c_30, main_v160, main_v161, main_v162, main_v163, main_v164, main_v165, main_v166, main_cst_31, main_v167, main_v168, main_v169, main_v170, main_v171, main_v172, main_v173, main_v174, main_v175, main_c_32, main_v176, main_v177, main_c_33, main_v178, main_v179, main_v180, main_v181, main_v182, main_v183, main_v184, main_cst_34, main_v185, main_v186, main_v187, main_v188, main_v189, main_v190, main_v191, main_v192]
theorem main_part3_ops0_writes : (main_part3_ops0 : List (HloOp τ sig (Elt F))).Forall fun op => op.writes ⊆ ((main_part3_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part3_ops1_fresh : (main_part3_ops1 : List (HloOp τ sig (Elt F))).Forall fun op => op.fresh = ∅ := by
  simp only [List.Forall]; repeat' constructor
abbrev main_part3_ops1_W : List (Ref sig .tc) := [main_v194, main_v195, main_c_35, main_v196, main_v197, main_c_36, main_v198, main_v199, main_v200]
theorem main_part3_ops1_writes : (main_part3_ops1 : List (HloOp τ sig (Elt F))).Forall fun op => op.writes ⊆ ((main_part3_ops1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops0_fresh : (main_part4_ops0 : List (HloOp τ sig (Elt F))).Forall fun op => op.fresh = ∅ := by
  simp only [List.Forall]; repeat' constructor
abbrev main_part4_ops0_W : List (Ref sig .tc) := [main_v201, main_v202, main_v203, main_v204, main_c_37, main_v205, main_v206, main_c_38, main_v207, main_v208, main_v209, main_v210, main_v211, main_c_39, main_v212, main_v213, main_c_40, main_v214, main_v215, main_v216, main_v217, main_v218, main_c_41, main_v219, main_v220, main_c_42, main_v221, main_v222, main_v223, main_v224, main_v225, main_v226, main_v227, main_c_43]
theorem main_part4_ops0_writes : (main_part4_ops0 : List (HloOp τ sig (Elt F))).Forall fun op => op.writes ⊆ ((main_part4_ops0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops1_fresh : (main_part4_ops1 : List (HloOp τ sig (Elt F))).Forall fun op => op.fresh = ∅ := by
  simp only [List.Forall]; repeat' constructor
abbrev main_part4_ops1_W : List (Ref sig .tc) := [main_call0_v0, main_v228]
theorem main_part4_ops1_writes : (main_part4_ops1 : List (HloOp τ sig (Elt F))).Forall fun op => op.writes ⊆ ((main_part4_ops1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops2_fresh : (main_part4_ops2 : List (HloOp τ sig (Elt F))).Forall fun op => op.fresh = ∅ := by
  simp only [List.Forall]; repeat' constructor
abbrev main_part4_ops2_W : List (Ref sig .tc) := [main_c_44]
theorem main_part4_ops2_writes : (main_part4_ops2 : List (HloOp τ sig (Elt F))).Forall fun op => op.writes ⊆ ((main_part4_ops2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops3_fresh : (main_part4_ops3 : List (HloOp τ sig (Elt F))).Forall fun op => op.fresh = ∅ := by
  simp only [List.Forall]; repeat' constructor
abbrev main_part4_ops3_W : List (Ref sig .tc) := [main_call1_v0, main_v229]
theorem main_part4_ops3_writes : (main_part4_ops3 : List (HloOp τ sig (Elt F))).Forall fun op => op.writes ⊆ ((main_part4_ops3_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)
theorem main_part4_ops4_fresh : (main_part4_ops4 : List (HloOp τ sig (Elt F))).Forall fun op => op.fresh = ∅ := by
  simp only [List.Forall]; repeat' constructor
abbrev main_part4_ops4_W : List (Ref sig .tc) := [main_v231, main_v232, main_v233]
theorem main_part4_ops4_writes : (main_part4_ops4 : List (HloOp τ sig (Elt F))).Forall fun op => op.writes ⊆ ((main_part4_ops4_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

/-! ## The arguments end as launched: no host operation writes one, and a region reads it through an input window or not at all -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := StableHlo.after_of_writes_sub main_part4_ops4 _ main_part4_ops4_writes (by decide)
    _ = W12 m ρ c (Proc.devRef .tc main_arg0) := W13_of_ne m ρ c main_arg0 (by decide)
    _ = W11 m ρ c (Proc.devRef .tc main_arg0) := StableHlo.after_of_writes_sub main_part4_ops3 _ main_part4_ops3_writes (by decide)
    _ = W10 m ρ c (Proc.devRef .tc main_arg0) := StableHlo.after_of_writes_sub main_part4_ops2 _ main_part4_ops2_writes (by decide)
    _ = W9 m ρ c (Proc.devRef .tc main_arg0) := StableHlo.after_of_writes_sub main_part4_ops1 _ main_part4_ops1_writes (by decide)
    _ = W8 m ρ c (Proc.devRef .tc main_arg0) := StableHlo.after_of_writes_sub main_part4_ops0 _ main_part4_ops0_writes (by decide)
    _ = W7 m ρ c (Proc.devRef .tc main_arg0) := StableHlo.after_of_writes_sub main_part3_ops1 _ main_part3_ops1_writes (by decide)
    _ = W6 m ρ c (Proc.devRef .tc main_arg0) := W7_of_ne m ρ c main_arg0 (by decide)
    _ = W5 m ρ c (Proc.devRef .tc main_arg0) := StableHlo.after_of_writes_sub main_part3_ops0 _ main_part3_ops0_writes (by decide)
    _ = W4 m ρ c (Proc.devRef .tc main_arg0) := StableHlo.after_of_writes_sub main_part2_ops1 _ main_part2_ops1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub main_part2_ops0 _ main_part2_ops0_writes (by decide)
    _ = W1 m ρ c (Proc.devRef .tc main_arg0) := StableHlo.after_of_writes_sub main_part1_ops0 _ main_part1_ops0_writes (by decide)
    _ = W0 m ρ c (Proc.devRef .tc main_arg0) := StableHlo.after_of_writes_sub main_part0_ops0 _ main_part0_ops0_writes (by decide)
    _ = m ((c : Thread nD τ).loc main_arg0) := rfl

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := StableHlo.after_of_writes_sub main_part4_ops4 _ main_part4_ops4_writes (by decide)
    _ = W12 m ρ c (Proc.devRef .tc main_arg1) := W13_of_ne m ρ c main_arg1 (by decide)
    _ = W11 m ρ c (Proc.devRef .tc main_arg1) := StableHlo.after_of_writes_sub main_part4_ops3 _ main_part4_ops3_writes (by decide)
    _ = W10 m ρ c (Proc.devRef .tc main_arg1) := StableHlo.after_of_writes_sub main_part4_ops2 _ main_part4_ops2_writes (by decide)
    _ = W9 m ρ c (Proc.devRef .tc main_arg1) := StableHlo.after_of_writes_sub main_part4_ops1 _ main_part4_ops1_writes (by decide)
    _ = W8 m ρ c (Proc.devRef .tc main_arg1) := StableHlo.after_of_writes_sub main_part4_ops0 _ main_part4_ops0_writes (by decide)
    _ = W7 m ρ c (Proc.devRef .tc main_arg1) := StableHlo.after_of_writes_sub main_part3_ops1 _ main_part3_ops1_writes (by decide)
    _ = W6 m ρ c (Proc.devRef .tc main_arg1) := W7_of_ne m ρ c main_arg1 (by decide)
    _ = W5 m ρ c (Proc.devRef .tc main_arg1) := StableHlo.after_of_writes_sub main_part3_ops0 _ main_part3_ops0_writes (by decide)
    _ = W4 m ρ c (Proc.devRef .tc main_arg1) := StableHlo.after_of_writes_sub main_part2_ops1 _ main_part2_ops1_writes (by decide)
    _ = W3 m ρ c (Proc.devRef .tc main_arg1) := W4_of_ne m ρ c main_arg1 (by decide)
    _ = W2 m ρ c (Proc.devRef .tc main_arg1) := StableHlo.after_of_writes_sub main_part2_ops0 _ main_part2_ops0_writes (by decide)
    _ = W1 m ρ c (Proc.devRef .tc main_arg1) := StableHlo.after_of_writes_sub main_part1_ops0 _ main_part1_ops0_writes (by decide)
    _ = W0 m ρ c (Proc.devRef .tc main_arg1) := StableHlo.after_of_writes_sub main_part0_ops0 _ main_part0_ops0_writes (by decide)
    _ = m ((c : Thread nD τ).loc main_arg1) := rfl

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := StableHlo.after_of_writes_sub main_part4_ops4 _ main_part4_ops4_writes (by decide)
    _ = W12 m ρ c (Proc.devRef .tc main_arg2) := W13_of_ne m ρ c main_arg2 (by decide)
    _ = W11 m ρ c (Proc.devRef .tc main_arg2) := StableHlo.after_of_writes_sub main_part4_ops3 _ main_part4_ops3_writes (by decide)
    _ = W10 m ρ c (Proc.devRef .tc main_arg2) := StableHlo.after_of_writes_sub main_part4_ops2 _ main_part4_ops2_writes (by decide)
    _ = W9 m ρ c (Proc.devRef .tc main_arg2) := StableHlo.after_of_writes_sub main_part4_ops1 _ main_part4_ops1_writes (by decide)
    _ = W8 m ρ c (Proc.devRef .tc main_arg2) := StableHlo.after_of_writes_sub main_part4_ops0 _ main_part4_ops0_writes (by decide)
    _ = W7 m ρ c (Proc.devRef .tc main_arg2) := StableHlo.after_of_writes_sub main_part3_ops1 _ main_part3_ops1_writes (by decide)
    _ = W6 m ρ c (Proc.devRef .tc main_arg2) := W7_of_ne m ρ c main_arg2 (by decide)
    _ = W5 m ρ c (Proc.devRef .tc main_arg2) := StableHlo.after_of_writes_sub main_part3_ops0 _ main_part3_ops0_writes (by decide)
    _ = W4 m ρ c (Proc.devRef .tc main_arg2) := StableHlo.after_of_writes_sub main_part2_ops1 _ main_part2_ops1_writes (by decide)
    _ = W3 m ρ c (Proc.devRef .tc main_arg2) := W4_of_ne m ρ c main_arg2 (by decide)
    _ = W2 m ρ c (Proc.devRef .tc main_arg2) := StableHlo.after_of_writes_sub main_part2_ops0 _ main_part2_ops0_writes (by decide)
    _ = W1 m ρ c (Proc.devRef .tc main_arg2) := StableHlo.after_of_writes_sub main_part1_ops0 _ main_part1_ops0_writes (by decide)
    _ = W0 m ρ c (Proc.devRef .tc main_arg2) := StableHlo.after_of_writes_sub main_part0_ops0 _ main_part0_ops0_writes (by decide)
    _ = m ((c : Thread nD τ).loc main_arg2) := rfl

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := StableHlo.after_of_writes_sub main_part4_ops4 _ main_part4_ops4_writes (by decide)
    _ = W12 m ρ c (Proc.devRef .tc main_arg3) := W13_of_ne m ρ c main_arg3 (by decide)
    _ = W11 m ρ c (Proc.devRef .tc main_arg3) := StableHlo.after_of_writes_sub main_part4_ops3 _ main_part4_ops3_writes (by decide)
    _ = W10 m ρ c (Proc.devRef .tc main_arg3) := StableHlo.after_of_writes_sub main_part4_ops2 _ main_part4_ops2_writes (by decide)
    _ = W9 m ρ c (Proc.devRef .tc main_arg3) := StableHlo.after_of_writes_sub main_part4_ops1 _ main_part4_ops1_writes (by decide)
    _ = W8 m ρ c (Proc.devRef .tc main_arg3) := StableHlo.after_of_writes_sub main_part4_ops0 _ main_part4_ops0_writes (by decide)
    _ = W7 m ρ c (Proc.devRef .tc main_arg3) := StableHlo.after_of_writes_sub main_part3_ops1 _ main_part3_ops1_writes (by decide)
    _ = W6 m ρ c (Proc.devRef .tc main_arg3) := W7_of_ne m ρ c main_arg3 (by decide)
    _ = W5 m ρ c (Proc.devRef .tc main_arg3) := StableHlo.after_of_writes_sub main_part3_ops0 _ main_part3_ops0_writes (by decide)
    _ = W4 m ρ c (Proc.devRef .tc main_arg3) := StableHlo.after_of_writes_sub main_part2_ops1 _ main_part2_ops1_writes (by decide)
    _ = W3 m ρ c (Proc.devRef .tc main_arg3) := W4_of_ne m ρ c main_arg3 (by decide)
    _ = W2 m ρ c (Proc.devRef .tc main_arg3) := StableHlo.after_of_writes_sub main_part2_ops0 _ main_part2_ops0_writes (by decide)
    _ = W1 m ρ c (Proc.devRef .tc main_arg3) := StableHlo.after_of_writes_sub main_part1_ops0 _ main_part1_ops0_writes (by decide)
    _ = W0 m ρ c (Proc.devRef .tc main_arg3) := StableHlo.after_of_writes_sub main_part0_ops0 _ main_part0_ops0_writes (by decide)
    _ = m ((c : Thread nD τ).loc main_arg3) := rfl

theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := StableHlo.after_of_writes_sub main_part4_ops4 _ main_part4_ops4_writes (by decide)
    _ = W12 m ρ c (Proc.devRef .tc main_arg4) := W13_of_ne m ρ c main_arg4 (by decide)
    _ = W11 m ρ c (Proc.devRef .tc main_arg4) := StableHlo.after_of_writes_sub main_part4_ops3 _ main_part4_ops3_writes (by decide)
    _ = W10 m ρ c (Proc.devRef .tc main_arg4) := StableHlo.after_of_writes_sub main_part4_ops2 _ main_part4_ops2_writes (by decide)
    _ = W9 m ρ c (Proc.devRef .tc main_arg4) := StableHlo.after_of_writes_sub main_part4_ops1 _ main_part4_ops1_writes (by decide)
    _ = W8 m ρ c (Proc.devRef .tc main_arg4) := StableHlo.after_of_writes_sub main_part4_ops0 _ main_part4_ops0_writes (by decide)
    _ = W7 m ρ c (Proc.devRef .tc main_arg4) := StableHlo.after_of_writes_sub main_part3_ops1 _ main_part3_ops1_writes (by decide)
    _ = W6 m ρ c (Proc.devRef .tc main_arg4) := W7_of_ne m ρ c main_arg4 (by decide)
    _ = W5 m ρ c (Proc.devRef .tc main_arg4) := StableHlo.after_of_writes_sub main_part3_ops0 _ main_part3_ops0_writes (by decide)
    _ = W4 m ρ c (Proc.devRef .tc main_arg4) := StableHlo.after_of_writes_sub main_part2_ops1 _ main_part2_ops1_writes (by decide)
    _ = W3 m ρ c (Proc.devRef .tc main_arg4) := W4_of_ne m ρ c main_arg4 (by decide)
    _ = W2 m ρ c (Proc.devRef .tc main_arg4) := StableHlo.after_of_writes_sub main_part2_ops0 _ main_part2_ops0_writes (by decide)
    _ = W1 m ρ c (Proc.devRef .tc main_arg4) := StableHlo.after_of_writes_sub main_part1_ops0 _ main_part1_ops0_writes (by decide)
    _ = W0 m ρ c (Proc.devRef .tc main_arg4) := StableHlo.after_of_writes_sub main_part0_ops0 _ main_part0_ops0_writes (by decide)
    _ = m ((c : Thread nD τ).loc main_arg4) := rfl

theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := StableHlo.after_of_writes_sub main_part4_ops4 _ main_part4_ops4_writes (by decide)
    _ = W12 m ρ c (Proc.devRef .tc main_arg5) := W13_of_ne m ρ c main_arg5 (by decide)
    _ = W11 m ρ c (Proc.devRef .tc main_arg5) := StableHlo.after_of_writes_sub main_part4_ops3 _ main_part4_ops3_writes (by decide)
    _ = W10 m ρ c (Proc.devRef .tc main_arg5) := StableHlo.after_of_writes_sub main_part4_ops2 _ main_part4_ops2_writes (by decide)
    _ = W9 m ρ c (Proc.devRef .tc main_arg5) := StableHlo.after_of_writes_sub main_part4_ops1 _ main_part4_ops1_writes (by decide)
    _ = W8 m ρ c (Proc.devRef .tc main_arg5) := StableHlo.after_of_writes_sub main_part4_ops0 _ main_part4_ops0_writes (by decide)
    _ = W7 m ρ c (Proc.devRef .tc main_arg5) := StableHlo.after_of_writes_sub main_part3_ops1 _ main_part3_ops1_writes (by decide)
    _ = W6 m ρ c (Proc.devRef .tc main_arg5) := W7_of_ne m ρ c main_arg5 (by decide)
    _ = W5 m ρ c (Proc.devRef .tc main_arg5) := StableHlo.after_of_writes_sub main_part3_ops0 _ main_part3_ops0_writes (by decide)
    _ = W4 m ρ c (Proc.devRef .tc main_arg5) := StableHlo.after_of_writes_sub main_part2_ops1 _ main_part2_ops1_writes (by decide)
    _ = W3 m ρ c (Proc.devRef .tc main_arg5) := (W4_arr m ρ c 2).trans (((dat0 (V3 m ρ) c).arrAt_in 2 rfl _).trans (A_eq0 (V3 m ρ) c 2))
    _ = W2 m ρ c (Proc.devRef .tc main_arg5) := StableHlo.after_of_writes_sub main_part2_ops0 _ main_part2_ops0_writes (by decide)
    _ = W1 m ρ c (Proc.devRef .tc main_arg5) := StableHlo.after_of_writes_sub main_part1_ops0 _ main_part1_ops0_writes (by decide)
    _ = W0 m ρ c (Proc.devRef .tc main_arg5) := StableHlo.after_of_writes_sub main_part0_ops0 _ main_part0_ops0_writes (by decide)
    _ = m ((c : Thread nD τ).loc main_arg5) := rfl

theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := StableHlo.after_of_writes_sub main_part4_ops4 _ main_part4_ops4_writes (by decide)
    _ = W12 m ρ c (Proc.devRef .tc main_arg6) := W13_of_ne m ρ c main_arg6 (by decide)
    _ = W11 m ρ c (Proc.devRef .tc main_arg6) := StableHlo.after_of_writes_sub main_part4_ops3 _ main_part4_ops3_writes (by decide)
    _ = W10 m ρ c (Proc.devRef .tc main_arg6) := StableHlo.after_of_writes_sub main_part4_ops2 _ main_part4_ops2_writes (by decide)
    _ = W9 m ρ c (Proc.devRef .tc main_arg6) := StableHlo.after_of_writes_sub main_part4_ops1 _ main_part4_ops1_writes (by decide)
    _ = W8 m ρ c (Proc.devRef .tc main_arg6) := StableHlo.after_of_writes_sub main_part4_ops0 _ main_part4_ops0_writes (by decide)
    _ = W7 m ρ c (Proc.devRef .tc main_arg6) := StableHlo.after_of_writes_sub main_part3_ops1 _ main_part3_ops1_writes (by decide)
    _ = W6 m ρ c (Proc.devRef .tc main_arg6) := W7_of_ne m ρ c main_arg6 (by decide)
    _ = W5 m ρ c (Proc.devRef .tc main_arg6) := StableHlo.after_of_writes_sub main_part3_ops0 _ main_part3_ops0_writes (by decide)
    _ = W4 m ρ c (Proc.devRef .tc main_arg6) := StableHlo.after_of_writes_sub main_part2_ops1 _ main_part2_ops1_writes (by decide)
    _ = W3 m ρ c (Proc.devRef .tc main_arg6) := (W4_arr m ρ c 3).trans (((dat0 (V3 m ρ) c).arrAt_in 3 rfl _).trans (A_eq0 (V3 m ρ) c 3))
    _ = W2 m ρ c (Proc.devRef .tc main_arg6) := StableHlo.after_of_writes_sub main_part2_ops0 _ main_part2_ops0_writes (by decide)
    _ = W1 m ρ c (Proc.devRef .tc main_arg6) := StableHlo.after_of_writes_sub main_part1_ops0 _ main_part1_ops0_writes (by decide)
    _ = W0 m ρ c (Proc.devRef .tc main_arg6) := StableHlo.after_of_writes_sub main_part0_ops0 _ main_part0_ops0_writes (by decide)
    _ = m ((c : Thread nD τ).loc main_arg6) := rfl

theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := StableHlo.after_of_writes_sub main_part4_ops4 _ main_part4_ops4_writes (by decide)
    _ = W12 m ρ c (Proc.devRef .tc main_arg7) := W13_of_ne m ρ c main_arg7 (by decide)
    _ = W11 m ρ c (Proc.devRef .tc main_arg7) := StableHlo.after_of_writes_sub main_part4_ops3 _ main_part4_ops3_writes (by decide)
    _ = W10 m ρ c (Proc.devRef .tc main_arg7) := StableHlo.after_of_writes_sub main_part4_ops2 _ main_part4_ops2_writes (by decide)
    _ = W9 m ρ c (Proc.devRef .tc main_arg7) := StableHlo.after_of_writes_sub main_part4_ops1 _ main_part4_ops1_writes (by decide)
    _ = W8 m ρ c (Proc.devRef .tc main_arg7) := StableHlo.after_of_writes_sub main_part4_ops0 _ main_part4_ops0_writes (by decide)
    _ = W7 m ρ c (Proc.devRef .tc main_arg7) := StableHlo.after_of_writes_sub main_part3_ops1 _ main_part3_ops1_writes (by decide)
    _ = W6 m ρ c (Proc.devRef .tc main_arg7) := W7_of_ne m ρ c main_arg7 (by decide)
    _ = W5 m ρ c (Proc.devRef .tc main_arg7) := StableHlo.after_of_writes_sub main_part3_ops0 _ main_part3_ops0_writes (by decide)
    _ = W4 m ρ c (Proc.devRef .tc main_arg7) := StableHlo.after_of_writes_sub main_part2_ops1 _ main_part2_ops1_writes (by decide)
    _ = W3 m ρ c (Proc.devRef .tc main_arg7) := (W4_arr m ρ c 4).trans (((dat0 (V3 m ρ) c).arrAt_in 4 rfl _).trans (A_eq0 (V3 m ρ) c 4))
    _ = W2 m ρ c (Proc.devRef .tc main_arg7) := StableHlo.after_of_writes_sub main_part2_ops0 _ main_part2_ops0_writes (by decide)
    _ = W1 m ρ c (Proc.devRef .tc main_arg7) := StableHlo.after_of_writes_sub main_part1_ops0 _ main_part1_ops0_writes (by decide)
    _ = W0 m ρ c (Proc.devRef .tc main_arg7) := StableHlo.after_of_writes_sub main_part0_ops0 _ main_part0_ops0_writes (by decide)
    _ = m ((c : Thread nD τ).loc main_arg7) := rfl

theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := StableHlo.after_of_writes_sub main_part4_ops4 _ main_part4_ops4_writes (by decide)
    _ = W12 m ρ c (Proc.devRef .tc main_arg8) := W13_of_ne m ρ c main_arg8 (by decide)
    _ = W11 m ρ c (Proc.devRef .tc main_arg8) := StableHlo.after_of_writes_sub main_part4_ops3 _ main_part4_ops3_writes (by decide)
    _ = W10 m ρ c (Proc.devRef .tc main_arg8) := StableHlo.after_of_writes_sub main_part4_ops2 _ main_part4_ops2_writes (by decide)
    _ = W9 m ρ c (Proc.devRef .tc main_arg8) := StableHlo.after_of_writes_sub main_part4_ops1 _ main_part4_ops1_writes (by decide)
    _ = W8 m ρ c (Proc.devRef .tc main_arg8) := StableHlo.after_of_writes_sub main_part4_ops0 _ main_part4_ops0_writes (by decide)
    _ = W7 m ρ c (Proc.devRef .tc main_arg8) := StableHlo.after_of_writes_sub main_part3_ops1 _ main_part3_ops1_writes (by decide)
    _ = W6 m ρ c (Proc.devRef .tc main_arg8) := (W7_arr m ρ c 2).trans (((dat1 (V6 m ρ) c).arrAt_in 2 rfl _).trans (A_eq1 (V6 m ρ) c 2))
    _ = W5 m ρ c (Proc.devRef .tc main_arg8) := StableHlo.after_of_writes_sub main_part3_ops0 _ main_part3_ops0_writes (by decide)
    _ = W4 m ρ c (Proc.devRef .tc main_arg8) := StableHlo.after_of_writes_sub main_part2_ops1 _ main_part2_ops1_writes (by decide)
    _ = W3 m ρ c (Proc.devRef .tc main_arg8) := W4_of_ne m ρ c main_arg8 (by decide)
    _ = W2 m ρ c (Proc.devRef .tc main_arg8) := StableHlo.after_of_writes_sub main_part2_ops0 _ main_part2_ops0_writes (by decide)
    _ = W1 m ρ c (Proc.devRef .tc main_arg8) := StableHlo.after_of_writes_sub main_part1_ops0 _ main_part1_ops0_writes (by decide)
    _ = W0 m ρ c (Proc.devRef .tc main_arg8) := StableHlo.after_of_writes_sub main_part0_ops0 _ main_part0_ops0_writes (by decide)
    _ = m ((c : Thread nD τ).loc main_arg8) := rfl

theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := StableHlo.after_of_writes_sub main_part4_ops4 _ main_part4_ops4_writes (by decide)
    _ = W12 m ρ c (Proc.devRef .tc main_arg9) := W13_of_ne m ρ c main_arg9 (by decide)
    _ = W11 m ρ c (Proc.devRef .tc main_arg9) := StableHlo.after_of_writes_sub main_part4_ops3 _ main_part4_ops3_writes (by decide)
    _ = W10 m ρ c (Proc.devRef .tc main_arg9) := StableHlo.after_of_writes_sub main_part4_ops2 _ main_part4_ops2_writes (by decide)
    _ = W9 m ρ c (Proc.devRef .tc main_arg9) := StableHlo.after_of_writes_sub main_part4_ops1 _ main_part4_ops1_writes (by decide)
    _ = W8 m ρ c (Proc.devRef .tc main_arg9) := StableHlo.after_of_writes_sub main_part4_ops0 _ main_part4_ops0_writes (by decide)
    _ = W7 m ρ c (Proc.devRef .tc main_arg9) := StableHlo.after_of_writes_sub main_part3_ops1 _ main_part3_ops1_writes (by decide)
    _ = W6 m ρ c (Proc.devRef .tc main_arg9) := (W7_arr m ρ c 3).trans (((dat1 (V6 m ρ) c).arrAt_in 3 rfl _).trans (A_eq1 (V6 m ρ) c 3))
    _ = W5 m ρ c (Proc.devRef .tc main_arg9) := StableHlo.after_of_writes_sub main_part3_ops0 _ main_part3_ops0_writes (by decide)
    _ = W4 m ρ c (Proc.devRef .tc main_arg9) := StableHlo.after_of_writes_sub main_part2_ops1 _ main_part2_ops1_writes (by decide)
    _ = W3 m ρ c (Proc.devRef .tc main_arg9) := W4_of_ne m ρ c main_arg9 (by decide)
    _ = W2 m ρ c (Proc.devRef .tc main_arg9) := StableHlo.after_of_writes_sub main_part2_ops0 _ main_part2_ops0_writes (by decide)
    _ = W1 m ρ c (Proc.devRef .tc main_arg9) := StableHlo.after_of_writes_sub main_part1_ops0 _ main_part1_ops0_writes (by decide)
    _ = W0 m ρ c (Proc.devRef .tc main_arg9) := StableHlo.after_of_writes_sub main_part0_ops0 _ main_part0_ops0_writes (by decide)
    _ = m ((c : Thread nD τ).loc main_arg9) := rfl

theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := StableHlo.after_of_writes_sub main_part4_ops4 _ main_part4_ops4_writes (by decide)
    _ = W12 m ρ c (Proc.devRef .tc main_arg10) := W13_of_ne m ρ c main_arg10 (by decide)
    _ = W11 m ρ c (Proc.devRef .tc main_arg10) := StableHlo.after_of_writes_sub main_part4_ops3 _ main_part4_ops3_writes (by decide)
    _ = W10 m ρ c (Proc.devRef .tc main_arg10) := StableHlo.after_of_writes_sub main_part4_ops2 _ main_part4_ops2_writes (by decide)
    _ = W9 m ρ c (Proc.devRef .tc main_arg10) := StableHlo.after_of_writes_sub main_part4_ops1 _ main_part4_ops1_writes (by decide)
    _ = W8 m ρ c (Proc.devRef .tc main_arg10) := StableHlo.after_of_writes_sub main_part4_ops0 _ main_part4_ops0_writes (by decide)
    _ = W7 m ρ c (Proc.devRef .tc main_arg10) := StableHlo.after_of_writes_sub main_part3_ops1 _ main_part3_ops1_writes (by decide)
    _ = W6 m ρ c (Proc.devRef .tc main_arg10) := (W7_arr m ρ c 4).trans (((dat1 (V6 m ρ) c).arrAt_in 4 rfl _).trans (A_eq1 (V6 m ρ) c 4))
    _ = W5 m ρ c (Proc.devRef .tc main_arg10) := StableHlo.after_of_writes_sub main_part3_ops0 _ main_part3_ops0_writes (by decide)
    _ = W4 m ρ c (Proc.devRef .tc main_arg10) := StableHlo.after_of_writes_sub main_part2_ops1 _ main_part2_ops1_writes (by decide)
    _ = W3 m ρ c (Proc.devRef .tc main_arg10) := W4_of_ne m ρ c main_arg10 (by decide)
    _ = W2 m ρ c (Proc.devRef .tc main_arg10) := StableHlo.after_of_writes_sub main_part2_ops0 _ main_part2_ops0_writes (by decide)
    _ = W1 m ρ c (Proc.devRef .tc main_arg10) := StableHlo.after_of_writes_sub main_part1_ops0 _ main_part1_ops0_writes (by decide)
    _ = W0 m ρ c (Proc.devRef .tc main_arg10) := StableHlo.after_of_writes_sub main_part0_ops0 _ main_part0_ops0_writes (by decide)
    _ = m ((c : Thread nD τ).loc main_arg10) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V12 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W12`, left at `W13`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V12 m ρ) c).loose
  hwaits := Pipeline.hwaits_of_owed_zero _ _ _ _ L lv 2 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec2 c (V12 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V12 m ρ c) (V13 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part2_ops0 main_part2_ops0_sub main_part2_ops0_fresh (W2 m ρ)),
    .region (reg0 m ρ),
    .host (hseg main_part2_ops1 main_part2_ops1_sub main_part2_ops1_fresh (W4 m ρ)),
    .host (hseg main_part3_ops0 main_part3_ops0_sub main_part3_ops0_fresh (W5 m ρ)),
    .region (reg1 m ρ),
    .host (hseg main_part3_ops1 main_part3_ops1_sub main_part3_ops1_fresh (W7 m ρ)),
    .host (hseg main_part4_ops0 main_part4_ops0_sub main_part4_ops0_fresh (W8 m ρ)),
    .host (hseg main_part4_ops1 main_part4_ops1_sub main_part4_ops1_fresh (W9 m ρ)),
    .host (hseg main_part4_ops2 main_part4_ops2_sub main_part4_ops2_fresh (W10 m ρ)),
    .host (hseg main_part4_ops3 main_part4_ops3_sub main_part4_ops3_fresh (W11 m ρ)),
    .region (reg2 m ρ),
    .host (hseg main_part4_ops4 main_part4_ops4_sub main_part4_ops4_fresh (W13 m ρ)) ]

/-- @main is the run of the segments. -/
theorem main_run (c : Dev nD) : main (F := F) c = Pipeline.Seg.run (segs m ρ) := (main_chain_windows c).trans (by chain_rfl)

set_option backward.isDefEq.respectTransparency.types false in
/-- The run: from any memory with zero counters, every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c)⟩) (run_all m ρ)

end Cert.KernelIdeal.Regions

end
-- ==== Proof.SageSpec.lean ====
/-
  The arithmetic of one graph-convolution layer at one node and one output feature, on the extended reals.
-/
import Mathlib.Data.EReal.Basic
import Mathlib.Algebra.BigOperators.Fin

noncomputable section

namespace Cert.Sage

/-- One relation's share added to a running total: the node's features against a row of the self weights, its mean
    neighbour features against a row of the neighbour weights, then the bias. -/
def relStep (h mean ws wn : Fin 10 → EReal) (b acc : EReal) : EReal :=
  acc + (∑ k : Fin 10, h k * ws k) + (∑ k : Fin 10, mean k * wn k) + b

/-- A node's output feature: the four relations' shares, in order, from zero. -/
def nodeOut (h : Fin 10 → EReal) (mean ws wn : Fin 4 → Fin 10 → EReal) (b : Fin 4 → EReal) : EReal :=
  relStep h (mean 3) (ws 3) (wn 3) (b 3) (relStep h (mean 2) (ws 2) (wn 2) (b 2)
    (relStep h (mean 1) (ws 1) (wn 1) (b 1) (relStep h (mean 0) (ws 0) (wn 0) (b 0) 0)))

end Cert.Sage

end
-- ==== Proof.HostStretches.lean ====
/-
  The kernel program's host operations between its three kernel regions, at the extended reals: the chains both layers
  share (an index row, indices wrapped into range, features gathered at edge sources and summed at edge targets, the
  in-degree, one over max(degree, 1)), and each stretch of operations read at the buffers later items use.
-/
import proofs.«163996_j25580825215696_1_alg».proof.Proof.IdealRun
import proofs.«163996_j25580825215696_1_alg».proof.Proof.SageSpec
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.Values

open Idealize.ShloMosaic Idealize.ShloMosaic.ValueIdx Idealize.ShloMosaic.TcCoe Idealize.ShloMosaic.StableHlo
open Cert.KernelIdeal Cert.KernelIdeal.Gen Cert.KernelIdeal.Regions

/-! ## The host chains shared by the two layers -/

abbrev Feat := FVec Ideal S500000x10 .f32
abbrev Edges4 := IVec S4x2000000 32
abbrev Edges := IVec S2000000 32
abbrev NodeVec := FVec Ideal S500000 .f32

/-- Row 0 of a 4 × 2000000 array of node indices, as a vector. -/
def row0 (a : Edges4) : Edges :=
  shapeCast _ (extractStridedSlice S1x2000000 ![0, 0] a slices_S4x2000000_S1x2000000_0_0) shapeCasts_S1x2000000_S2000000
/-- Row 1 of a 4 × 2000000 array of node indices, as a vector. -/
def row1 (a : Edges4) : Edges :=
  shapeCast _ (extractStridedSlice S1x2000000 ![1, 0] a slices_S4x2000000_S1x2000000_1_0) shapeCasts_S1x2000000_S2000000
/-- Row 2 of a 4 × 2000000 array of node indices, as a vector. -/
def row2 (a : Edges4) : Edges :=
  shapeCast _ (extractStridedSlice S1x2000000 ![2, 0] a slices_S4x2000000_S1x2000000_2_0) shapeCasts_S1x2000000_S2000000
/-- Row 3 of a 4 × 2000000 array of node indices, as a vector. -/
def row3 (a : Edges4) : Edges :=
  shapeCast _ (extractStridedSlice S1x2000000 ![3, 0] a slices_S4x2000000_S1x2000000_3_0) shapeCasts_S1x2000000_S2000000

/-- Node indices with the negative ones moved up by the number of nodes. -/
def wrapIdx (raw : Edges) : Edges :=
  select (cmpi .slt raw (broadcastInDim S2000000 ![] bcast_S_S2000000 (constantI S_ 32 0#32))) (addi raw (broadcastInDim S2000000 ![] bcast_S_S2000000 (constantI S_ 32 500000#32))) raw

/-- The features gathered at the edges' sources. -/
def gatherAt (h : Feat) (raw : Edges) : FVec Ideal S2000000x10 .f32 :=
  Host.gather gather_S500000x10_S2000000x1_S2000000x10_1_0_n_n_0_1_110 h (broadcastInDim S2000000x1 ![0] bcast_S2000000_S2000000x1_0 (wrapIdx raw))

/-- The sum over a node's incoming edges of the source features. -/
def nbrSum (h : Feat) (srcRaw dstRaw : Edges) : Feat :=
  Host.scatterAdd scatter_S500000x10_S2000000x1_S2000000x10_1_0_0_1 (broadcastInDim S500000x10 ![] bcast_S_S500000x10 (constant S_ .f32 0x00000000#32)) (broadcastInDim S2000000x1 ![0] bcast_S2000000_S2000000x1_0 dstRaw) (gatherAt h srcRaw)

/-- A node's in-degree: the sum of a one per incoming edge. -/
def degOf (dstRaw : Edges) : NodeVec :=
  Host.scatterAdd scatter_S500000_S2000000x1_S2000000_n_0_0_1 (broadcastInDim S500000 ![] bcast_S_S500000 (constant S_ .f32 0x00000000#32)) (broadcastInDim S2000000x1 ![0] bcast_S2000000_S2000000x1_0 dstRaw) (broadcastInDim S2000000 ![] bcast_S_S2000000 (constant S_ .f32 0x3F800000#32))

/-- The degree raised to at least one. -/
def degMax (dstRaw : Edges) : NodeVec :=
  maximumf (degOf dstRaw) (broadcastInDim S500000 ![] bcast_S_S500000 (constant S_ .f32 0x3F800000#32))

/-- One over it, as a 1 × 500000 × 1 slab. -/
def invSlab (dstRaw : Edges) : FVec Ideal S1x500000x1 .f32 :=
  broadcastInDim S1x500000x1 ![1, 2] bcast_S500000x1_S1x500000x1_1_2 (broadcastInDim S500000x1 ![0] bcast_S500000_S500000x1_0
    (Host.divf (broadcastInDim S500000 ![] bcast_S_S500000 (constant S_ .f32 0x3F800000#32)) (degMax dstRaw)))

/-- The four relations' reciprocal degrees stacked. -/
def invDeg4 (dst : Edges4) : FVec Ideal S4x500000x1 .f32 :=
  concatenate S4x500000x1 0 [⟨S1x500000x1, invSlab (row0 dst)⟩, ⟨S1x500000x1, invSlab (row1 dst)⟩, ⟨S1x500000x1, invSlab (row2 dst)⟩, ⟨S1x500000x1, invSlab (row3 dst)⟩] concatenates_S1x500000x1_S1x500000x1_S1x500000x1_S1x500000x1_S4x500000x1_d0

/-- Relation 0's mean neighbour features as the kernel's program forms them: the neighbour sums times the stacked reciprocal's slab 0. -/
def meanK0 (h : Feat) (src dst : Edges4) (d45 : FVec Ideal S4x500000x1 .f32) : Feat :=
  mulf (nbrSum h (row0 src) (row0 dst)) (broadcastInDim S500000x10 ![0, 1] bcast_S500000x1_S500000x10_0_1 (shapeCast _ (extractStridedSlice S1x500000x1 ![0, 0, 0] d45 slices_S4x500000x1_S1x500000x1_0_0_0) shapeCasts_S1x500000x1_S500000x1))
/-- Relation 1's mean neighbour features as the kernel's program forms them: the neighbour sums times the stacked reciprocal's slab 1. -/
def meanK1 (h : Feat) (src dst : Edges4) (d45 : FVec Ideal S4x500000x1 .f32) : Feat :=
  mulf (nbrSum h (row1 src) (row1 dst)) (broadcastInDim S500000x10 ![0, 1] bcast_S500000x1_S500000x10_0_1 (shapeCast _ (extractStridedSlice S1x500000x1 ![1, 0, 0] d45 slices_S4x500000x1_S1x500000x1_1_0_0) shapeCasts_S1x500000x1_S500000x1))
/-- Relation 2's mean neighbour features as the kernel's program forms them: the neighbour sums times the stacked reciprocal's slab 2. -/
def meanK2 (h : Feat) (src dst : Edges4) (d45 : FVec Ideal S4x500000x1 .f32) : Feat :=
  mulf (nbrSum h (row2 src) (row2 dst)) (broadcastInDim S500000x10 ![0, 1] bcast_S500000x1_S500000x10_0_1 (shapeCast _ (extractStridedSlice S1x500000x1 ![2, 0, 0] d45 slices_S4x500000x1_S1x500000x1_2_0_0) shapeCasts_S1x500000x1_S500000x1))
/-- Relation 3's mean neighbour features as the kernel's program forms them: the neighbour sums times the stacked reciprocal's slab 3. -/
def meanK3 (h : Feat) (src dst : Edges4) (d45 : FVec Ideal S4x500000x1 .f32) : Feat :=
  mulf (nbrSum h (row3 src) (row3 dst)) (broadcastInDim S500000x10 ![0, 1] bcast_S500000x1_S500000x10_0_1 (shapeCast _ (extractStridedSlice S1x500000x1 ![3, 0, 0] d45 slices_S4x500000x1_S1x500000x1_3_0_0) shapeCasts_S1x500000x1_S500000x1))

/-- The four relations' means side by side in 40 columns. -/
def meanCat (h : Feat) (src dst : Edges4) (d45 : FVec Ideal S4x500000x1 .f32) : FVec Ideal S500000x40 .f32 :=
  concatenate S500000x40 1 [⟨S500000x10, meanK0 h src dst d45⟩, ⟨S500000x10, meanK1 h src dst d45⟩, ⟨S500000x10, meanK2 h src dst d45⟩, ⟨S500000x10, meanK3 h src dst d45⟩] concatenates_S500000x10_S500000x10_S500000x10_S500000x10_S500000x40_d1

/-! ## Each host stretch, read at the buffers later items use -/

set_option maxHeartbeats 4000000 in
theorem A_v45 (V : Valuation τ sig (Elt Ideal)) :
    after main_part0_ops0 V (Proc.devRef .tc main_v45) = (concatenate S4x500000x1 0 [⟨S1x500000x1, broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![0, 0] ((V (Proc.devRef .tc main_arg2) : IVec S4x2000000 32)) slices_S4x2000000_S1x2000000_0_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32)))))⟩, ⟨S1x500000x1, broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![1, 0] ((V (Proc.devRef .tc main_arg2) : IVec S4x2000000 32)) slices_S4x2000000_S1x2000000_1_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32)))))⟩, ⟨S1x500000x1, broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![2, 0] ((V (Proc.devRef .tc main_arg2) : IVec S4x2000000 32)) slices_S4x2000000_S1x2000000_2_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32)))))⟩, ⟨S1x500000x1, broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![3, 0] ((V (Proc.devRef .tc main_arg2) : IVec S4x2000000 32)) slices_S4x2000000_S1x2000000_3_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32)))))⟩] concatenates_S1x500000x1_S1x500000x1_S1x500000x1_S1x500000x1_S4x500000x1_d0 : FVec Ideal S4x500000x1 .f32) := by
  simp only [main_part0_ops0, after_cons, after_nil]
  rw [unary_result_ne]; rotate_left; decide
  rw [nary4_result]
  generalize h0 : HloOp.result _ _ (Proc.devRef .tc main_v41) = p0
  generalize h1 : HloOp.result _ _ (Proc.devRef .tc main_v42) = p1
  generalize h2 : HloOp.result _ _ (Proc.devRef .tc main_v43) = p2
  generalize h3 : HloOp.result _ _ (Proc.devRef .tc main_v44) = p3
  have e0 : p0 = (broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![0, 0] ((V (Proc.devRef .tc main_arg2) : IVec S4x2000000 32)) slices_S4x2000000_S1x2000000_0_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32))))) : FVec Ideal S1x500000x1 .f32) := by rw [← h0]; after_results_simp; try rfl
  have e1 : p1 = (broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![1, 0] ((V (Proc.devRef .tc main_arg2) : IVec S4x2000000 32)) slices_S4x2000000_S1x2000000_1_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32))))) : FVec Ideal S1x500000x1 .f32) := by rw [← h1]; after_results_simp; try rfl
  have e2 : p2 = (broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![2, 0] ((V (Proc.devRef .tc main_arg2) : IVec S4x2000000 32)) slices_S4x2000000_S1x2000000_2_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32))))) : FVec Ideal S1x500000x1 .f32) := by rw [← h2]; after_results_simp; try rfl
  have e3 : p3 = (broadcastInDim S1x500000x1 ![1, 2] bcast_S500000x1_S1x500000x1_1_2 (broadcastInDim S500000x1 ![0] bcast_S500000_S500000x1_0 (Host.divf (broadcastInDim S500000 ![] bcast_S_S500000 (constant (F := Ideal) S_ .f32 0x3F800000#32)) (maximumf (Host.scatterAdd scatter_S500000_S2000000x1_S2000000_n_0_0_1 (broadcastInDim S500000 ![] bcast_S_S500000 (constant (F := Ideal) S_ .f32 0x00000000#32)) (broadcastInDim S2000000x1 ![0] bcast_S2000000_S2000000x1_0 (shapeCast _ (extractStridedSlice S1x2000000 ![3, 0] ((V (Proc.devRef .tc main_arg2) : IVec S4x2000000 32)) slices_S4x2000000_S1x2000000_3_0) shapeCasts_S1x2000000_S2000000)) (broadcastInDim S2000000 ![] bcast_S_S2000000 (constant (F := Ideal) S_ .f32 0x3F800000#32))) (broadcastInDim S500000 ![] bcast_S_S500000 (constant (F := Ideal) S_ .f32 0x3F800000#32))))) : FVec Ideal S1x500000x1 .f32) := by rw [← h3]; after_results_simp; try rfl
  subst e0 e1 e2 e3
  rfl

set_option maxHeartbeats 4000000 in
theorem A_v46 (V : Valuation τ sig (Elt Ideal)) :
    after main_part0_ops0 V (Proc.devRef .tc main_v46) = (extractStridedSlice S1x2000000 ![0, 0] ((V (Proc.devRef .tc main_arg1) : IVec S4x2000000 32)) slices_S4x2000000_S1x2000000_0_0 : IVec S1x2000000 32) := by
  simp only [main_part0_ops0]
  after_results_simp
  try rfl

set_option maxHeartbeats 4000000 in
theorem B_v63 (V : Valuation τ sig (Elt Ideal)) :
    after main_part1_ops0 V (Proc.devRef .tc main_v63) = (mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![0, 0] ((V (Proc.devRef .tc main_arg2) : IVec S4x2000000 32)) slices_S4x2000000_S1x2000000_0_0) shapeCasts_S1x2000000_S2000000)) (Host.gather gather_S500000x10_S2000000x1_S2000000x10_1_0_n_n_0_1_110 ((V (Proc.devRef .tc main_arg0) : FVec Ideal S500000x10 .f32)) (broadcastInDim S2000000x1 ![0] bcast_S2000000_S2000000x1_0 (select (cmpi .slt (shapeCast _ ((V (Proc.devRef .tc main_v46) : IVec S1x2000000 32)) shapeCasts_S1x2000000_S2000000) (broadcastInDim S2000000 ![] bcast_S_S2000000 (constantI S_ 32 0#32))) (addi (shapeCast _ ((V (Proc.devRef .tc main_v46) : IVec S1x2000000 32)) shapeCasts_S1x2000000_S2000000) (broadcastInDim S2000000 ![] bcast_S_S2000000 (constantI S_ 32 500000#32))) (shapeCast _ ((V (Proc.devRef .tc main_v46) : IVec S1x2000000 32)) shapeCasts_S1x2000000_S2000000))))) (broadcastInDim S500000x10 ![0, 1] bcast_S500000x1_S500000x10_0_1 (shapeCast _ (extractStridedSlice S1x500000x1 ![0, 0, 0] ((V (Proc.devRef .tc main_v45) : FVec Ideal S4x500000x1 .f32)) slices_S4x500000x1_S1x500000x1_0_0_0) shapeCasts_S1x500000x1_S500000x1)) : FVec Ideal S500000x10 .f32) := by
  simp only [main_part1_ops0]
  after_results_simp
  try rfl

set_option maxHeartbeats 4000000 in
theorem B_v81 (V : Valuation τ sig (Elt Ideal)) :
    after main_part1_ops0 V (Proc.devRef .tc main_v81) = (mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![1, 0] ((V (Proc.devRef .tc main_arg2) : IVec S4x2000000 32)) slices_S4x2000000_S1x2000000_1_0) shapeCasts_S1x2000000_S2000000)) (Host.gather gather_S500000x10_S2000000x1_S2000000x10_1_0_n_n_0_1_110 ((V (Proc.devRef .tc main_arg0) : FVec Ideal S500000x10 .f32)) (broadcastInDim S2000000x1 ![0] bcast_S2000000_S2000000x1_0 (select (cmpi .slt (shapeCast _ (extractStridedSlice S1x2000000 ![1, 0] ((V (Proc.devRef .tc main_arg1) : IVec S4x2000000 32)) slices_S4x2000000_S1x2000000_1_0) shapeCasts_S1x2000000_S2000000) (broadcastInDim S2000000 ![] bcast_S_S2000000 (constantI S_ 32 0#32))) (addi (shapeCast _ (extractStridedSlice S1x2000000 ![1, 0] ((V (Proc.devRef .tc main_arg1) : IVec S4x2000000 32)) slices_S4x2000000_S1x2000000_1_0) shapeCasts_S1x2000000_S2000000) (broadcastInDim S2000000 ![] bcast_S_S2000000 (constantI S_ 32 500000#32))) (shapeCast _ (extractStridedSlice S1x2000000 ![1, 0] ((V (Proc.devRef .tc main_arg1) : IVec S4x2000000 32)) slices_S4x2000000_S1x2000000_1_0) shapeCasts_S1x2000000_S2000000))))) (broadcastInDim S500000x10 ![0, 1] bcast_S500000x1_S500000x10_0_1 (shapeCast _ (extractStridedSlice S1x500000x1 ![1, 0, 0] ((V (Proc.devRef .tc main_v45) : FVec Ideal S4x500000x1 .f32)) slices_S4x500000x1_S1x500000x1_1_0_0) shapeCasts_S1x500000x1_S500000x1)) : FVec Ideal S500000x10 .f32) := by
  simp only [main_part1_ops0]
  after_results_simp
  try rfl

set_option maxHeartbeats 4000000 in
theorem B_v95 (V : Valuation τ sig (Elt Ideal)) :
    after main_part1_ops0 V (Proc.devRef .tc main_v95) = (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![2, 0] ((V (Proc.devRef .tc main_arg2) : IVec S4x2000000 32)) slices_S4x2000000_S1x2000000_2_0) shapeCasts_S1x2000000_S2000000)) (Host.gather gather_S500000x10_S2000000x1_S2000000x10_1_0_n_n_0_1_110 ((V (Proc.devRef .tc main_arg0) : FVec Ideal S500000x10 .f32)) (broadcastInDim S2000000x1 ![0] bcast_S2000000_S2000000x1_0 (select (cmpi .slt (shapeCast _ (extractStridedSlice S1x2000000 ![2, 0] ((V (Proc.devRef .tc main_arg1) : IVec S4x2000000 32)) slices_S4x2000000_S1x2000000_2_0) shapeCasts_S1x2000000_S2000000) (broadcastInDim S2000000 ![] bcast_S_S2000000 (constantI S_ 32 0#32))) (addi (shapeCast _ (extractStridedSlice S1x2000000 ![2, 0] ((V (Proc.devRef .tc main_arg1) : IVec S4x2000000 32)) slices_S4x2000000_S1x2000000_2_0) shapeCasts_S1x2000000_S2000000) (broadcastInDim S2000000 ![] bcast_S_S2000000 (constantI S_ 32 500000#32))) (shapeCast _ (extractStridedSlice S1x2000000 ![2, 0] ((V (Proc.devRef .tc main_arg1) : IVec S4x2000000 32)) slices_S4x2000000_S1x2000000_2_0) shapeCasts_S1x2000000_S2000000)))) : FVec Ideal S500000x10 .f32) := by
  simp only [main_part1_ops0]
  after_results_simp
  try rfl

set_option maxHeartbeats 4000000 in
theorem B_v97 (V : Valuation τ sig (Elt Ideal)) :
    after main_part1_ops0 V (Proc.devRef .tc main_v97) = (shapeCast _ (extractStridedSlice S1x500000x1 ![2, 0, 0] ((V (Proc.devRef .tc main_v45) : FVec Ideal S4x500000x1 .f32)) slices_S4x500000x1_S1x500000x1_2_0_0) shapeCasts_S1x500000x1_S500000x1 : FVec Ideal S500000x1 .f32) := by
  simp only [main_part1_ops0]
  after_results_simp
  try rfl

set_option maxHeartbeats 4000000 in
theorem C_v118 (V : Valuation τ sig (Elt Ideal)) :
    after main_part2_ops0 V (Proc.devRef .tc main_v118) = (concatenate S500000x40 1 [⟨S500000x10, (V (Proc.devRef .tc main_v63) : FVec Ideal S500000x10 .f32)⟩, ⟨S500000x10, (V (Proc.devRef .tc main_v81) : FVec Ideal S500000x10 .f32)⟩, ⟨S500000x10, mulf ((V (Proc.devRef .tc main_v95) : FVec Ideal S500000x10 .f32)) (broadcastInDim S500000x10 ![0, 1] bcast_S500000x1_S500000x10_0_1 ((V (Proc.devRef .tc main_v97) : FVec Ideal S500000x1 .f32)))⟩, ⟨S500000x10, mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![3, 0] ((V (Proc.devRef .tc main_arg2) : IVec S4x2000000 32)) slices_S4x2000000_S1x2000000_3_0) shapeCasts_S1x2000000_S2000000)) (Host.gather gather_S500000x10_S2000000x1_S2000000x10_1_0_n_n_0_1_110 ((V (Proc.devRef .tc main_arg0) : FVec Ideal S500000x10 .f32)) (broadcastInDim S2000000x1 ![0] bcast_S2000000_S2000000x1_0 (select (cmpi .slt (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 0#32))) (addi (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 500000#32))) (shapeCast _ (extractStridedSlice S1x2000000 ![3, 0] ((V (Proc.devRef .tc main_arg1) : IVec S4x2000000 32)) slices_S4x2000000_S1x2000000_3_0) shapeCasts_S1x2000000_S2000000))))) (broadcastInDim S500000x10 ![0, 1] bcast_S500000x1_S500000x10_0_1 (shapeCast _ (extractStridedSlice S1x500000x1 ![3, 0, 0] ((V (Proc.devRef .tc main_v45) : FVec Ideal S4x500000x1 .f32)) slices_S4x500000x1_S1x500000x1_3_0_0) shapeCasts_S1x500000x1_S500000x1))⟩] concatenates_S500000x10_S500000x10_S500000x10_S500000x10_S500000x40_d1 : FVec Ideal S500000x40 .f32) := by
  simp only [main_part2_ops0, after_cons, after_nil]
  rw [nary4_result]
  generalize h0 : HloOp.result _ _ (Proc.devRef .tc main_v63) = p0
  generalize h1 : HloOp.result _ _ (Proc.devRef .tc main_v81) = p1
  generalize h2 : HloOp.result _ _ (Proc.devRef .tc main_v99) = p2
  generalize h3 : HloOp.result _ _ (Proc.devRef .tc main_v117) = p3
  have e0 : p0 = ((V (Proc.devRef .tc main_v63) : FVec Ideal S500000x10 .f32) : FVec Ideal S500000x10 .f32) := by rw [← h0]; after_results_simp; try rfl
  have e1 : p1 = ((V (Proc.devRef .tc main_v81) : FVec Ideal S500000x10 .f32) : FVec Ideal S500000x10 .f32) := by rw [← h1]; after_results_simp; try rfl
  have e2 : p2 = (mulf ((V (Proc.devRef .tc main_v95) : FVec Ideal S500000x10 .f32)) (broadcastInDim S500000x10 ![0, 1] bcast_S500000x1_S500000x10_0_1 ((V (Proc.devRef .tc main_v97) : FVec Ideal S500000x1 .f32))) : FVec Ideal S500000x10 .f32) := by rw [← h2]; after_results_simp; try rfl
  have e3 : p3 = (mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![3, 0] ((V (Proc.devRef .tc main_arg2) : IVec S4x2000000 32)) slices_S4x2000000_S1x2000000_3_0) shapeCasts_S1x2000000_S2000000)) (Host.gather gather_S500000x10_S2000000x1_S2000000x10_1_0_n_n_0_1_110 ((V (Proc.devRef .tc main_arg0) : FVec Ideal S500000x10 .f32)) (broadcastInDim S2000000x1 ![0] bcast_S2000000_S2000000x1_0 (select (cmpi .slt (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 0#32))) (addi (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 500000#32))) (shapeCast _ (extractStridedSlice S1x2000000 ![3, 0] ((V (Proc.devRef .tc main_arg1) : IVec S4x2000000 32)) slices_S4x2000000_S1x2000000_3_0) shapeCasts_S1x2000000_S2000000))))) (broadcastInDim S500000x10 ![0, 1] bcast_S500000x1_S500000x10_0_1 (shapeCast _ (extractStridedSlice S1x500000x1 ![3, 0, 0] ((V (Proc.devRef .tc main_v45) : FVec Ideal S4x500000x1 .f32)) slices_S4x500000x1_S1x500000x1_3_0_0) shapeCasts_S1x500000x1_S500000x1)) : FVec Ideal S500000x10 .f32) := by rw [← h3]; after_results_simp; try rfl
  subst e0 e1 e2 e3
  rfl

set_option maxHeartbeats 4000000 in
theorem D_v137 (V : Valuation τ sig (Elt Ideal)) :
    after main_part2_ops1 V (Proc.devRef .tc main_v137) = (mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![0, 0] ((V (Proc.devRef .tc main_arg2) : IVec S4x2000000 32)) slices_S4x2000000_S1x2000000_0_0) shapeCasts_S1x2000000_S2000000)) (Host.gather gather_S500000x10_S2000000x1_S2000000x10_1_0_n_n_0_1_110 ((V (Proc.devRef .tc main_v119) : FVec Ideal S500000x10 .f32)) (broadcastInDim S2000000x1 ![0] bcast_S2000000_S2000000x1_0 (select (cmpi .slt (shapeCast _ (extractStridedSlice S1x2000000 ![0, 0] ((V (Proc.devRef .tc main_arg1) : IVec S4x2000000 32)) slices_S4x2000000_S1x2000000_0_0) shapeCasts_S1x2000000_S2000000) (broadcastInDim S2000000 ![] bcast_S_S2000000 (constantI S_ 32 0#32))) (addi (shapeCast _ (extractStridedSlice S1x2000000 ![0, 0] ((V (Proc.devRef .tc main_arg1) : IVec S4x2000000 32)) slices_S4x2000000_S1x2000000_0_0) shapeCasts_S1x2000000_S2000000) (broadcastInDim S2000000 ![] bcast_S_S2000000 (constantI S_ 32 500000#32))) (shapeCast _ (extractStridedSlice S1x2000000 ![0, 0] ((V (Proc.devRef .tc main_arg1) : IVec S4x2000000 32)) slices_S4x2000000_S1x2000000_0_0) shapeCasts_S1x2000000_S2000000))))) (broadcastInDim S500000x10 ![0, 1] bcast_S500000x1_S500000x10_0_1 (shapeCast _ (extractStridedSlice S1x500000x1 ![0, 0, 0] ((V (Proc.devRef .tc main_v45) : FVec Ideal S4x500000x1 .f32)) slices_S4x500000x1_S1x500000x1_0_0_0) shapeCasts_S1x500000x1_S500000x1)) : FVec Ideal S500000x10 .f32) := by
  simp only [main_part2_ops1]
  after_results_simp
  try rfl

set_option maxHeartbeats 4000000 in
theorem D_v146 (V : Valuation τ sig (Elt Ideal)) :
    after main_part2_ops1 V (Proc.devRef .tc main_v146) = (Host.gather gather_S500000x10_S2000000x1_S2000000x10_1_0_n_n_0_1_110 ((V (Proc.devRef .tc main_v119) : FVec Ideal S500000x10 .f32)) (broadcastInDim S2000000x1 ![0] bcast_S2000000_S2000000x1_0 (select (cmpi .slt (shapeCast _ (extractStridedSlice S1x2000000 ![1, 0] ((V (Proc.devRef .tc main_arg1) : IVec S4x2000000 32)) slices_S4x2000000_S1x2000000_1_0) shapeCasts_S1x2000000_S2000000) (broadcastInDim S2000000 ![] bcast_S_S2000000 (constantI S_ 32 0#32))) (addi (shapeCast _ (extractStridedSlice S1x2000000 ![1, 0] ((V (Proc.devRef .tc main_arg1) : IVec S4x2000000 32)) slices_S4x2000000_S1x2000000_1_0) shapeCasts_S1x2000000_S2000000) (broadcastInDim S2000000 ![] bcast_S_S2000000 (constantI S_ 32 500000#32))) (shapeCast _ (extractStridedSlice S1x2000000 ![1, 0] ((V (Proc.devRef .tc main_arg1) : IVec S4x2000000 32)) slices_S4x2000000_S1x2000000_1_0) shapeCasts_S1x2000000_S2000000))) : FVec Ideal S2000000x10 .f32) := by
  simp only [main_part2_ops1]
  after_results_simp
  try rfl

set_option maxHeartbeats 4000000 in
theorem D_v148 (V : Valuation τ sig (Elt Ideal)) :
    after main_part2_ops1 V (Proc.devRef .tc main_v148) = (shapeCast _ (extractStridedSlice S1x2000000 ![1, 0] ((V (Proc.devRef .tc main_arg2) : IVec S4x2000000 32)) slices_S4x2000000_S1x2000000_1_0) shapeCasts_S1x2000000_S2000000 : IVec S2000000 32) := by
  simp only [main_part2_ops1]
  after_results_simp
  try rfl

set_option maxHeartbeats 4000000 in
theorem D_cst28 (V : Valuation τ sig (Elt Ideal)) :
    after main_part2_ops1 V (Proc.devRef .tc main_cst_28) = (constant (F := Ideal) S_ .f32 0x00000000#32 : FVec Ideal S_ .f32) := by
  simp only [main_part2_ops1]
  after_results_simp
  try rfl

set_option maxHeartbeats 4000000 in
theorem E_v192 (V : Valuation τ sig (Elt Ideal)) :
    after main_part3_ops0 V (Proc.devRef .tc main_v192) = (concatenate S500000x40 1 [⟨S500000x10, (V (Proc.devRef .tc main_v137) : FVec Ideal S500000x10 .f32)⟩, ⟨S500000x10, mulf (Host.scatterAdd scatter_S500000x10_S2000000x1_S2000000x10_1_0_0_1 (broadcastInDim S500000x10 ![] bcast_S_S500000x10 ((V (Proc.devRef .tc main_cst_28) : FVec Ideal S_ .f32))) (broadcastInDim S2000000x1 ![0] bcast_S2000000_S2000000x1_0 ((V (Proc.devRef .tc main_v148) : IVec S2000000 32))) ((V (Proc.devRef .tc main_v146) : FVec Ideal S2000000x10 .f32))) (broadcastInDim S500000x10 ![0, 1] bcast_S500000x1_S500000x10_0_1 (shapeCast _ (extractStridedSlice S1x500000x1 ![1, 0, 0] ((V (Proc.devRef .tc main_v45) : FVec Ideal S4x500000x1 .f32)) slices_S4x500000x1_S1x500000x1_1_0_0) shapeCasts_S1x500000x1_S500000x1))⟩, ⟨S500000x10, mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![2, 0] ((V (Proc.devRef .tc main_arg2) : IVec S4x2000000 32)) slices_S4x2000000_S1x2000000_2_0) shapeCasts_S1x2000000_S2000000)) (Host.gather gather_S500000x10_S2000000x1_S2000000x10_1_0_n_n_0_1_110 ((V (Proc.devRef .tc main_v119) : FVec Ideal S500000x10 .f32)) (broadcastInDim S2000000x1 ![0] bcast_S2000000_S2000000x1_0 (select (cmpi .slt (shapeCast _ (extractStridedSlice S1x2000000 ![2, 0] ((V (Proc.devRef .tc main_arg1) : IVec S4x2000000 32)) slices_S4x2000000_S1x2000000_2_0) shapeCasts_S1x2000000_S2000000) (broadcastInDim S2000000 ![] bcast_S_S2000000 (constantI S_ 32 0#32))) (addi (shapeCast _ (extractStridedSlice S1x2000000 ![2, 0] ((V (Proc.devRef .tc main_arg1) : IVec S4x2000000 32)) slices_S4x2000000_S1x2000000_2_0) shapeCasts_S1x2000000_S2000000) (broadcastInDim S2000000 ![] bcast_S_S2000000 (constantI S_ 32 500000#32))) (shapeCast _ (extractStridedSlice S1x2000000 ![2, 0] ((V (Proc.devRef .tc main_arg1) : IVec S4x2000000 32)) slices_S4x2000000_S1x2000000_2_0) shapeCasts_S1x2000000_S2000000))))) (broadcastInDim S500000x10 ![0, 1] bcast_S500000x1_S500000x10_0_1 (shapeCast _ (extractStridedSlice S1x500000x1 ![2, 0, 0] ((V (Proc.devRef .tc main_v45) : FVec Ideal S4x500000x1 .f32)) slices_S4x500000x1_S1x500000x1_2_0_0) shapeCasts_S1x500000x1_S500000x1))⟩, ⟨S500000x10, mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![3, 0] ((V (Proc.devRef .tc main_arg2) : IVec S4x2000000 32)) slices_S4x2000000_S1x2000000_3_0) shapeCasts_S1x2000000_S2000000)) (Host.gather gather_S500000x10_S2000000x1_S2000000x10_1_0_n_n_0_1_110 ((V (Proc.devRef .tc main_v119) : FVec Ideal S500000x10 .f32)) (broadcastInDim S2000000x1 ![0] bcast_S2000000_S2000000x1_0 (select (cmpi .slt (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 0#32))) (addi (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 500000#32))) (shapeCast _ (extractStridedSlice S1x2000000 ![3, 0] ((V (Proc.devRef .tc main_arg1) : IVec S4x2000000 32)) slices_S4x2000000_S1x2000000_3_0) shapeCasts_S1x2000000_S2000000))))) (broadcastInDim S500000x10 ![0, 1] bcast_S500000x1_S500000x10_0_1 (shapeCast _ (extractStridedSlice S1x500000x1 ![3, 0, 0] ((V (Proc.devRef .tc main_v45) : FVec Ideal S4x500000x1 .f32)) slices_S4x500000x1_S1x500000x1_3_0_0) shapeCasts_S1x500000x1_S500000x1))⟩] concatenates_S500000x10_S500000x10_S500000x10_S500000x10_S500000x40_d1 : FVec Ideal S500000x40 .f32) := by
  simp only [main_part3_ops0, after_cons, after_nil]
  rw [nary4_result]
  generalize h0 : HloOp.result _ _ (Proc.devRef .tc main_v137) = p0
  generalize h1 : HloOp.result _ _ (Proc.devRef .tc main_v155) = p1
  generalize h2 : HloOp.result _ _ (Proc.devRef .tc main_v173) = p2
  generalize h3 : HloOp.result _ _ (Proc.devRef .tc main_v191) = p3
  have e0 : p0 = ((V (Proc.devRef .tc main_v137) : FVec Ideal S500000x10 .f32) : FVec Ideal S500000x10 .f32) := by rw [← h0]; after_results_simp; try rfl
  have e1 : p1 = (mulf (Host.scatterAdd scatter_S500000x10_S2000000x1_S2000000x10_1_0_0_1 (broadcastInDim S500000x10 ![] bcast_S_S500000x10 ((V (Proc.devRef .tc main_cst_28) : FVec Ideal S_ .f32))) (broadcastInDim S2000000x1 ![0] bcast_S2000000_S2000000x1_0 ((V (Proc.devRef .tc main_v148) : IVec S2000000 32))) ((V (Proc.devRef .tc main_v146) : FVec Ideal S2000000x10 .f32))) (broadcastInDim S500000x10 ![0, 1] bcast_S500000x1_S500000x10_0_1 (shapeCast _ (extractStridedSlice S1x500000x1 ![1, 0, 0] ((V (Proc.devRef .tc main_v45) : FVec Ideal S4x500000x1 .f32)) slices_S4x500000x1_S1x500000x1_1_0_0) shapeCasts_S1x500000x1_S500000x1)) : FVec Ideal S500000x10 .f32) := by rw [← h1]; after_results_simp; try rfl
  have e2 : p2 = (mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![2, 0] ((V (Proc.devRef .tc main_arg2) : IVec S4x2000000 32)) slices_S4x2000000_S1x2000000_2_0) shapeCasts_S1x2000000_S2000000)) (Host.gather gather_S500000x10_S2000000x1_S2000000x10_1_0_n_n_0_1_110 ((V (Proc.devRef .tc main_v119) : FVec Ideal S500000x10 .f32)) (broadcastInDim S2000000x1 ![0] bcast_S2000000_S2000000x1_0 (select (cmpi .slt (shapeCast _ (extractStridedSlice S1x2000000 ![2, 0] ((V (Proc.devRef .tc main_arg1) : IVec S4x2000000 32)) slices_S4x2000000_S1x2000000_2_0) shapeCasts_S1x2000000_S2000000) (broadcastInDim S2000000 ![] bcast_S_S2000000 (constantI S_ 32 0#32))) (addi (shapeCast _ (extractStridedSlice S1x2000000 ![2, 0] ((V (Proc.devRef .tc main_arg1) : IVec S4x2000000 32)) slices_S4x2000000_S1x2000000_2_0) shapeCasts_S1x2000000_S2000000) (broadcastInDim S2000000 ![] bcast_S_S2000000 (constantI S_ 32 500000#32))) (shapeCast _ (extractStridedSlice S1x2000000 ![2, 0] ((V (Proc.devRef .tc main_arg1) : IVec S4x2000000 32)) slices_S4x2000000_S1x2000000_2_0) shapeCasts_S1x2000000_S2000000))))) (broadcastInDim S500000x10 ![0, 1] bcast_S500000x1_S500000x10_0_1 (shapeCast _ (extractStridedSlice S1x500000x1 ![2, 0, 0] ((V (Proc.devRef .tc main_v45) : FVec Ideal S4x500000x1 .f32)) slices_S4x500000x1_S1x500000x1_2_0_0) shapeCasts_S1x500000x1_S500000x1)) : FVec Ideal S500000x10 .f32) := by rw [← h2]; after_results_simp; try rfl
  have e3 : p3 = (mulf (Host.scatterAdd scatter_S500000x10_S2000000x1_S2000000x10_1_0_0_1 (broadcastInDim S500000x10 ![] bcast_S_S500000x10 (constant (F := Ideal) S_ .f32 0x00000000#32)) (broadcastInDim S2000000x1 ![0] bcast_S2000000_S2000000x1_0 (shapeCast _ (extractStridedSlice S1x2000000 ![3, 0] ((V (Proc.devRef .tc main_arg2) : IVec S4x2000000 32)) slices_S4x2000000_S1x2000000_3_0) shapeCasts_S1x2000000_S2000000)) (Host.gather gather_S500000x10_S2000000x1_S2000000x10_1_0_n_n_0_1_110 ((V (Proc.devRef .tc main_v119) : FVec Ideal S500000x10 .f32)) (broadcastInDim S2000000x1 ![0] bcast_S2000000_S2000000x1_0 (select (cmpi .slt (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 0#32))) (addi (shapeCast _ (extractStridedSlice S1x2000000 ![3, 0] ((V (Proc.devRef .tc main_arg1) : IVec S4x2000000 32)) slices_S4x2000000_S1x2000000_3_0) shapeCasts_S1x2000000_S2000000) (broadcastInDim S2000000 ![] bcast_S_S2000000 (constantI S_ 32 500000#32))) (shapeCast _ (extractStridedSlice S1x2000000 ![3, 0] ((V (Proc.devRef .tc main_arg1) : IVec S4x2000000 32)) slices_S4x2000000_S1x2000000_3_0) shapeCasts_S1x2000000_S2000000))))) (broadcastInDim S500000x10 ![0, 1] bcast_S500000x1_S500000x10_0_1 (shapeCast _ (extractStridedSlice S1x500000x1 ![3, 0, 0] ((V (Proc.devRef .tc main_v45) : FVec Ideal S4x500000x1 .f32)) slices_S4x500000x1_S1x500000x1_3_0_0) shapeCasts_S1x500000x1_S500000x1)) : FVec Ideal S500000x10 .f32) := by rw [← h3]; after_results_simp; try rfl
  subst e0 e1 e2 e3
  rfl

set_option maxHeartbeats 4000000 in
theorem F_v200 (V : Valuation τ sig (Elt Ideal)) :
    after main_part3_ops1 V (Proc.devRef .tc main_v200) = (select (cmpi .slt (shapeCast _ (extractStridedSlice S1x2000000 ![0, 0] ((V (Proc.devRef .tc main_arg1) : IVec S4x2000000 32)) slices_S4x2000000_S1x2000000_0_0) shapeCasts_S1x2000000_S2000000) (broadcastInDim S2000000 ![] bcast_S_S2000000 (constantI S_ 32 0#32))) (addi (shapeCast _ (extractStridedSlice S1x2000000 ![0, 0] ((V (Proc.devRef .tc main_arg1) : IVec S4x2000000 32)) slices_S4x2000000_S1x2000000_0_0) shapeCasts_S1x2000000_S2000000) (broadcastInDim S2000000 ![] bcast_S_S2000000 (constantI S_ 32 500000#32))) (shapeCast _ (extractStridedSlice S1x2000000 ![0, 0] ((V (Proc.devRef .tc main_arg1) : IVec S4x2000000 32)) slices_S4x2000000_S1x2000000_0_0) shapeCasts_S1x2000000_S2000000) : IVec S2000000 32) := by
  simp only [main_part3_ops1]
  after_results_simp
  try rfl

set_option maxHeartbeats 4000000 in
theorem G_v226 (V : Valuation τ sig (Elt Ideal)) :
    after main_part4_ops0 V (Proc.devRef .tc main_v226) = (concatenate S4000000x10 0 [⟨S2000000x10, (Host.gather gather_S500000x10_S2000000x1_S2000000x10_1_0_n_n_0_1_110 ((V (Proc.devRef .tc main_v193) : FVec Ideal S500000x10 .f32)) (broadcastInDim S2000000x1 ![0] bcast_S2000000_S2000000x1_0 ((V (Proc.devRef .tc main_v200) : IVec S2000000 32))))⟩, ⟨S2000000x10, (Host.gather gather_S500000x10_S2000000x1_S2000000x10_1_0_n_n_0_1_110 ((V (Proc.devRef .tc main_v193) : FVec Ideal S500000x10 .f32)) (broadcastInDim S2000000x1 ![0] bcast_S2000000_S2000000x1_0 (select (cmpi .slt ((V (Proc.devRef .tc main_arg3) : IVec S2000000 32)) (broadcastInDim S2000000 ![] bcast_S_S2000000 (constantI S_ 32 0#32))) (addi ((V (Proc.devRef .tc main_arg3) : IVec S2000000 32)) (broadcastInDim S2000000 ![] bcast_S_S2000000 (constantI S_ 32 500000#32))) ((V (Proc.devRef .tc main_arg3) : IVec S2000000 32)))))⟩] concatenates_S2000000x10_S2000000x10_S4000000x10_d0 : FVec Ideal S4000000x10 .f32) := by
  simp only [main_part4_ops0]
  after_results_simp
  try rfl

set_option maxHeartbeats 4000000 in
theorem G_v227 (V : Valuation τ sig (Elt Ideal)) :
    after main_part4_ops0 V (Proc.devRef .tc main_v227) = (concatenate S4000000x10 0 [⟨S2000000x10, (Host.gather gather_S500000x10_S2000000x1_S2000000x10_1_0_n_n_0_1_110 ((V (Proc.devRef .tc main_v193) : FVec Ideal S500000x10 .f32)) (broadcastInDim S2000000x1 ![0] bcast_S2000000_S2000000x1_0 (select (cmpi .slt (shapeCast _ (extractStridedSlice S1x2000000 ![0, 0] ((V (Proc.devRef .tc main_arg2) : IVec S4x2000000 32)) slices_S4x2000000_S1x2000000_0_0) shapeCasts_S1x2000000_S2000000) (broadcastInDim S2000000 ![] bcast_S_S2000000 (constantI S_ 32 0#32))) (addi (shapeCast _ (extractStridedSlice S1x2000000 ![0, 0] ((V (Proc.devRef .tc main_arg2) : IVec S4x2000000 32)) slices_S4x2000000_S1x2000000_0_0) shapeCasts_S1x2000000_S2000000) (broadcastInDim S2000000 ![] bcast_S_S2000000 (constantI S_ 32 500000#32))) (shapeCast _ (extractStridedSlice S1x2000000 ![0, 0] ((V (Proc.devRef .tc main_arg2) : IVec S4x2000000 32)) slices_S4x2000000_S1x2000000_0_0) shapeCasts_S1x2000000_S2000000))))⟩, ⟨S2000000x10, (Host.gather gather_S500000x10_S2000000x1_S2000000x10_1_0_n_n_0_1_110 ((V (Proc.devRef .tc main_v193) : FVec Ideal S500000x10 .f32)) (broadcastInDim S2000000x1 ![0] bcast_S2000000_S2000000x1_0 (select (cmpi .slt ((V (Proc.devRef .tc main_arg4) : IVec S2000000 32)) (broadcastInDim S2000000 ![] bcast_S_S2000000 (constantI S_ 32 0#32))) (addi ((V (Proc.devRef .tc main_arg4) : IVec S2000000 32)) (broadcastInDim S2000000 ![] bcast_S_S2000000 (constantI S_ 32 500000#32))) ((V (Proc.devRef .tc main_arg4) : IVec S2000000 32)))))⟩] concatenates_S2000000x10_S2000000x10_S4000000x10_d0 : FVec Ideal S4000000x10 .f32) := by
  simp only [main_part4_ops0]
  after_results_simp
  try rfl

set_option maxHeartbeats 4000000 in
theorem G_c43 (V : Valuation τ sig (Elt Ideal)) :
    after main_part4_ops0 V (Proc.devRef .tc main_c_43) = (constantI S_ 32 0#32 : IVec S_ 32) := by
  simp only [main_part4_ops0]
  after_results_simp
  try rfl

set_option maxHeartbeats 4000000 in
theorem H_v228 (V : Valuation τ sig (Elt Ideal)) :
    after main_part4_ops1 V (Proc.devRef .tc main_v228) = (pad S4001792x10 ![0, 0] ![1792, 0] ![0, 0] ((V (Proc.devRef .tc main_v226) : FVec Ideal S4000000x10 .f32)) (sitofp .f32 ((V (Proc.devRef .tc main_c_43) : IVec S_ 32))) pads_S4000000x10_S4001792x10_017920_000 h_S_ : FVec Ideal S4001792x10 .f32) := by
  simp only [main_part4_ops1]
  after_results_simp
  try rfl

set_option maxHeartbeats 4000000 in
theorem I_c44 (V : Valuation τ sig (Elt Ideal)) :
    after main_part4_ops2 V (Proc.devRef .tc main_c_44) = (constantI S_ 32 0#32 : IVec S_ 32) := by
  simp only [main_part4_ops2]
  after_results_simp
  try rfl

set_option maxHeartbeats 4000000 in
theorem J_v229 (V : Valuation τ sig (Elt Ideal)) :
    after main_part4_ops3 V (Proc.devRef .tc main_v229) = (pad S4001792x10 ![0, 0] ![1792, 0] ![0, 0] ((V (Proc.devRef .tc main_v227) : FVec Ideal S4000000x10 .f32)) (sitofp .f32 ((V (Proc.devRef .tc main_c_44) : IVec S_ 32))) pads_S4000000x10_S4001792x10_017920_000 h_S_ : FVec Ideal S4001792x10 .f32) := by
  simp only [main_part4_ops3]
  after_results_simp
  try rfl

set_option maxHeartbeats 4000000 in
theorem K_v232 (V : Valuation τ sig (Elt Ideal)) :
    after main_part4_ops4 V (Proc.devRef .tc main_v232) = (extractStridedSlice S2000000 ![0] (extractStridedSlice S4000000 ![0] ((V (Proc.devRef .tc main_v230) : FVec Ideal S4001792 .f32)) slices_S4001792_S4000000_0) slices_S4000000_S2000000_0 : FVec Ideal S2000000 .f32) := by
  simp only [main_part4_ops4]
  after_results_simp
  try rfl

set_option maxHeartbeats 4000000 in
theorem K_v233 (V : Valuation τ sig (Elt Ideal)) :
    after main_part4_ops4 V (Proc.devRef .tc main_v233) = (extractStridedSlice S2000000 ![2000000] (extractStridedSlice S4000000 ![0] ((V (Proc.devRef .tc main_v230) : FVec Ideal S4001792 .f32)) slices_S4001792_S4000000_0) slices_S4000000_S2000000_2000000 : FVec Ideal S2000000 .f32) := by
  simp only [main_part4_ops4]
  after_results_simp
  try rfl

end Cert.KernelIdeal.Values

end
-- ==== Proof.CombineAtIndex.lean ====
/-
  What the dense-combination body stores, read at one entry of its 5000×10 block: the node formula of the layer over the
  entries of the five input blocks. The eight matrix products are sums over the ten features, the format changes are the
  identity on the extended reals, and the bias rows are spread over the rows unchanged.
-/
import proofs.«163996_j25580825215696_1_alg».proof.Proof.IdealCombine1
import proofs.«163996_j25580825215696_1_alg».proof.Proof.IdealCombine2
import proofs.«163996_j25580825215696_1_alg».proof.Proof.SageSpec
import Idealize.ShloMosaic.Lib.ValueIdx
import Idealize.ShloMosaic.Lib.ValueLayout
import Idealize.ShloMosaic.PureOps.Ideal.Laws

set_option maxRecDepth 16384

noncomputable section

namespace Cert.KernelIdeal.Values

open Idealize.ShloMosaic Idealize.ShloMosaic.ValueIdx
open Cert.KernelIdeal Cert.KernelIdeal.Gen Cert.KernelIdeal.Regions

/-- Column `10 r + k` of the 40 columns holding the four relations' means side by side. -/
def col (r : Fin 4) (k : Fin 10) : Fin 40 := ⟨10 * r.val + k.val, by omega⟩

theorem dot_block (lhs : (⟨2, ![5000, 10]⟩ : Shape).Idx → EReal) (rhs : (⟨2, ![10, 10]⟩ : Shape).Idx → EReal) (p : Fin 5000) (q : Fin 10) :
    (∑ k : Cert.KernelIdeal.dot_S5000x10_S10x10_S5000x10_1_0_0_1_n_n.contr.Idx, lhs (Cert.KernelIdeal.dot_S5000x10_S10x10_S5000x10_1_0_0_1_n_n.lhsIdx (ix2 p q) k) * rhs (Cert.KernelIdeal.dot_S5000x10_S10x10_S5000x10_1_0_0_1_n_n.rhsIdx (ix2 p q) k))
    = ∑ k : Fin 10, lhs (ix2 p k) * rhs (ix2 k q) := by
  rw [← Equiv.sum_comp (contrEquiv1 Cert.KernelIdeal.dot_S5000x10_S10x10_S5000x10_1_0_0_1_n_n 10 rfl rfl).symm]
  refine Finset.sum_congr rfl fun k _ => ?_
  congr 2
  · funext a; match a with
    | ⟨0, _⟩ => rfl
    | ⟨1, _⟩ => exact Fin.ext ((Cert.KernelIdeal.dot_S5000x10_S10x10_S5000x10_1_0_0_1_n_n.lhsIdx_val_of_single (cl := ⟨1, by decide⟩) rfl (ix2 p q) _).trans
        (contrEquiv1_symm_val Cert.KernelIdeal.dot_S5000x10_S10x10_S5000x10_1_0_0_1_n_n 10 rfl rfl k))
  · funext a; match a with
    | ⟨0, _⟩ => exact Fin.ext ((Cert.KernelIdeal.dot_S5000x10_S10x10_S5000x10_1_0_0_1_n_n.rhsIdx_val_of_single (cr := ⟨0, by decide⟩) rfl (ix2 p q) _).trans
        (contrEquiv1_symm_val Cert.KernelIdeal.dot_S5000x10_S10x10_S5000x10_1_0_0_1_n_n 10 rfl rfl k))
    | ⟨1, _⟩ => rfl

/-- A product of a 5000×10 block with the transpose of a 10×10 matrix, into zero: row `p` of the block against row `q`
    of the matrix. -/
theorem mmT (lhs : FVec Ideal S5000x10 .bf16) (w : FVec Ideal S10x10 .bf16) (p : Fin 5000) (q : Fin 10) :
    matmul dot_S5000x10_S10x10_S5000x10_1_0_0_1_n_n none lhs (transpose S10x10 [1, 0] w transposes_S10x10_p1_0_S10x10) (constant S5000x10 .f32 0x00000000#32) (ix2 p q)
      = ∑ k : Fin 10, lhs (ix2 p k) * w (ix2 q k) := by
  refine (Ideal.matmul_constant_zero_apply dot_S5000x10_S10x10_S5000x10_1_0_0_1_n_n none lhs
    (transpose S10x10 [1, 0] w transposes_S10x10_p1_0_S10x10) (ix2 p q)).trans ?_
  rw [dot_block]
  refine Finset.sum_congr rfl fun k _ => ?_
  rw [transpose_ix2_apply]

/-- A bias row cast to a vector and back and spread over the 5000 rows reads the row's entry. -/
theorem biasRow (v : Vec Ideal S1x10 .f32) (p : Fin 5000) (q : Fin 10) :
    broadcastTo S5000x10 (shapeCast S1x10 (shapeCast S10 v shapeCasts_S1x10_S10) shapeCasts_S10_S1x10) broadcasts_S1x10_S5000x10 (ix2 p q)
      = v (ix2 (0 : Fin 1) q) := by
  rw [broadcastTo_1b_ab_apply, shapeCast_a_1a_apply, shapeCast_1a_a_apply]

theorem zero0 : (Scalar.ofBits (F := Ideal) .f32 0x00000000#32) = (0 : EReal) := Ideal.ofBits_zero_f32

/-- The whole-block rectangle places (p, j) at (p, j). -/
theorem idxH0 (p : Fin 5000) (j : Fin 10) : rH0.toLoadRect.idx (ix2 p j) = ix2 p j := by
  funext a
  match a with
  | ⟨0, _⟩ => exact Fin.ext (by show 0 + 1 * p.val = p.val; omega)
  | ⟨1, _⟩ => exact Fin.ext (by show 0 + 1 * j.val = j.val; omega)

/-- Relation 0's band of ten mean columns places (p, j) at column 10·0 + j. -/
theorem idxM0_0 (p : Fin 5000) (j : Fin 10) : rM0_0.toLoadRect.idx (ix2 p j) = ix2 p (col 0 j) := by
  funext a
  match a with
  | ⟨0, _⟩ => exact Fin.ext (by show 0 + 1 * p.val = p.val; omega)
  | ⟨1, _⟩ => exact Fin.ext (by show 0 + 1 * j.val = 10 * 0 + j.val; omega)

/-- Relation 0's weight matrix places (0, i, j) at (0, i, j). -/
theorem idxW0_0 (i j : Fin 10) : rW0_0.toLoadRect.idx (ix3 (0 : Fin 1) i j) = ix3 (0 : Fin 4) i j := by
  funext a
  match a with
  | ⟨0, _⟩ => exact Fin.ext (by show 0 + 1 * 0 = 0; omega)
  | ⟨1, _⟩ => exact Fin.ext (by show 0 + 1 * i.val = i.val; omega)
  | ⟨2, _⟩ => exact Fin.ext (by show 0 + 1 * j.val = j.val; omega)

/-- Relation 0's bias row places (0, j) at (0, j). -/
theorem idxB0_0 (j : Fin 10) : rB0_0.toLoadRect.idx (ix2 (0 : Fin 1) j) = ix2 (0 : Fin 4) j := by
  funext a
  match a with
  | ⟨0, _⟩ => exact Fin.ext (by show 0 + 1 * 0 = 0; omega)
  | ⟨1, _⟩ => exact Fin.ext (by show 0 + 1 * j.val = j.val; omega)

/-- Relation 1's band of ten mean columns places (p, j) at column 10·1 + j. -/
theorem idxM0_1 (p : Fin 5000) (j : Fin 10) : rM0_1.toLoadRect.idx (ix2 p j) = ix2 p (col 1 j) := by
  funext a
  match a with
  | ⟨0, _⟩ => exact Fin.ext (by show 0 + 1 * p.val = p.val; omega)
  | ⟨1, _⟩ => exact Fin.ext (by show 10 + 1 * j.val = 10 * 1 + j.val; omega)

/-- Relation 1's weight matrix places (0, i, j) at (1, i, j). -/
theorem idxW0_1 (i j : Fin 10) : rW0_1.toLoadRect.idx (ix3 (0 : Fin 1) i j) = ix3 (1 : Fin 4) i j := by
  funext a
  match a with
  | ⟨0, _⟩ => exact Fin.ext (by show 1 + 1 * 0 = 1; omega)
  | ⟨1, _⟩ => exact Fin.ext (by show 0 + 1 * i.val = i.val; omega)
  | ⟨2, _⟩ => exact Fin.ext (by show 0 + 1 * j.val = j.val; omega)

/-- Relation 1's bias row places (0, j) at (1, j). -/
theorem idxB0_1 (j : Fin 10) : rB0_1.toLoadRect.idx (ix2 (0 : Fin 1) j) = ix2 (1 : Fin 4) j := by
  funext a
  match a with
  | ⟨0, _⟩ => exact Fin.ext (by show 1 + 1 * 0 = 1; omega)
  | ⟨1, _⟩ => exact Fin.ext (by show 0 + 1 * j.val = j.val; omega)

/-- Relation 2's band of ten mean columns places (p, j) at column 10·2 + j. -/
theorem idxM0_2 (p : Fin 5000) (j : Fin 10) : rM0_2.toLoadRect.idx (ix2 p j) = ix2 p (col 2 j) := by
  funext a
  match a with
  | ⟨0, _⟩ => exact Fin.ext (by show 0 + 1 * p.val = p.val; omega)
  | ⟨1, _⟩ => exact Fin.ext (by show 20 + 1 * j.val = 10 * 2 + j.val; omega)

/-- Relation 2's weight matrix places (0, i, j) at (2, i, j). -/
theorem idxW0_2 (i j : Fin 10) : rW0_2.toLoadRect.idx (ix3 (0 : Fin 1) i j) = ix3 (2 : Fin 4) i j := by
  funext a
  match a with
  | ⟨0, _⟩ => exact Fin.ext (by show 2 + 1 * 0 = 2; omega)
  | ⟨1, _⟩ => exact Fin.ext (by show 0 + 1 * i.val = i.val; omega)
  | ⟨2, _⟩ => exact Fin.ext (by show 0 + 1 * j.val = j.val; omega)

/-- Relation 2's bias row places (0, j) at (2, j). -/
theorem idxB0_2 (j : Fin 10) : rB0_2.toLoadRect.idx (ix2 (0 : Fin 1) j) = ix2 (2 : Fin 4) j := by
  funext a
  match a with
  | ⟨0, _⟩ => exact Fin.ext (by show 2 + 1 * 0 = 2; omega)
  | ⟨1, _⟩ => exact Fin.ext (by show 0 + 1 * j.val = j.val; omega)

/-- Relation 3's band of ten mean columns places (p, j) at column 10·3 + j. -/
theorem idxM0_3 (p : Fin 5000) (j : Fin 10) : rM0_3.toLoadRect.idx (ix2 p j) = ix2 p (col 3 j) := by
  funext a
  match a with
  | ⟨0, _⟩ => exact Fin.ext (by show 0 + 1 * p.val = p.val; omega)
  | ⟨1, _⟩ => exact Fin.ext (by show 30 + 1 * j.val = 10 * 3 + j.val; omega)

/-- Relation 3's weight matrix places (0, i, j) at (3, i, j). -/
theorem idxW0_3 (i j : Fin 10) : rW0_3.toLoadRect.idx (ix3 (0 : Fin 1) i j) = ix3 (3 : Fin 4) i j := by
  funext a
  match a with
  | ⟨0, _⟩ => exact Fin.ext (by show 3 + 1 * 0 = 3; omega)
  | ⟨1, _⟩ => exact Fin.ext (by show 0 + 1 * i.val = i.val; omega)
  | ⟨2, _⟩ => exact Fin.ext (by show 0 + 1 * j.val = j.val; omega)

/-- Relation 3's bias row places (0, j) at (3, j). -/
theorem idxB0_3 (j : Fin 10) : rB0_3.toLoadRect.idx (ix2 (0 : Fin 1) j) = ix2 (3 : Fin 4) j := by
  funext a
  match a with
  | ⟨0, _⟩ => exact Fin.ext (by show 3 + 1 * 0 = 3; omega)
  | ⟨1, _⟩ => exact Fin.ext (by show 0 + 1 * j.val = j.val; omega)

/-- The layer-1 body's stored block at row `p`, feature `q`: the node formula over the five input blocks. -/
theorem out0_5_apply (x0 : Vec Ideal S5000x10 .f32) (x1 : Vec Ideal S5000x40 .f32) (x2 x3 : Vec Ideal S4x10x10 .f32) (x4 : Vec Ideal S4x10 .f32)
    (p : Fin 5000) (q : Fin 10) :
    out0_5 x0 x1 x2 x3 x4 (ix2 p q)
      = Cert.Sage.nodeOut (fun k => x0 (ix2 p k)) (fun r k => x1 (ix2 p (col r k))) (fun r k => x2 (ix3 r q k)) (fun r k => x3 (ix3 r q k)) (fun r => x4 (ix2 r q)) := by
  unfold out0_5
  rw [View.canon_unit_zero (by funext a; match a with | ⟨0, _⟩ => rfl | ⟨1, _⟩ => rfl)]
  simp only [k0_pay1, k0_pay2, k0_pay3, k0_pay4, k0_pay5, k0_pay6, k0_pay7, k0_pay8, k0_pay9, addf_apply]
  repeat rw [mmT]
  repeat rw [biasRow]
  simp only [truncf_apply]
  repeat rw [shapeCast_self]
  simp only [shapeCast_1ab_ab_apply, View.ld, idxH0, idxM0_0, idxW0_0, idxB0_0, idxM0_1, idxW0_1, idxB0_1, idxM0_2, idxW0_2, idxB0_2, idxM0_3, idxW0_3, idxB0_3]
  simp only [Cert.Sage.nodeOut, Cert.Sage.relStep, broadcast_apply, zero0, zero_add]

/-- The whole-block rectangle places (p, j) at (p, j). -/
theorem idxH1 (p : Fin 5000) (j : Fin 10) : rH1.toLoadRect.idx (ix2 p j) = ix2 p j := by
  funext a
  match a with
  | ⟨0, _⟩ => exact Fin.ext (by show 0 + 1 * p.val = p.val; omega)
  | ⟨1, _⟩ => exact Fin.ext (by show 0 + 1 * j.val = j.val; omega)

/-- Relation 0's band of ten mean columns places (p, j) at column 10·0 + j. -/
theorem idxM1_0 (p : Fin 5000) (j : Fin 10) : rM1_0.toLoadRect.idx (ix2 p j) = ix2 p (col 0 j) := by
  funext a
  match a with
  | ⟨0, _⟩ => exact Fin.ext (by show 0 + 1 * p.val = p.val; omega)
  | ⟨1, _⟩ => exact Fin.ext (by show 0 + 1 * j.val = 10 * 0 + j.val; omega)

/-- Relation 0's weight matrix places (0, i, j) at (0, i, j). -/
theorem idxW1_0 (i j : Fin 10) : rW1_0.toLoadRect.idx (ix3 (0 : Fin 1) i j) = ix3 (0 : Fin 4) i j := by
  funext a
  match a with
  | ⟨0, _⟩ => exact Fin.ext (by show 0 + 1 * 0 = 0; omega)
  | ⟨1, _⟩ => exact Fin.ext (by show 0 + 1 * i.val = i.val; omega)
  | ⟨2, _⟩ => exact Fin.ext (by show 0 + 1 * j.val = j.val; omega)

/-- Relation 0's bias row places (0, j) at (0, j). -/
theorem idxB1_0 (j : Fin 10) : rB1_0.toLoadRect.idx (ix2 (0 : Fin 1) j) = ix2 (0 : Fin 4) j := by
  funext a
  match a with
  | ⟨0, _⟩ => exact Fin.ext (by show 0 + 1 * 0 = 0; omega)
  | ⟨1, _⟩ => exact Fin.ext (by show 0 + 1 * j.val = j.val; omega)

/-- Relation 1's band of ten mean columns places (p, j) at column 10·1 + j. -/
theorem idxM1_1 (p : Fin 5000) (j : Fin 10) : rM1_1.toLoadRect.idx (ix2 p j) = ix2 p (col 1 j) := by
  funext a
  match a with
  | ⟨0, _⟩ => exact Fin.ext (by show 0 + 1 * p.val = p.val; omega)
  | ⟨1, _⟩ => exact Fin.ext (by show 10 + 1 * j.val = 10 * 1 + j.val; omega)

/-- Relation 1's weight matrix places (0, i, j) at (1, i, j). -/
theorem idxW1_1 (i j : Fin 10) : rW1_1.toLoadRect.idx (ix3 (0 : Fin 1) i j) = ix3 (1 : Fin 4) i j := by
  funext a
  match a with
  | ⟨0, _⟩ => exact Fin.ext (by show 1 + 1 * 0 = 1; omega)
  | ⟨1, _⟩ => exact Fin.ext (by show 0 + 1 * i.val = i.val; omega)
  | ⟨2, _⟩ => exact Fin.ext (by show 0 + 1 * j.val = j.val; omega)

/-- Relation 1's bias row places (0, j) at (1, j). -/
theorem idxB1_1 (j : Fin 10) : rB1_1.toLoadRect.idx (ix2 (0 : Fin 1) j) = ix2 (1 : Fin 4) j := by
  funext a
  match a with
  | ⟨0, _⟩ => exact Fin.ext (by show 1 + 1 * 0 = 1; omega)
  | ⟨1, _⟩ => exact Fin.ext (by show 0 + 1 * j.val = j.val; omega)

/-- Relation 2's band of ten mean columns places (p, j) at column 10·2 + j. -/
theorem idxM1_2 (p : Fin 5000) (j : Fin 10) : rM1_2.toLoadRect.idx (ix2 p j) = ix2 p (col 2 j) := by
  funext a
  match a with
  | ⟨0, _⟩ => exact Fin.ext (by show 0 + 1 * p.val = p.val; omega)
  | ⟨1, _⟩ => exact Fin.ext (by show 20 + 1 * j.val = 10 * 2 + j.val; omega)

/-- Relation 2's weight matrix places (0, i, j) at (2, i, j). -/
theorem idxW1_2 (i j : Fin 10) : rW1_2.toLoadRect.idx (ix3 (0 : Fin 1) i j) = ix3 (2 : Fin 4) i j := by
  funext a
  match a with
  | ⟨0, _⟩ => exact Fin.ext (by show 2 + 1 * 0 = 2; omega)
  | ⟨1, _⟩ => exact Fin.ext (by show 0 + 1 * i.val = i.val; omega)
  | ⟨2, _⟩ => exact Fin.ext (by show 0 + 1 * j.val = j.val; omega)

/-- Relation 2's bias row places (0, j) at (2, j). -/
theorem idxB1_2 (j : Fin 10) : rB1_2.toLoadRect.idx (ix2 (0 : Fin 1) j) = ix2 (2 : Fin 4) j := by
  funext a
  match a with
  | ⟨0, _⟩ => exact Fin.ext (by show 2 + 1 * 0 = 2; omega)
  | ⟨1, _⟩ => exact Fin.ext (by show 0 + 1 * j.val = j.val; omega)

/-- Relation 3's band of ten mean columns places (p, j) at column 10·3 + j. -/
theorem idxM1_3 (p : Fin 5000) (j : Fin 10) : rM1_3.toLoadRect.idx (ix2 p j) = ix2 p (col 3 j) := by
  funext a
  match a with
  | ⟨0, _⟩ => exact Fin.ext (by show 0 + 1 * p.val = p.val; omega)
  | ⟨1, _⟩ => exact Fin.ext (by show 30 + 1 * j.val = 10 * 3 + j.val; omega)

/-- Relation 3's weight matrix places (0, i, j) at (3, i, j). -/
theorem idxW1_3 (i j : Fin 10) : rW1_3.toLoadRect.idx (ix3 (0 : Fin 1) i j) = ix3 (3 : Fin 4) i j := by
  funext a
  match a with
  | ⟨0, _⟩ => exact Fin.ext (by show 3 + 1 * 0 = 3; omega)
  | ⟨1, _⟩ => exact Fin.ext (by show 0 + 1 * i.val = i.val; omega)
  | ⟨2, _⟩ => exact Fin.ext (by show 0 + 1 * j.val = j.val; omega)

/-- Relation 3's bias row places (0, j) at (3, j). -/
theorem idxB1_3 (j : Fin 10) : rB1_3.toLoadRect.idx (ix2 (0 : Fin 1) j) = ix2 (3 : Fin 4) j := by
  funext a
  match a with
  | ⟨0, _⟩ => exact Fin.ext (by show 3 + 1 * 0 = 3; omega)
  | ⟨1, _⟩ => exact Fin.ext (by show 0 + 1 * j.val = j.val; omega)

/-- The layer-2 body's stored block at row `p`, feature `q`: the node formula over the five input blocks. -/
theorem out1_5_apply (x0 : Vec Ideal S5000x10 .f32) (x1 : Vec Ideal S5000x40 .f32) (x2 x3 : Vec Ideal S4x10x10 .f32) (x4 : Vec Ideal S4x10 .f32)
    (p : Fin 5000) (q : Fin 10) :
    out1_5 x0 x1 x2 x3 x4 (ix2 p q)
      = Cert.Sage.nodeOut (fun k => x0 (ix2 p k)) (fun r k => x1 (ix2 p (col r k))) (fun r k => x2 (ix3 r q k)) (fun r k => x3 (ix3 r q k)) (fun r => x4 (ix2 r q)) := by
  unfold out1_5
  rw [View.canon_unit_zero (by funext a; match a with | ⟨0, _⟩ => rfl | ⟨1, _⟩ => rfl)]
  simp only [k1_pay1, k1_pay2, k1_pay3, k1_pay4, k1_pay5, k1_pay6, k1_pay7, k1_pay8, k1_pay9, k1_pay10, addf_apply]
  repeat rw [mmT]
  repeat rw [biasRow]
  simp only [truncf_apply]
  repeat rw [shapeCast_self]
  simp only [shapeCast_1ab_ab_apply, View.ld, idxH1, idxM1_0, idxW1_0, idxB1_0, idxM1_1, idxW1_1, idxB1_1, idxM1_2, idxW1_2, idxB1_2, idxM1_3, idxW1_3, idxB1_3]
  simp only [Cert.Sage.nodeOut, Cert.Sage.relStep, broadcast_apply, zero0, zero_add]

end Cert.KernelIdeal.Values

end
-- ==== Proof.CombineArray.lean ====
/-
  From blocks to arrays for the two dense-combination regions. Grid point t of a hundred reads rows 5000·t … 5000·t + 4999
  of the features and of the means and the whole of the weights and biases, and writes the same rows of the output; so what
  it writes back is block t of one function of the whole arrays, and the hundred blocks cover the output array.
-/
import proofs.«163996_j25580825215696_1_alg».proof.Proof.IdealCombine1
import proofs.«163996_j25580825215696_1_alg».proof.Proof.IdealCombine2
import proofs.«163996_j25580825215696_1_alg».proof.Proof.SageSpec
import proofs.«163996_j25580825215696_1_alg».proof.Proof.CombineAtIndex
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Values

open Idealize.ShloMosaic Idealize.ShloMosaic.ValueIdx Idealize.ShloMosaic.TcCoe
open Idealize.ShloMosaic.Pipeline (Dat)
open Cert.KernelIdeal Cert.KernelIdeal.Gen Cert.KernelIdeal.Regions

/-- A layer's output at node `n`, feature `j`, from whole arrays: the features, the four relations' means side by side in
    40 columns, the two stacks of weight matrices and the bias rows. -/
def layerAt (h : S500000x10.Idx → EReal) (mc : S500000x40.Idx → EReal) (ws wn : S4x10x10.Idx → EReal) (b : S4x10.Idx → EReal)
    (n : Fin 500000) (j : Fin 10) : EReal :=
  Cert.Sage.nodeOut (fun k => h (ix2 n k)) (fun r k => mc (ix2 n (col r k))) (fun r k => ws (ix3 r j k)) (fun r k => wn (ix3 r j k)) (fun r => b (ix2 r j))

/-- The same as an array over all nodes. -/
def layerK (h : S500000x10.Idx → EReal) (mc : S500000x40.Idx → EReal) (ws wn : S4x10x10.Idx → EReal) (b : S4x10.Idx → EReal) :
    S500000x10.Idx → EReal := fun i => layerAt h mc ws wn b (i 0) (i 1)

section
variable (V : (c : Dev nD) → (b : Ref sig .tc) → Buf (Elt Ideal) ((c : Thread nD τ).loc b))

/-- The printed index maps over the grid: point `t` takes block `t` of the node axis of the features, the means and
    the output, and the whole of the weights and biases. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's array over the arrays the region is entered with. -/
theorem flushed0_eq (c : Dev nD) (t : Fin cfg0.N) :
    (dat0 V c).flushed 5 t = ((cfg0.win 5).blk t).view.read (Elt Ideal)
      (layerK (V c main_arg0) (V c main_v118) (V c main_arg5) (V c main_arg6) (V c main_arg7)) := by
  show (cfg0.win 5).cut (grid0.coords t) ((dat0 V c).after 5 t) = _
  rw [after0_5]
  obtain ⟨e00, e01, e10, e11, e20, e21, e22, e30, e31, e32, e40, e41, e50, e51⟩ := idx_facts0 t
  have ht : t.val < 100 := t.isLt
  funext j
  obtain ⟨p, q, rfl⟩ : ∃ (p : Fin 5000) (q : Fin 10), j = ix2 p q := ⟨j 0, j 1, eq_ix2 j⟩
  show out0_5 (iblk0 V c 0 t) (iblk0 V c 1 t) (iblk0 V c 2 t) (iblk0 V c 3 t) (iblk0 V c 4 t) (ix2 p q) = _
  rw [out0_5_apply]
  have hp : p.val < 5000 := p.isLt
  let N : Fin 500000 := ⟨t.val * 5000 + p.val, by omega⟩
  have hN : ((cfg0.win 5).blk t).view.emb (ix2 p q) = ix2 N q := by
    funext a; apply Fin.ext
    match a with
    | ⟨0, _⟩ => show win0_5.index t (0 : Fin 2) * 5000 + 1 * p.val = t.val * 5000 + p.val; omega
    | ⟨1, _⟩ => show win0_5.index t (1 : Fin 2) * 10 + 1 * q.val = q.val; omega
  have r0 : ∀ k : Fin 10, iblk0 V c 0 t (ix2 p k) = V c main_arg0 (ix2 N k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 10 + 1 * k.val = k.val; omega
  have r1 : ∀ (r : Fin 4) (k : Fin 10), iblk0 V c 1 t (ix2 p (col r k)) = V c main_v118 (ix2 N (col r k)) := fun r k => by
    show V c main_v118 (((cfg0.win 1).blk t).view.emb (ix2 p (col r k))) = _
    refine congrArg (V c main_v118) (funext fun a => Fin.ext ?_)
    match a with
    | ⟨0, _⟩ => show win0_1.index t (0 : Fin 2) * 5000 + 1 * p.val = t.val * 5000 + p.val; omega
    | ⟨1, _⟩ => show win0_1.index t (1 : Fin 2) * 40 + 1 * (col r k).val = (col r k).val; omega
  have r2 : ∀ (r : Fin 4) (k : Fin 10), iblk0 V c 2 t (ix3 r q k) = V c main_arg5 (ix3 r q k) := fun r k => by
    show V c main_arg5 (((cfg0.win 2).blk t).view.emb (ix3 r q k)) = _
    refine congrArg (V c main_arg5) (funext fun a => Fin.ext ?_)
    match a with
    | ⟨0, _⟩ => show win0_2.index t (0 : Fin 3) * 4 + 1 * r.val = r.val; omega
    | ⟨1, _⟩ => show win0_2.index t (1 : Fin 3) * 10 + 1 * q.val = q.val; omega
    | ⟨2, _⟩ => show win0_2.index t (2 : Fin 3) * 10 + 1 * k.val = k.val; omega
  have r3 : ∀ (r : Fin 4) (k : Fin 10), iblk0 V c 3 t (ix3 r q k) = V c main_arg6 (ix3 r q k) := fun r k => by
    show V c main_arg6 (((cfg0.win 3).blk t).view.emb (ix3 r q k)) = _
    refine congrArg (V c main_arg6) (funext fun a => Fin.ext ?_)
    match a with
    | ⟨0, _⟩ => show win0_3.index t (0 : Fin 3) * 4 + 1 * r.val = r.val; omega
    | ⟨1, _⟩ => show win0_3.index t (1 : Fin 3) * 10 + 1 * q.val = q.val; omega
    | ⟨2, _⟩ => show win0_3.index t (2 : Fin 3) * 10 + 1 * k.val = k.val; omega
  have r4 : ∀ r : Fin 4, iblk0 V c 4 t (ix2 r q) = V c main_arg7 (ix2 r q) := fun r => by
    show V c main_arg7 (((cfg0.win 4).blk t).view.emb (ix2 r q)) = _
    refine congrArg (V c main_arg7) (funext fun a => Fin.ext ?_)
    match a with
    | ⟨0, _⟩ => show win0_4.index t (0 : Fin 2) * 4 + 1 * r.val = r.val; omega
    | ⟨1, _⟩ => show win0_4.index t (1 : Fin 2) * 10 + 1 * q.val = q.val; omega
  simp only [r0, r1, r2, r3, r4]
  rw [View.read_apply, hN]
  rfl

end

section
variable (V : (c : Dev nD) → (b : Ref sig .tc) → Buf (Elt Ideal) ((c : Thread nD τ).loc b))

/-- An entry of the output array is in point `t`'s block iff each coordinate is in the block's range on its axis. -/
theorem mem_blk0 (t : Fin cfg0.N) (i : S500000x10.Idx) :
    i ∈ ((cfg0.win 5).blk t).view.set ↔ ∀ a : Fin 2, win0_5.index t a * S5000x10.size a ≤ (i a).val ∧ (i a).val < win0_5.index t a * S5000x10.size a + S5000x10.size a := by
  show i ∈ ((View.whole main_v119).slice (win0_5.rect t)).set ↔ _
  rw [View.set_slice_whole, Rect.mem_set_unit]
  exact Iff.rfl

/-- The hundred blocks of 5000 rows cover the array: row `n` is in block `n / 5000`. -/
theorem cover0 (i : S500000x10.Idx) : ∃ t : Fin cfg0.N, (cfg0.win 5).flush t = true ∧ i ∈ ((cfg0.win 5).blk t).view.set := by
  have hi0 : (i 0).val < 500000 := (i 0).isLt
  have hi1 : (i 1).val < 10 := (i 1).isLt
  let t : Fin cfg0.N := ⟨(i 0).val / 5000, by show _ < 100; omega⟩
  obtain ⟨e00, e01, e10, e11, e20, e21, e22, e30, e31, e32, e40, e41, e50, e51⟩ := idx_facts0 t
  have htv : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 10 ≤ (i 1).val ∧ (i 1).val < win0_5.index t (1 : Fin 2) * 10 + 10; omega

/-- The output array after the region: the layer's array over the arrays the region is entered with. -/
theorem final0 (c : Dev nD) : (dat0 V c).arrAt 5 cfg0.N
    = layerK (V c main_arg0) (V c main_v118) (V c main_arg5) (V c main_arg6) (V c main_arg7) :=
  (dat0 V c).arrAt_eq_of_cover 5 _ (fun t _ => flushed0_eq V c t) (cover0)

end

section
variable (V : (c : Dev nD) → (b : Ref sig .tc) → Buf (Elt Ideal) ((c : Thread nD τ).loc b))

/-- The printed index maps over the grid: point `t` takes block `t` of the node axis of the features, the means and
    the output, and the whole of the weights and biases. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's array over the arrays the region is entered with. -/
theorem flushed1_eq (c : Dev nD) (t : Fin cfg1.N) :
    (dat1 V c).flushed 5 t = ((cfg1.win 5).blk t).view.read (Elt Ideal)
      (layerK (V c main_v119) (V c main_v192) (V c main_arg8) (V c main_arg9) (V c main_arg10)) := by
  show (cfg1.win 5).cut (grid1.coords t) ((dat1 V c).after 5 t) = _
  rw [after1_5]
  obtain ⟨e00, e01, e10, e11, e20, e21, e22, e30, e31, e32, e40, e41, e50, e51⟩ := idx_facts1 t
  have ht : t.val < 100 := t.isLt
  funext j
  obtain ⟨p, q, rfl⟩ : ∃ (p : Fin 5000) (q : Fin 10), j = ix2 p q := ⟨j 0, j 1, eq_ix2 j⟩
  show out1_5 (iblk1 V c 0 t) (iblk1 V c 1 t) (iblk1 V c 2 t) (iblk1 V c 3 t) (iblk1 V c 4 t) (ix2 p q) = _
  rw [out1_5_apply]
  have hp : p.val < 5000 := p.isLt
  let N : Fin 500000 := ⟨t.val * 5000 + p.val, by omega⟩
  have hN : ((cfg1.win 5).blk t).view.emb (ix2 p q) = ix2 N q := by
    funext a; apply Fin.ext
    match a with
    | ⟨0, _⟩ => show win1_5.index t (0 : Fin 2) * 5000 + 1 * p.val = t.val * 5000 + p.val; omega
    | ⟨1, _⟩ => show win1_5.index t (1 : Fin 2) * 10 + 1 * q.val = q.val; omega
  have r0 : ∀ k : Fin 10, iblk1 V c 0 t (ix2 p k) = V c main_v119 (ix2 N k) := fun k => by
    show V c main_v119 (((cfg1.win 0).blk t).view.emb (ix2 p k)) = _
    refine congrArg (V c main_v119) (funext fun a => Fin.ext ?_)
    match a with
    | ⟨0, _⟩ => show win1_0.index t (0 : Fin 2) * 5000 + 1 * p.val = t.val * 5000 + p.val; omega
    | ⟨1, _⟩ => show win1_0.index t (1 : Fin 2) * 10 + 1 * k.val = k.val; omega
  have r1 : ∀ (r : Fin 4) (k : Fin 10), iblk1 V c 1 t (ix2 p (col r k)) = V c main_v192 (ix2 N (col r k)) := fun r k => by
    show V c main_v192 (((cfg1.win 1).blk t).view.emb (ix2 p (col r k))) = _
    refine congrArg (V c main_v192) (funext fun a => Fin.ext ?_)
    match a with
    | ⟨0, _⟩ => show win1_1.index t (0 : Fin 2) * 5000 + 1 * p.val = t.val * 5000 + p.val; omega
    | ⟨1, _⟩ => show win1_1.index t (1 : Fin 2) * 40 + 1 * (col r k).val = (col r k).val; omega
  have r2 : ∀ (r : Fin 4) (k : Fin 10), iblk1 V c 2 t (ix3 r q k) = V c main_arg8 (ix3 r q k) := fun r k => by
    show V c main_arg8 (((cfg1.win 2).blk t).view.emb (ix3 r q k)) = _
    refine congrArg (V c main_arg8) (funext fun a => Fin.ext ?_)
    match a with
    | ⟨0, _⟩ => show win1_2.index t (0 : Fin 3) * 4 + 1 * r.val = r.val; omega
    | ⟨1, _⟩ => show win1_2.index t (1 : Fin 3) * 10 + 1 * q.val = q.val; omega
    | ⟨2, _⟩ => show win1_2.index t (2 : Fin 3) * 10 + 1 * k.val = k.val; omega
  have r3 : ∀ (r : Fin 4) (k : Fin 10), iblk1 V c 3 t (ix3 r q k) = V c main_arg9 (ix3 r q k) := fun r k => by
    show V c main_arg9 (((cfg1.win 3).blk t).view.emb (ix3 r q k)) = _
    refine congrArg (V c main_arg9) (funext fun a => Fin.ext ?_)
    match a with
    | ⟨0, _⟩ => show win1_3.index t (0 : Fin 3) * 4 + 1 * r.val = r.val; omega
    | ⟨1, _⟩ => show win1_3.index t (1 : Fin 3) * 10 + 1 * q.val = q.val; omega
    | ⟨2, _⟩ => show win1_3.index t (2 : Fin 3) * 10 + 1 * k.val = k.val; omega
  have r4 : ∀ r : Fin 4, iblk1 V c 4 t (ix2 r q) = V c main_arg10 (ix2 r q) := fun r => by
    show V c main_arg10 (((cfg1.win 4).blk t).view.emb (ix2 r q)) = _
    refine congrArg (V c main_arg10) (funext fun a => Fin.ext ?_)
    match a with
    | ⟨0, _⟩ => show win1_4.index t (0 : Fin 2) * 4 + 1 * r.val = r.val; omega
    | ⟨1, _⟩ => show win1_4.index t (1 : Fin 2) * 10 + 1 * q.val = q.val; omega
  simp only [r0, r1, r2, r3, r4]
  rw [View.read_apply, hN]
  rfl

end

section
variable (V : (c : Dev nD) → (b : Ref sig .tc) → Buf (Elt Ideal) ((c : Thread nD τ).loc b))

/-- An entry of the output array is in point `t`'s block iff each coordinate is in the block's range on its axis. -/
theorem mem_blk1 (t : Fin cfg1.N) (i : S500000x10.Idx) :
    i ∈ ((cfg1.win 5).blk t).view.set ↔ ∀ a : Fin 2, win1_5.index t a * S5000x10.size a ≤ (i a).val ∧ (i a).val < win1_5.index t a * S5000x10.size a + S5000x10.size a := by
  show i ∈ ((View.whole main_v193).slice (win1_5.rect t)).set ↔ _
  rw [View.set_slice_whole, Rect.mem_set_unit]
  exact Iff.rfl

/-- The hundred blocks of 5000 rows cover the array: row `n` is in block `n / 5000`. -/
theorem cover1 (i : S500000x10.Idx) : ∃ t : Fin cfg1.N, (cfg1.win 5).flush t = true ∧ i ∈ ((cfg1.win 5).blk t).view.set := by
  have hi0 : (i 0).val < 500000 := (i 0).isLt
  have hi1 : (i 1).val < 10 := (i 1).isLt
  let t : Fin cfg1.N := ⟨(i 0).val / 5000, by show _ < 100; omega⟩
  obtain ⟨e00, e01, e10, e11, e20, e21, e22, e30, e31, e32, e40, e41, e50, e51⟩ := idx_facts1 t
  have htv : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 10 ≤ (i 1).val ∧ (i 1).val < win1_5.index t (1 : Fin 2) * 10 + 10; omega

/-- The output array after the region: the layer's array over the arrays the region is entered with. -/
theorem final1 (c : Dev nD) : (dat1 V c).arrAt 5 cfg1.N
    = layerK (V c main_v119) (V c main_v192) (V c main_arg8) (V c main_arg9) (V c main_arg10) :=
  (dat1 V c).arrAt_eq_of_cover 5 _ (fun t _ => flushed1_eq V c t) (cover1)

end

end Cert.KernelIdeal.Values

end
-- ==== Proof.ScoreArray.lean ====
/-
  The edge-score region's value. Grid point t of 977 reads rows 4096·t … 4096·t + 4095 of the two arrays of gathered
  end-point features and writes the same entries of the score vector: each the sum over the ten features of the products.
-/
import proofs.«163996_j25580825215696_1_alg».proof.Proof.IdealScore
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Values

open Idealize.ShloMosaic Idealize.ShloMosaic.ValueIdx Idealize.ShloMosaic.TcCoe
open Idealize.ShloMosaic.Pipeline (Dat)
open Cert.KernelIdeal Cert.KernelIdeal.Gen Cert.KernelIdeal.Regions

/-- A lane sum of a 4096×10 block: entry `e` is the sum over the ten columns of row `e`. -/
theorem rowSum (v : FVec Ideal S4096x10 .f32) (e : Fin 4096) :
    multiReduction .add [1] S4096 v 0x00000000#32 reduces_S4096x10_S4096 (.inl rfl) rfl (ix1 e) = ∑ k : Fin 10, v (ix2 e k) := by
  refine (Ideal.multiReduction_add_single v 0x00000000#32 reduces_S4096x10_S4096 (.inl rfl) rfl (ix1 e)).trans ?_
  refine Finset.sum_congr rfl fun k _ => congrArg v ?_
  funext a
  match a with
  | ⟨0, _⟩ => rfl
  | ⟨1, _⟩ => rfl

theorem idxE2 (e : Fin 4096) (k : Fin 10) : rE2.toLoadRect.idx (ix2 e k) = ix2 e k := by
  funext a
  match a with
  | ⟨0, _⟩ => exact Fin.ext (by show 0 + 1 * e.val = e.val; omega)
  | ⟨1, _⟩ => exact Fin.ext (by show 0 + 1 * k.val = k.val; omega)

/-- The score body's stored block at entry `e`: the sum over the features of the products of the two rows. -/
theorem out2_2_apply (x0 x1 : Vec Ideal S4096x10 .f32) (e : Fin 4096) :
    out2_2 x0 x1 (ix1 e) = ∑ k : Fin 10, x0 (ix2 e k) * x1 (ix2 e k) := by
  unfold out2_2
  rw [View.canon_unit_zero (by funext a; match a with | ⟨0, _⟩ => rfl)]
  simp only [k2_pay1]
  rw [rowSum]
  repeat rw [shapeCast_self]
  simp only [mulf_apply, View.ld, idxE2]

/-- The scores of all rows of two feature arrays. -/
def scoreK (a b : S4001792x10.Idx → EReal) : S4001792.Idx → EReal := fun i => ∑ k : Fin 10, a (ix2 (i 0) k) * b (ix2 (i 0) k)

section
variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = t.val :=
  (by decide +kernel : ∀ t : Fin grid2.N, _)

/-- What point `t` writes back is block `t` of the score vector of the two arrays the region is entered with. -/
theorem flushed2_eq (c : Dev nD) (t : Fin cfg2.N) :
    (dat2 V c).flushed 2 t = ((cfg2.win 2).blk t).view.read (Elt Ideal) (scoreK (V c main_v228) (V c main_v229)) := by
  show (cfg2.win 2).cut (grid2.coords t) ((dat2 V c).after 2 t) = _
  rw [after2_2]
  obtain ⟨e00, e01, e10, e11, e20⟩ := idx_facts2 t
  have ht : t.val < 977 := t.isLt
  funext j
  obtain ⟨e, rfl⟩ : ∃ e : Fin 4096, j = ix1 e := ⟨j 0, eq_ix1 j⟩
  show out2_2 (iblk2 V c 0 t) (iblk2 V c 1 t) (ix1 e) = _
  rw [out2_2_apply]
  have he : e.val < 4096 := e.isLt
  let N : Fin 4001792 := ⟨t.val * 4096 + e.val, by omega⟩
  have hN : ((cfg2.win 2).blk t).view.emb (ix1 e) = ix1 N := by
    funext a; apply Fin.ext
    match a with
    | ⟨0, _⟩ => show win2_2.index t (0 : Fin 1) * 4096 + 1 * e.val = t.val * 4096 + e.val; omega
  have r0 : ∀ k : Fin 10, iblk2 V c 0 t (ix2 e k) = V c main_v228 (ix2 N k) := fun k => by
    show V c main_v228 (((cfg2.win 0).blk t).view.emb (ix2 e k)) = _
    refine congrArg (V c main_v228) (funext fun a => Fin.ext ?_)
    match a with
    | ⟨0, _⟩ => show win2_0.index t (0 : Fin 2) * 4096 + 1 * e.val = t.val * 4096 + e.val; omega
    | ⟨1, _⟩ => show win2_0.index t (1 : Fin 2) * 10 + 1 * k.val = k.val; omega
  have r1 : ∀ k : Fin 10, iblk2 V c 1 t (ix2 e k) = V c main_v229 (ix2 N k) := fun k => by
    show V c main_v229 (((cfg2.win 1).blk t).view.emb (ix2 e k)) = _
    refine congrArg (V c main_v229) (funext fun a => Fin.ext ?_)
    match a with
    | ⟨0, _⟩ => show win2_1.index t (0 : Fin 2) * 4096 + 1 * e.val = t.val * 4096 + e.val; omega
    | ⟨1, _⟩ => show win2_1.index t (1 : Fin 2) * 10 + 1 * k.val = k.val; omega
  simp only [r0, r1]
  rw [View.read_apply, hN]
  rfl

theorem mem_blk2 (t : Fin cfg2.N) (i : S4001792.Idx) :
    i ∈ ((cfg2.win 2).blk t).view.set ↔ ∀ a : Fin 1, win2_2.index t a * S4096.size a ≤ (i a).val ∧ (i a).val < win2_2.index t a * S4096.size a + S4096.size a := by
  show i ∈ ((View.whole main_v230).slice (win2_2.rect t)).set ↔ _
  rw [View.set_slice_whole, Rect.mem_set_unit]
  exact Iff.rfl

/-- The 977 blocks of 4096 entries cover the vector: entry `n` is in block `n / 4096`. -/
theorem cover2 (i : S4001792.Idx) : ∃ t : Fin cfg2.N, (cfg2.win 2).flush t = true ∧ i ∈ ((cfg2.win 2).blk t).view.set := by
  have hi0 : (i 0).val < 4001792 := (i 0).isLt
  let t : Fin cfg2.N := ⟨(i 0).val / 4096, by show _ < 977; omega⟩
  obtain ⟨e00, e01, e10, e11, e20⟩ := idx_facts2 t
  have htv : t.val = (i 0).val / 4096 := rfl
  refine ⟨t, flush2_2 t, ?_⟩
  rw [mem_blk2]
  intro a
  match a with
  | ⟨0, _⟩ => show win2_2.index t (0 : Fin 1) * 4096 ≤ (i 0).val ∧ (i 0).val < win2_2.index t (0 : Fin 1) * 4096 + 4096; omega

/-- The score vector after the region. -/
theorem final2 (c : Dev nD) : (dat2 V c).arrAt 2 cfg2.N = scoreK (V c main_v228) (V c main_v229) :=
  (dat2 V c).arrAt_eq_of_cover 2 _ (fun t _ => flushed2_eq V c t) (cover2)

end

end Cert.KernelIdeal.Values

end
-- ==== Proof.KernelValue.lean ====
/-
  The kernel program's buffers at the boundaries between its items, walked back to the arguments: a host stretch either
  writes a buffer, and then it holds the stretch's operations of what the stretch found, or leaves it; a region writes its
  one output array, the layer or the scores of the arrays it was entered with.
-/
import proofs.«163996_j25580825215696_1_alg».proof.Proof.HostStretches
import proofs.«163996_j25580825215696_1_alg».proof.Proof.CombineArray
import proofs.«163996_j25580825215696_1_alg».proof.Proof.ScoreArray
import proofs.«163996_j25580825215696_1_alg».proof.Proof.IdealRun

set_option maxRecDepth 16384

noncomputable section

namespace Cert.KernelIdeal.Values

open Idealize.ShloMosaic Idealize.ShloMosaic.ValueIdx Idealize.ShloMosaic.TcCoe Idealize.ShloMosaic.StableHlo
open Cert.KernelIdeal Cert.KernelIdeal.Gen Cert.KernelIdeal.Regions

open Idealize.ShloMosaic.Pipeline (Dat)

/-! ## A buffer a stretch does not write keeps its contents -/

theorem keepA (V : Valuation τ sig (Elt Ideal)) (r : Ref sig .tc) (h : r ∉ main_part0_ops0_W) :
    after main_part0_ops0 V (Proc.devRef .tc r) = V (Proc.devRef .tc r) := after_of_writes_sub main_part0_ops0 V main_part0_ops0_writes h
theorem keepB (V : Valuation τ sig (Elt Ideal)) (r : Ref sig .tc) (h : r ∉ main_part1_ops0_W) :
    after main_part1_ops0 V (Proc.devRef .tc r) = V (Proc.devRef .tc r) := after_of_writes_sub main_part1_ops0 V main_part1_ops0_writes h
theorem keepC (V : Valuation τ sig (Elt Ideal)) (r : Ref sig .tc) (h : r ∉ main_part2_ops0_W) :
    after main_part2_ops0 V (Proc.devRef .tc r) = V (Proc.devRef .tc r) := after_of_writes_sub main_part2_ops0 V main_part2_ops0_writes h
theorem keepD (V : Valuation τ sig (Elt Ideal)) (r : Ref sig .tc) (h : r ∉ main_part2_ops1_W) :
    after main_part2_ops1 V (Proc.devRef .tc r) = V (Proc.devRef .tc r) := after_of_writes_sub main_part2_ops1 V main_part2_ops1_writes h
theorem keepE (V : Valuation τ sig (Elt Ideal)) (r : Ref sig .tc) (h : r ∉ main_part3_ops0_W) :
    after main_part3_ops0 V (Proc.devRef .tc r) = V (Proc.devRef .tc r) := after_of_writes_sub main_part3_ops0 V main_part3_ops0_writes h
theorem keepF (V : Valuation τ sig (Elt Ideal)) (r : Ref sig .tc) (h : r ∉ main_part3_ops1_W) :
    after main_part3_ops1 V (Proc.devRef .tc r) = V (Proc.devRef .tc r) := after_of_writes_sub main_part3_ops1 V main_part3_ops1_writes h
theorem keepG (V : Valuation τ sig (Elt Ideal)) (r : Ref sig .tc) (h : r ∉ main_part4_ops0_W) :
    after main_part4_ops0 V (Proc.devRef .tc r) = V (Proc.devRef .tc r) := after_of_writes_sub main_part4_ops0 V main_part4_ops0_writes h
theorem keepH (V : Valuation τ sig (Elt Ideal)) (r : Ref sig .tc) (h : r ∉ main_part4_ops1_W) :
    after main_part4_ops1 V (Proc.devRef .tc r) = V (Proc.devRef .tc r) := after_of_writes_sub main_part4_ops1 V main_part4_ops1_writes h
theorem keepI (V : Valuation τ sig (Elt Ideal)) (r : Ref sig .tc) (h : r ∉ main_part4_ops2_W) :
    after main_part4_ops2 V (Proc.devRef .tc r) = V (Proc.devRef .tc r) := after_of_writes_sub main_part4_ops2 V main_part4_ops2_writes h
theorem keepJ (V : Valuation τ sig (Elt Ideal)) (r : Ref sig .tc) (h : r ∉ main_part4_ops3_W) :
    after main_part4_ops3 V (Proc.devRef .tc r) = V (Proc.devRef .tc r) := after_of_writes_sub main_part4_ops3 V main_part4_ops3_writes h
theorem keepK (V : Valuation τ sig (Elt Ideal)) (r : Ref sig .tc) (h : r ∉ main_part4_ops4_W) :
    after main_part4_ops4 V (Proc.devRef .tc r) = V (Proc.devRef .tc r) := after_of_writes_sub main_part4_ops4 V main_part4_ops4_writes h

section
variable (m : (ℓ : Loc nD τ sig) → Buf (Elt Ideal) ℓ) (ρ : Dev nD → PrngReg) (c : Dev nD)

/-! ## Each buffer at each boundary where a later item reads it -/

theorem at0_arg0 : (W0 (F := Ideal) m ρ c) (Proc.devRef .tc main_arg0) = ((W0 (F := Ideal) m ρ c (Proc.devRef .tc main_arg0) : FVec Ideal S500000x10 .f32) : FVec Ideal S500000x10 .f32) := rfl

theorem at1_arg0 : (W1 (F := Ideal) m ρ c) (Proc.devRef .tc main_arg0) = ((W0 (F := Ideal) m ρ c (Proc.devRef .tc main_arg0) : FVec Ideal S500000x10 .f32) : FVec Ideal S500000x10 .f32) :=
  (keepA (W0 (F := Ideal) m ρ c) main_arg0 (by decide)).trans (at0_arg0 m ρ c)

theorem at2_arg0 : (W2 (F := Ideal) m ρ c) (Proc.devRef .tc main_arg0) = ((W0 (F := Ideal) m ρ c (Proc.devRef .tc main_arg0) : FVec Ideal S500000x10 .f32) : FVec Ideal S500000x10 .f32) :=
  (keepB (W1 (F := Ideal) m ρ c) main_arg0 (by decide)).trans (at1_arg0 m ρ c)

theorem at3_arg0 : (W3 (F := Ideal) m ρ c) (Proc.devRef .tc main_arg0) = ((W0 (F := Ideal) m ρ c (Proc.devRef .tc main_arg0) : FVec Ideal S500000x10 .f32) : FVec Ideal S500000x10 .f32) :=
  (keepC (W2 (F := Ideal) m ρ c) main_arg0 (by decide)).trans (at2_arg0 m ρ c)

theorem at0_arg2 : (W0 (F := Ideal) m ρ c) (Proc.devRef .tc main_arg2) = ((W0 (F := Ideal) m ρ c (Proc.devRef .tc main_arg2) : IVec S4x2000000 32) : IVec S4x2000000 32) := rfl

theorem at1_arg2 : (W1 (F := Ideal) m ρ c) (Proc.devRef .tc main_arg2) = ((W0 (F := Ideal) m ρ c (Proc.devRef .tc main_arg2) : IVec S4x2000000 32) : IVec S4x2000000 32) :=
  (keepA (W0 (F := Ideal) m ρ c) main_arg2 (by decide)).trans (at0_arg2 m ρ c)

theorem at0_arg1 : (W0 (F := Ideal) m ρ c) (Proc.devRef .tc main_arg1) = ((W0 (F := Ideal) m ρ c (Proc.devRef .tc main_arg1) : IVec S4x2000000 32) : IVec S4x2000000 32) := rfl

theorem at1_v46 : (W1 (F := Ideal) m ρ c) (Proc.devRef .tc main_v46) = (extractStridedSlice S1x2000000 ![0, 0] (W0 (F := Ideal) m ρ c (Proc.devRef .tc main_arg1) : IVec S4x2000000 32) slices_S4x2000000_S1x2000000_0_0 : IVec S1x2000000 32) :=
  (A_v46 (W0 (F := Ideal) m ρ c)).trans (by
    rw [(at0_arg1 m ρ c)]
    try rfl)

theorem at1_v45 : (W1 (F := Ideal) m ρ c) (Proc.devRef .tc main_v45) = (invDeg4 (W0 (F := Ideal) m ρ c (Proc.devRef .tc main_arg2) : IVec S4x2000000 32) : FVec Ideal S4x500000x1 .f32) :=
  (A_v45 (W0 (F := Ideal) m ρ c)).trans (by
    rw [(at0_arg2 m ρ c)]
    try rfl)

theorem at2_v63 : (W2 (F := Ideal) m ρ c) (Proc.devRef .tc main_v63) = (meanK0 (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32)) : FVec Ideal S500000x10 .f32) :=
  (B_v63 (W1 (F := Ideal) m ρ c)).trans (by
    rw [(at1_arg2 m ρ c), (at1_arg0 m ρ c), (at1_v46 m ρ c), (at1_v45 m ρ c)]
    try rfl)

theorem at1_arg1 : (W1 (F := Ideal) m ρ c) (Proc.devRef .tc main_arg1) = ((W0 (F := Ideal) m ρ c (Proc.devRef .tc main_arg1) : IVec S4x2000000 32) : IVec S4x2000000 32) :=
  (keepA (W0 (F := Ideal) m ρ c) main_arg1 (by decide)).trans (at0_arg1 m ρ c)

theorem at2_v81 : (W2 (F := Ideal) m ρ c) (Proc.devRef .tc main_v81) = (meanK1 (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32)) : FVec Ideal S500000x10 .f32) :=
  (B_v81 (W1 (F := Ideal) m ρ c)).trans (by
    rw [(at1_arg2 m ρ c), (at1_arg0 m ρ c), (at1_arg1 m ρ c), (at1_v45 m ρ c)]
    try rfl)

theorem at2_v95 : (W2 (F := Ideal) m ρ c) (Proc.devRef .tc main_v95) = (nbrSum (W0 (F := Ideal) m ρ c (Proc.devRef .tc main_arg0) : FVec Ideal S500000x10 .f32) (row2 (W0 (F := Ideal) m ρ c (Proc.devRef .tc main_arg1) : IVec S4x2000000 32)) (row2 (W0 (F := Ideal) m ρ c (Proc.devRef .tc main_arg2) : IVec S4x2000000 32)) : FVec Ideal S500000x10 .f32) :=
  (B_v95 (W1 (F := Ideal) m ρ c)).trans (by
    rw [(at1_arg2 m ρ c), (at1_arg0 m ρ c), (at1_arg1 m ρ c)]
    try rfl)

theorem at2_v97 : (W2 (F := Ideal) m ρ c) (Proc.devRef .tc main_v97) = (shapeCast S500000x1 (extractStridedSlice S1x500000x1 ![2, 0, 0] (invDeg4 (W0 (F := Ideal) m ρ c (Proc.devRef .tc main_arg2) : IVec S4x2000000 32)) slices_S4x500000x1_S1x500000x1_2_0_0) shapeCasts_S1x500000x1_S500000x1 : FVec Ideal S500000x1 .f32) :=
  (B_v97 (W1 (F := Ideal) m ρ c)).trans (by
    rw [(at1_v45 m ρ c)]
    try rfl)

theorem at2_arg2 : (W2 (F := Ideal) m ρ c) (Proc.devRef .tc main_arg2) = ((W0 (F := Ideal) m ρ c (Proc.devRef .tc main_arg2) : IVec S4x2000000 32) : IVec S4x2000000 32) :=
  (keepB (W1 (F := Ideal) m ρ c) main_arg2 (by decide)).trans (at1_arg2 m ρ c)

theorem at2_arg1 : (W2 (F := Ideal) m ρ c) (Proc.devRef .tc main_arg1) = ((W0 (F := Ideal) m ρ c (Proc.devRef .tc main_arg1) : IVec S4x2000000 32) : IVec S4x2000000 32) :=
  (keepB (W1 (F := Ideal) m ρ c) main_arg1 (by decide)).trans (at1_arg1 m ρ c)

theorem at2_v45 : (W2 (F := Ideal) m ρ c) (Proc.devRef .tc main_v45) = (invDeg4 (W0 (F := Ideal) m ρ c (Proc.devRef .tc main_arg2) : IVec S4x2000000 32) : FVec Ideal S4x500000x1 .f32) :=
  (keepB (W1 (F := Ideal) m ρ c) main_v45 (by decide)).trans (at1_v45 m ρ c)

theorem at3_v118 : (W3 (F := Ideal) m ρ c) (Proc.devRef .tc main_v118) = (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32)) : FVec Ideal S500000x40 .f32) :=
  (C_v118 (W2 (F := Ideal) m ρ c)).trans (by
    rw [(at2_v63 m ρ c), (at2_v81 m ρ c), (at2_v95 m ρ c), (at2_v97 m ρ c), (at2_arg2 m ρ c), (at2_arg0 m ρ c), (at2_arg1 m ρ c), (at2_v45 m ρ c)]
    try rfl)

theorem at0_arg5 : (W0 (F := Ideal) m ρ c) (Proc.devRef .tc main_arg5) = ((W0 (F := Ideal) m ρ c (Proc.devRef .tc main_arg5) : FVec Ideal S4x10x10 .f32) : FVec Ideal S4x10x10 .f32) := rfl

theorem at1_arg5 : (W1 (F := Ideal) m ρ c) (Proc.devRef .tc main_arg5) = ((W0 (F := Ideal) m ρ c (Proc.devRef .tc main_arg5) : FVec Ideal S4x10x10 .f32) : FVec Ideal S4x10x10 .f32) :=
  (keepA (W0 (F := Ideal) m ρ c) main_arg5 (by decide)).trans (at0_arg5 m ρ c)

theorem at2_arg5 : (W2 (F := Ideal) m ρ c) (Proc.devRef .tc main_arg5) = ((W0 (F := Ideal) m ρ c (Proc.devRef .tc main_arg5) : FVec Ideal S4x10x10 .f32) : FVec Ideal S4x10x10 .f32) :=
  (keepB (W1 (F := Ideal) m ρ c) main_arg5 (by decide)).trans (at1_arg5 m ρ c)

theorem at3_arg5 : (W3 (F := Ideal) m ρ c) (Proc.devRef .tc main_arg5) = ((W0 (F := Ideal) m ρ c (Proc.devRef .tc main_arg5) : FVec Ideal S4x10x10 .f32) : FVec Ideal S4x10x10 .f32) :=
  (keepC (W2 (F := Ideal) m ρ c) main_arg5 (by decide)).trans (at2_arg5 m ρ c)

theorem at0_arg6 : (W0 (F := Ideal) m ρ c) (Proc.devRef .tc main_arg6) = ((W0 (F := Ideal) m ρ c (Proc.devRef .tc main_arg6) : FVec Ideal S4x10x10 .f32) : FVec Ideal S4x10x10 .f32) := rfl

theorem at1_arg6 : (W1 (F := Ideal) m ρ c) (Proc.devRef .tc main_arg6) = ((W0 (F := Ideal) m ρ c (Proc.devRef .tc main_arg6) : FVec Ideal S4x10x10 .f32) : FVec Ideal S4x10x10 .f32) :=
  (keepA (W0 (F := Ideal) m ρ c) main_arg6 (by decide)).trans (at0_arg6 m ρ c)

theorem at2_arg6 : (W2 (F := Ideal) m ρ c) (Proc.devRef .tc main_arg6) = ((W0 (F := Ideal) m ρ c (Proc.devRef .tc main_arg6) : FVec Ideal S4x10x10 .f32) : FVec Ideal S4x10x10 .f32) :=
  (keepB (W1 (F := Ideal) m ρ c) main_arg6 (by decide)).trans (at1_arg6 m ρ c)

theorem at3_arg6 : (W3 (F := Ideal) m ρ c) (Proc.devRef .tc main_arg6) = ((W0 (F := Ideal) m ρ c (Proc.devRef .tc main_arg6) : FVec Ideal S4x10x10 .f32) : FVec Ideal S4x10x10 .f32) :=
  (keepC (W2 (F := Ideal) m ρ c) main_arg6 (by decide)).trans (at2_arg6 m ρ c)

theorem at0_arg7 : (W0 (F := Ideal) m ρ c) (Proc.devRef .tc main_arg7) = ((W0 (F := Ideal) m ρ c (Proc.devRef .tc main_arg7) : FVec Ideal S4x10 .f32) : FVec Ideal S4x10 .f32) := rfl

theorem at1_arg7 : (W1 (F := Ideal) m ρ c) (Proc.devRef .tc main_arg7) = ((W0 (F := Ideal) m ρ c (Proc.devRef .tc main_arg7) : FVec Ideal S4x10 .f32) : FVec Ideal S4x10 .f32) :=
  (keepA (W0 (F := Ideal) m ρ c) main_arg7 (by decide)).trans (at0_arg7 m ρ c)

theorem at2_arg7 : (W2 (F := Ideal) m ρ c) (Proc.devRef .tc main_arg7) = ((W0 (F := Ideal) m ρ c (Proc.devRef .tc main_arg7) : FVec Ideal S4x10 .f32) : FVec Ideal S4x10 .f32) :=
  (keepB (W1 (F := Ideal) m ρ c) main_arg7 (by decide)).trans (at1_arg7 m ρ c)

theorem at3_arg7 : (W3 (F := Ideal) m ρ c) (Proc.devRef .tc main_arg7) = ((W0 (F := Ideal) m ρ c (Proc.devRef .tc main_arg7) : FVec Ideal S4x10 .f32) : FVec Ideal S4x10 .f32) :=
  (keepC (W2 (F := Ideal) m ρ c) main_arg7 (by decide)).trans (at2_arg7 m ρ c)

theorem at4_v119 : (W4 (F := Ideal) m ρ c) (Proc.devRef .tc main_v119) = (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32) : FVec Ideal S500000x10 .f32) :=
  (W4_arr (F := Ideal) m ρ c 5).trans ((final0 (V3 (F := Ideal) m ρ) c).trans (by
    dsimp only [V3]
    rw [(at3_arg0 m ρ c), (at3_v118 m ρ c), (at3_arg5 m ρ c), (at3_arg6 m ρ c), (at3_arg7 m ρ c)]))

theorem at5_v119 : (W5 (F := Ideal) m ρ c) (Proc.devRef .tc main_v119) = (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32) : FVec Ideal S500000x10 .f32) :=
  (keepD (W4 (F := Ideal) m ρ c) main_v119 (by decide)).trans (at4_v119 m ρ c)

theorem at6_v119 : (W6 (F := Ideal) m ρ c) (Proc.devRef .tc main_v119) = (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32) : FVec Ideal S500000x10 .f32) :=
  (keepE (W5 (F := Ideal) m ρ c) main_v119 (by decide)).trans (at5_v119 m ρ c)

theorem at3_arg2 : (W3 (F := Ideal) m ρ c) (Proc.devRef .tc main_arg2) = ((W0 (F := Ideal) m ρ c (Proc.devRef .tc main_arg2) : IVec S4x2000000 32) : IVec S4x2000000 32) :=
  (keepC (W2 (F := Ideal) m ρ c) main_arg2 (by decide)).trans (at2_arg2 m ρ c)

theorem at4_arg2 : (W4 (F := Ideal) m ρ c) (Proc.devRef .tc main_arg2) = ((W0 (F := Ideal) m ρ c (Proc.devRef .tc main_arg2) : IVec S4x2000000 32) : IVec S4x2000000 32) :=
  (W4_of_ne (F := Ideal) m ρ c main_arg2 (by decide)).trans (at3_arg2 m ρ c)

theorem at3_arg1 : (W3 (F := Ideal) m ρ c) (Proc.devRef .tc main_arg1) = ((W0 (F := Ideal) m ρ c (Proc.devRef .tc main_arg1) : IVec S4x2000000 32) : IVec S4x2000000 32) :=
  (keepC (W2 (F := Ideal) m ρ c) main_arg1 (by decide)).trans (at2_arg1 m ρ c)

theorem at4_arg1 : (W4 (F := Ideal) m ρ c) (Proc.devRef .tc main_arg1) = ((W0 (F := Ideal) m ρ c (Proc.devRef .tc main_arg1) : IVec S4x2000000 32) : IVec S4x2000000 32) :=
  (W4_of_ne (F := Ideal) m ρ c main_arg1 (by decide)).trans (at3_arg1 m ρ c)

theorem at3_v45 : (W3 (F := Ideal) m ρ c) (Proc.devRef .tc main_v45) = (invDeg4 (W0 (F := Ideal) m ρ c (Proc.devRef .tc main_arg2) : IVec S4x2000000 32) : FVec Ideal S4x500000x1 .f32) :=
  (keepC (W2 (F := Ideal) m ρ c) main_v45 (by decide)).trans (at2_v45 m ρ c)

theorem at4_v45 : (W4 (F := Ideal) m ρ c) (Proc.devRef .tc main_v45) = (invDeg4 (W0 (F := Ideal) m ρ c (Proc.devRef .tc main_arg2) : IVec S4x2000000 32) : FVec Ideal S4x500000x1 .f32) :=
  (W4_of_ne (F := Ideal) m ρ c main_v45 (by decide)).trans (at3_v45 m ρ c)

theorem at5_v137 : (W5 (F := Ideal) m ρ c) (Proc.devRef .tc main_v137) = (meanK0 (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32)) : FVec Ideal S500000x10 .f32) :=
  (D_v137 (W4 (F := Ideal) m ρ c)).trans (by
    rw [(at4_arg2 m ρ c), (at4_v119 m ρ c), (at4_arg1 m ρ c), (at4_v45 m ρ c)]
    try rfl)

theorem at5_cst_28 : (W5 (F := Ideal) m ρ c) (Proc.devRef .tc main_cst_28) = (constant (F := Ideal) S_ .f32 0x00000000#32 : FVec Ideal S_ .f32) :=
  (D_cst28 (W4 (F := Ideal) m ρ c)).trans (by
    skip
    try rfl)

theorem at5_v148 : (W5 (F := Ideal) m ρ c) (Proc.devRef .tc main_v148) = (row1 (W0 (F := Ideal) m ρ c (Proc.devRef .tc main_arg2) : IVec S4x2000000 32) : IVec S2000000 32) :=
  (D_v148 (W4 (F := Ideal) m ρ c)).trans (by
    rw [(at4_arg2 m ρ c)]
    try rfl)

theorem at5_v146 : (W5 (F := Ideal) m ρ c) (Proc.devRef .tc main_v146) = (Host.gather gather_S500000x10_S2000000x1_S2000000x10_1_0_n_n_0_1_110 (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (broadcastInDim S2000000x1 ![0] bcast_S2000000_S2000000x1_0 (wrapIdx (row1 (W0 (F := Ideal) m ρ c (Proc.devRef .tc main_arg1) : IVec S4x2000000 32)))) : FVec Ideal S2000000x10 .f32) :=
  (D_v146 (W4 (F := Ideal) m ρ c)).trans (by
    rw [(at4_v119 m ρ c), (at4_arg1 m ρ c)]
    try rfl)

theorem at5_v45 : (W5 (F := Ideal) m ρ c) (Proc.devRef .tc main_v45) = (invDeg4 (W0 (F := Ideal) m ρ c (Proc.devRef .tc main_arg2) : IVec S4x2000000 32) : FVec Ideal S4x500000x1 .f32) :=
  (keepD (W4 (F := Ideal) m ρ c) main_v45 (by decide)).trans (at4_v45 m ρ c)

theorem at5_arg2 : (W5 (F := Ideal) m ρ c) (Proc.devRef .tc main_arg2) = ((W0 (F := Ideal) m ρ c (Proc.devRef .tc main_arg2) : IVec S4x2000000 32) : IVec S4x2000000 32) :=
  (keepD (W4 (F := Ideal) m ρ c) main_arg2 (by decide)).trans (at4_arg2 m ρ c)

theorem at5_arg1 : (W5 (F := Ideal) m ρ c) (Proc.devRef .tc main_arg1) = ((W0 (F := Ideal) m ρ c (Proc.devRef .tc main_arg1) : IVec S4x2000000 32) : IVec S4x2000000 32) :=
  (keepD (W4 (F := Ideal) m ρ c) main_arg1 (by decide)).trans (at4_arg1 m ρ c)

theorem at6_v192 : (W6 (F := Ideal) m ρ c) (Proc.devRef .tc main_v192) = (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32)) : FVec Ideal S500000x40 .f32) :=
  (E_v192 (W5 (F := Ideal) m ρ c)).trans (by
    rw [(at5_v137 m ρ c), (at5_cst_28 m ρ c), (at5_v148 m ρ c), (at5_v146 m ρ c), (at5_v45 m ρ c), (at5_arg2 m ρ c), (at5_v119 m ρ c), (at5_arg1 m ρ c)]
    try rfl)

theorem at0_arg8 : (W0 (F := Ideal) m ρ c) (Proc.devRef .tc main_arg8) = ((W0 (F := Ideal) m ρ c (Proc.devRef .tc main_arg8) : FVec Ideal S4x10x10 .f32) : FVec Ideal S4x10x10 .f32) := rfl

theorem at1_arg8 : (W1 (F := Ideal) m ρ c) (Proc.devRef .tc main_arg8) = ((W0 (F := Ideal) m ρ c (Proc.devRef .tc main_arg8) : FVec Ideal S4x10x10 .f32) : FVec Ideal S4x10x10 .f32) :=
  (keepA (W0 (F := Ideal) m ρ c) main_arg8 (by decide)).trans (at0_arg8 m ρ c)

theorem at2_arg8 : (W2 (F := Ideal) m ρ c) (Proc.devRef .tc main_arg8) = ((W0 (F := Ideal) m ρ c (Proc.devRef .tc main_arg8) : FVec Ideal S4x10x10 .f32) : FVec Ideal S4x10x10 .f32) :=
  (keepB (W1 (F := Ideal) m ρ c) main_arg8 (by decide)).trans (at1_arg8 m ρ c)

theorem at3_arg8 : (W3 (F := Ideal) m ρ c) (Proc.devRef .tc main_arg8) = ((W0 (F := Ideal) m ρ c (Proc.devRef .tc main_arg8) : FVec Ideal S4x10x10 .f32) : FVec Ideal S4x10x10 .f32) :=
  (keepC (W2 (F := Ideal) m ρ c) main_arg8 (by decide)).trans (at2_arg8 m ρ c)

theorem at4_arg8 : (W4 (F := Ideal) m ρ c) (Proc.devRef .tc main_arg8) = ((W0 (F := Ideal) m ρ c (Proc.devRef .tc main_arg8) : FVec Ideal S4x10x10 .f32) : FVec Ideal S4x10x10 .f32) :=
  (W4_of_ne (F := Ideal) m ρ c main_arg8 (by decide)).trans (at3_arg8 m ρ c)

theorem at5_arg8 : (W5 (F := Ideal) m ρ c) (Proc.devRef .tc main_arg8) = ((W0 (F := Ideal) m ρ c (Proc.devRef .tc main_arg8) : FVec Ideal S4x10x10 .f32) : FVec Ideal S4x10x10 .f32) :=
  (keepD (W4 (F := Ideal) m ρ c) main_arg8 (by decide)).trans (at4_arg8 m ρ c)

theorem at6_arg8 : (W6 (F := Ideal) m ρ c) (Proc.devRef .tc main_arg8) = ((W0 (F := Ideal) m ρ c (Proc.devRef .tc main_arg8) : FVec Ideal S4x10x10 .f32) : FVec Ideal S4x10x10 .f32) :=
  (keepE (W5 (F := Ideal) m ρ c) main_arg8 (by decide)).trans (at5_arg8 m ρ c)

theorem at0_arg9 : (W0 (F := Ideal) m ρ c) (Proc.devRef .tc main_arg9) = ((W0 (F := Ideal) m ρ c (Proc.devRef .tc main_arg9) : FVec Ideal S4x10x10 .f32) : FVec Ideal S4x10x10 .f32) := rfl

theorem at1_arg9 : (W1 (F := Ideal) m ρ c) (Proc.devRef .tc main_arg9) = ((W0 (F := Ideal) m ρ c (Proc.devRef .tc main_arg9) : FVec Ideal S4x10x10 .f32) : FVec Ideal S4x10x10 .f32) :=
  (keepA (W0 (F := Ideal) m ρ c) main_arg9 (by decide)).trans (at0_arg9 m ρ c)

theorem at2_arg9 : (W2 (F := Ideal) m ρ c) (Proc.devRef .tc main_arg9) = ((W0 (F := Ideal) m ρ c (Proc.devRef .tc main_arg9) : FVec Ideal S4x10x10 .f32) : FVec Ideal S4x10x10 .f32) :=
  (keepB (W1 (F := Ideal) m ρ c) main_arg9 (by decide)).trans (at1_arg9 m ρ c)

theorem at3_arg9 : (W3 (F := Ideal) m ρ c) (Proc.devRef .tc main_arg9) = ((W0 (F := Ideal) m ρ c (Proc.devRef .tc main_arg9) : FVec Ideal S4x10x10 .f32) : FVec Ideal S4x10x10 .f32) :=
  (keepC (W2 (F := Ideal) m ρ c) main_arg9 (by decide)).trans (at2_arg9 m ρ c)

theorem at4_arg9 : (W4 (F := Ideal) m ρ c) (Proc.devRef .tc main_arg9) = ((W0 (F := Ideal) m ρ c (Proc.devRef .tc main_arg9) : FVec Ideal S4x10x10 .f32) : FVec Ideal S4x10x10 .f32) :=
  (W4_of_ne (F := Ideal) m ρ c main_arg9 (by decide)).trans (at3_arg9 m ρ c)

theorem at5_arg9 : (W5 (F := Ideal) m ρ c) (Proc.devRef .tc main_arg9) = ((W0 (F := Ideal) m ρ c (Proc.devRef .tc main_arg9) : FVec Ideal S4x10x10 .f32) : FVec Ideal S4x10x10 .f32) :=
  (keepD (W4 (F := Ideal) m ρ c) main_arg9 (by decide)).trans (at4_arg9 m ρ c)

theorem at6_arg9 : (W6 (F := Ideal) m ρ c) (Proc.devRef .tc main_arg9) = ((W0 (F := Ideal) m ρ c (Proc.devRef .tc main_arg9) : FVec Ideal S4x10x10 .f32) : FVec Ideal S4x10x10 .f32) :=
  (keepE (W5 (F := Ideal) m ρ c) main_arg9 (by decide)).trans (at5_arg9 m ρ c)

theorem at0_arg10 : (W0 (F := Ideal) m ρ c) (Proc.devRef .tc main_arg10) = ((W0 (F := Ideal) m ρ c (Proc.devRef .tc main_arg10) : FVec Ideal S4x10 .f32) : FVec Ideal S4x10 .f32) := rfl

theorem at1_arg10 : (W1 (F := Ideal) m ρ c) (Proc.devRef .tc main_arg10) = ((W0 (F := Ideal) m ρ c (Proc.devRef .tc main_arg10) : FVec Ideal S4x10 .f32) : FVec Ideal S4x10 .f32) :=
  (keepA (W0 (F := Ideal) m ρ c) main_arg10 (by decide)).trans (at0_arg10 m ρ c)

theorem at2_arg10 : (W2 (F := Ideal) m ρ c) (Proc.devRef .tc main_arg10) = ((W0 (F := Ideal) m ρ c (Proc.devRef .tc main_arg10) : FVec Ideal S4x10 .f32) : FVec Ideal S4x10 .f32) :=
  (keepB (W1 (F := Ideal) m ρ c) main_arg10 (by decide)).trans (at1_arg10 m ρ c)

theorem at3_arg10 : (W3 (F := Ideal) m ρ c) (Proc.devRef .tc main_arg10) = ((W0 (F := Ideal) m ρ c (Proc.devRef .tc main_arg10) : FVec Ideal S4x10 .f32) : FVec Ideal S4x10 .f32) :=
  (keepC (W2 (F := Ideal) m ρ c) main_arg10 (by decide)).trans (at2_arg10 m ρ c)

theorem at4_arg10 : (W4 (F := Ideal) m ρ c) (Proc.devRef .tc main_arg10) = ((W0 (F := Ideal) m ρ c (Proc.devRef .tc main_arg10) : FVec Ideal S4x10 .f32) : FVec Ideal S4x10 .f32) :=
  (W4_of_ne (F := Ideal) m ρ c main_arg10 (by decide)).trans (at3_arg10 m ρ c)

theorem at5_arg10 : (W5 (F := Ideal) m ρ c) (Proc.devRef .tc main_arg10) = ((W0 (F := Ideal) m ρ c (Proc.devRef .tc main_arg10) : FVec Ideal S4x10 .f32) : FVec Ideal S4x10 .f32) :=
  (keepD (W4 (F := Ideal) m ρ c) main_arg10 (by decide)).trans (at4_arg10 m ρ c)

theorem at6_arg10 : (W6 (F := Ideal) m ρ c) (Proc.devRef .tc main_arg10) = ((W0 (F := Ideal) m ρ c (Proc.devRef .tc main_arg10) : FVec Ideal S4x10 .f32) : FVec Ideal S4x10 .f32) :=
  (keepE (W5 (F := Ideal) m ρ c) main_arg10 (by decide)).trans (at5_arg10 m ρ c)

theorem at7_v193 : (W7 (F := Ideal) m ρ c) (Proc.devRef .tc main_v193) = (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32) : FVec Ideal S500000x10 .f32) :=
  (W7_arr (F := Ideal) m ρ c 5).trans ((final1 (V6 (F := Ideal) m ρ) c).trans (by
    dsimp only [V6]
    rw [(at6_v119 m ρ c), (at6_v192 m ρ c), (at6_arg8 m ρ c), (at6_arg9 m ρ c), (at6_arg10 m ρ c)]))

theorem at8_v193 : (W8 (F := Ideal) m ρ c) (Proc.devRef .tc main_v193) = (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32) : FVec Ideal S500000x10 .f32) :=
  (keepF (W7 (F := Ideal) m ρ c) main_v193 (by decide)).trans (at7_v193 m ρ c)

theorem at6_arg1 : (W6 (F := Ideal) m ρ c) (Proc.devRef .tc main_arg1) = ((W0 (F := Ideal) m ρ c (Proc.devRef .tc main_arg1) : IVec S4x2000000 32) : IVec S4x2000000 32) :=
  (keepE (W5 (F := Ideal) m ρ c) main_arg1 (by decide)).trans (at5_arg1 m ρ c)

theorem at7_arg1 : (W7 (F := Ideal) m ρ c) (Proc.devRef .tc main_arg1) = ((W0 (F := Ideal) m ρ c (Proc.devRef .tc main_arg1) : IVec S4x2000000 32) : IVec S4x2000000 32) :=
  (W7_of_ne (F := Ideal) m ρ c main_arg1 (by decide)).trans (at6_arg1 m ρ c)

theorem at8_v200 : (W8 (F := Ideal) m ρ c) (Proc.devRef .tc main_v200) = (wrapIdx (row0 (W0 (F := Ideal) m ρ c (Proc.devRef .tc main_arg1) : IVec S4x2000000 32)) : IVec S2000000 32) :=
  (F_v200 (W7 (F := Ideal) m ρ c)).trans (by
    rw [(at7_arg1 m ρ c)]
    try rfl)

theorem at0_arg3 : (W0 (F := Ideal) m ρ c) (Proc.devRef .tc main_arg3) = ((W0 (F := Ideal) m ρ c (Proc.devRef .tc main_arg3) : IVec S2000000 32) : IVec S2000000 32) := rfl

theorem at1_arg3 : (W1 (F := Ideal) m ρ c) (Proc.devRef .tc main_arg3) = ((W0 (F := Ideal) m ρ c (Proc.devRef .tc main_arg3) : IVec S2000000 32) : IVec S2000000 32) :=
  (keepA (W0 (F := Ideal) m ρ c) main_arg3 (by decide)).trans (at0_arg3 m ρ c)

theorem at2_arg3 : (W2 (F := Ideal) m ρ c) (Proc.devRef .tc main_arg3) = ((W0 (F := Ideal) m ρ c (Proc.devRef .tc main_arg3) : IVec S2000000 32) : IVec S2000000 32) :=
  (keepB (W1 (F := Ideal) m ρ c) main_arg3 (by decide)).trans (at1_arg3 m ρ c)

theorem at3_arg3 : (W3 (F := Ideal) m ρ c) (Proc.devRef .tc main_arg3) = ((W0 (F := Ideal) m ρ c (Proc.devRef .tc main_arg3) : IVec S2000000 32) : IVec S2000000 32) :=
  (keepC (W2 (F := Ideal) m ρ c) main_arg3 (by decide)).trans (at2_arg3 m ρ c)

theorem at4_arg3 : (W4 (F := Ideal) m ρ c) (Proc.devRef .tc main_arg3) = ((W0 (F := Ideal) m ρ c (Proc.devRef .tc main_arg3) : IVec S2000000 32) : IVec S2000000 32) :=
  (W4_of_ne (F := Ideal) m ρ c main_arg3 (by decide)).trans (at3_arg3 m ρ c)

theorem at5_arg3 : (W5 (F := Ideal) m ρ c) (Proc.devRef .tc main_arg3) = ((W0 (F := Ideal) m ρ c (Proc.devRef .tc main_arg3) : IVec S2000000 32) : IVec S2000000 32) :=
  (keepD (W4 (F := Ideal) m ρ c) main_arg3 (by decide)).trans (at4_arg3 m ρ c)

theorem at6_arg3 : (W6 (F := Ideal) m ρ c) (Proc.devRef .tc main_arg3) = ((W0 (F := Ideal) m ρ c (Proc.devRef .tc main_arg3) : IVec S2000000 32) : IVec S2000000 32) :=
  (keepE (W5 (F := Ideal) m ρ c) main_arg3 (by decide)).trans (at5_arg3 m ρ c)

theorem at7_arg3 : (W7 (F := Ideal) m ρ c) (Proc.devRef .tc main_arg3) = ((W0 (F := Ideal) m ρ c (Proc.devRef .tc main_arg3) : IVec S2000000 32) : IVec S2000000 32) :=
  (W7_of_ne (F := Ideal) m ρ c main_arg3 (by decide)).trans (at6_arg3 m ρ c)

theorem at8_arg3 : (W8 (F := Ideal) m ρ c) (Proc.devRef .tc main_arg3) = ((W0 (F := Ideal) m ρ c (Proc.devRef .tc main_arg3) : IVec S2000000 32) : IVec S2000000 32) :=
  (keepF (W7 (F := Ideal) m ρ c) main_arg3 (by decide)).trans (at7_arg3 m ρ c)

theorem at9_v226 : (W9 (F := Ideal) m ρ c) (Proc.devRef .tc main_v226) = (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0 : FVec Ideal S4000000x10 .f32) :=
  (G_v226 (W8 (F := Ideal) m ρ c)).trans (by
    rw [(at8_v193 m ρ c), (at8_v200 m ρ c), (at8_arg3 m ρ c)]
    try rfl)

theorem at9_c_43 : (W9 (F := Ideal) m ρ c) (Proc.devRef .tc main_c_43) = (constantI S_ 32 0#32 : IVec S_ 32) :=
  (G_c43 (W8 (F := Ideal) m ρ c)).trans (by
    skip
    try rfl)

theorem at10_v228 : (W10 (F := Ideal) m ρ c) (Proc.devRef .tc main_v228) = (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0) (sitofp (F := Ideal) .f32 (constantI S_ 32 0#32)) pads_S4000000x10_S4001792x10_017920_000 h_S_ : FVec Ideal S4001792x10 .f32) :=
  (H_v228 (W9 (F := Ideal) m ρ c)).trans (by
    rw [(at9_v226 m ρ c), (at9_c_43 m ρ c)]
    try rfl)

theorem at11_v228 : (W11 (F := Ideal) m ρ c) (Proc.devRef .tc main_v228) = (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0) (sitofp (F := Ideal) .f32 (constantI S_ 32 0#32)) pads_S4000000x10_S4001792x10_017920_000 h_S_ : FVec Ideal S4001792x10 .f32) :=
  (keepI (W10 (F := Ideal) m ρ c) main_v228 (by decide)).trans (at10_v228 m ρ c)

theorem at12_v228 : (W12 (F := Ideal) m ρ c) (Proc.devRef .tc main_v228) = (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0) (sitofp (F := Ideal) .f32 (constantI S_ 32 0#32)) pads_S4000000x10_S4001792x10_017920_000 h_S_ : FVec Ideal S4001792x10 .f32) :=
  (keepJ (W11 (F := Ideal) m ρ c) main_v228 (by decide)).trans (at11_v228 m ρ c)

theorem at6_arg2 : (W6 (F := Ideal) m ρ c) (Proc.devRef .tc main_arg2) = ((W0 (F := Ideal) m ρ c (Proc.devRef .tc main_arg2) : IVec S4x2000000 32) : IVec S4x2000000 32) :=
  (keepE (W5 (F := Ideal) m ρ c) main_arg2 (by decide)).trans (at5_arg2 m ρ c)

theorem at7_arg2 : (W7 (F := Ideal) m ρ c) (Proc.devRef .tc main_arg2) = ((W0 (F := Ideal) m ρ c (Proc.devRef .tc main_arg2) : IVec S4x2000000 32) : IVec S4x2000000 32) :=
  (W7_of_ne (F := Ideal) m ρ c main_arg2 (by decide)).trans (at6_arg2 m ρ c)

theorem at8_arg2 : (W8 (F := Ideal) m ρ c) (Proc.devRef .tc main_arg2) = ((W0 (F := Ideal) m ρ c (Proc.devRef .tc main_arg2) : IVec S4x2000000 32) : IVec S4x2000000 32) :=
  (keepF (W7 (F := Ideal) m ρ c) main_arg2 (by decide)).trans (at7_arg2 m ρ c)

theorem at0_arg4 : (W0 (F := Ideal) m ρ c) (Proc.devRef .tc main_arg4) = ((W0 (F := Ideal) m ρ c (Proc.devRef .tc main_arg4) : IVec S2000000 32) : IVec S2000000 32) := rfl

theorem at1_arg4 : (W1 (F := Ideal) m ρ c) (Proc.devRef .tc main_arg4) = ((W0 (F := Ideal) m ρ c (Proc.devRef .tc main_arg4) : IVec S2000000 32) : IVec S2000000 32) :=
  (keepA (W0 (F := Ideal) m ρ c) main_arg4 (by decide)).trans (at0_arg4 m ρ c)

theorem at2_arg4 : (W2 (F := Ideal) m ρ c) (Proc.devRef .tc main_arg4) = ((W0 (F := Ideal) m ρ c (Proc.devRef .tc main_arg4) : IVec S2000000 32) : IVec S2000000 32) :=
  (keepB (W1 (F := Ideal) m ρ c) main_arg4 (by decide)).trans (at1_arg4 m ρ c)

theorem at3_arg4 : (W3 (F := Ideal) m ρ c) (Proc.devRef .tc main_arg4) = ((W0 (F := Ideal) m ρ c (Proc.devRef .tc main_arg4) : IVec S2000000 32) : IVec S2000000 32) :=
  (keepC (W2 (F := Ideal) m ρ c) main_arg4 (by decide)).trans (at2_arg4 m ρ c)

theorem at4_arg4 : (W4 (F := Ideal) m ρ c) (Proc.devRef .tc main_arg4) = ((W0 (F := Ideal) m ρ c (Proc.devRef .tc main_arg4) : IVec S2000000 32) : IVec S2000000 32) :=
  (W4_of_ne (F := Ideal) m ρ c main_arg4 (by decide)).trans (at3_arg4 m ρ c)

theorem at5_arg4 : (W5 (F := Ideal) m ρ c) (Proc.devRef .tc main_arg4) = ((W0 (F := Ideal) m ρ c (Proc.devRef .tc main_arg4) : IVec S2000000 32) : IVec S2000000 32) :=
  (keepD (W4 (F := Ideal) m ρ c) main_arg4 (by decide)).trans (at4_arg4 m ρ c)

theorem at6_arg4 : (W6 (F := Ideal) m ρ c) (Proc.devRef .tc main_arg4) = ((W0 (F := Ideal) m ρ c (Proc.devRef .tc main_arg4) : IVec S2000000 32) : IVec S2000000 32) :=
  (keepE (W5 (F := Ideal) m ρ c) main_arg4 (by decide)).trans (at5_arg4 m ρ c)

theorem at7_arg4 : (W7 (F := Ideal) m ρ c) (Proc.devRef .tc main_arg4) = ((W0 (F := Ideal) m ρ c (Proc.devRef .tc main_arg4) : IVec S2000000 32) : IVec S2000000 32) :=
  (W7_of_ne (F := Ideal) m ρ c main_arg4 (by decide)).trans (at6_arg4 m ρ c)

theorem at8_arg4 : (W8 (F := Ideal) m ρ c) (Proc.devRef .tc main_arg4) = ((W0 (F := Ideal) m ρ c (Proc.devRef .tc main_arg4) : IVec S2000000 32) : IVec S2000000 32) :=
  (keepF (W7 (F := Ideal) m ρ c) main_arg4 (by decide)).trans (at7_arg4 m ρ c)

theorem at9_v227 : (W9 (F := Ideal) m ρ c) (Proc.devRef .tc main_v227) = (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0 : FVec Ideal S4000000x10 .f32) :=
  (G_v227 (W8 (F := Ideal) m ρ c)).trans (by
    rw [(at8_v193 m ρ c), (at8_arg2 m ρ c), (at8_arg4 m ρ c)]
    try rfl)

theorem at10_v227 : (W10 (F := Ideal) m ρ c) (Proc.devRef .tc main_v227) = (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0 : FVec Ideal S4000000x10 .f32) :=
  (keepH (W9 (F := Ideal) m ρ c) main_v227 (by decide)).trans (at9_v227 m ρ c)

theorem at11_v227 : (W11 (F := Ideal) m ρ c) (Proc.devRef .tc main_v227) = (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0 : FVec Ideal S4000000x10 .f32) :=
  (keepI (W10 (F := Ideal) m ρ c) main_v227 (by decide)).trans (at10_v227 m ρ c)

theorem at11_c_44 : (W11 (F := Ideal) m ρ c) (Proc.devRef .tc main_c_44) = (constantI S_ 32 0#32 : IVec S_ 32) :=
  (I_c44 (W10 (F := Ideal) m ρ c)).trans (by
    skip
    try rfl)

theorem at12_v229 : (W12 (F := Ideal) m ρ c) (Proc.devRef .tc main_v229) = (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0) (sitofp (F := Ideal) .f32 (constantI S_ 32 0#32)) pads_S4000000x10_S4001792x10_017920_000 h_S_ : FVec Ideal S4001792x10 .f32) :=
  (J_v229 (W11 (F := Ideal) m ρ c)).trans (by
    rw [(at11_v227 m ρ c), (at11_c_44 m ρ c)]
    try rfl)

theorem at13_v230 : (W13 (F := Ideal) m ρ c) (Proc.devRef .tc main_v230) = (scoreK (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0) (sitofp (F := Ideal) .f32 (constantI S_ 32 0#32)) pads_S4000000x10_S4001792x10_017920_000 h_S_) (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0) (sitofp (F := Ideal) .f32 (constantI S_ 32 0#32)) pads_S4000000x10_S4001792x10_017920_000 h_S_) : FVec Ideal S4001792 .f32) :=
  (W13_arr (F := Ideal) m ρ c 2).trans ((final2 (V12 (F := Ideal) m ρ) c).trans (by
    dsimp only [V12]
    rw [(at12_v228 m ρ c), (at12_v229 m ρ c)]))

theorem at14_v232 : (W14 (F := Ideal) m ρ c) (Proc.devRef .tc main_v232) = (extractStridedSlice S2000000 ![0] (extractStridedSlice S4000000 ![0] (scoreK (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0) (sitofp (F := Ideal) .f32 (constantI S_ 32 0#32)) pads_S4000000x10_S4001792x10_017920_000 h_S_) (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0) (sitofp (F := Ideal) .f32 (constantI S_ 32 0#32)) pads_S4000000x10_S4001792x10_017920_000 h_S_)) slices_S4001792_S4000000_0) slices_S4000000_S2000000_0 : FVec Ideal S2000000 .f32) :=
  (K_v232 (W13 (F := Ideal) m ρ c)).trans (by
    rw [(at13_v230 m ρ c)]
    try rfl)

theorem at14_v233 : (W14 (F := Ideal) m ρ c) (Proc.devRef .tc main_v233) = (extractStridedSlice S2000000 ![2000000] (extractStridedSlice S4000000 ![0] (scoreK (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg1) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg3) : IVec S2000000 32)⟩] concatenates_S2000000x10_S2000000x10_S4000000x10_d0) (sitofp (F := Ideal) .f32 (constantI S_ 32 0#32)) pads_S4000000x10_S4001792x10_017920_000 h_S_) (pad S4001792x10 ![0, 0] ![1792, 0] ![0, 0] (concatenate S4000000x10 0 [⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (row0 (W0 (F := Ideal) m ρ c (Proc.devRef .tc main_arg2) : IVec S4x2000000 32))⟩, ⟨S2000000x10, gatherAt (layerK (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (meanCat (layerK (W0 (F := Ideal) m ρ c (Proc.devRef .tc main_arg0) : FVec Ideal S500000x10 .f32) (meanCat (W0 (F := Ideal) m ρ c (Proc.devRef .tc main_arg0) : FVec Ideal S500000x10 .f32) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg5) : FVec Ideal S4x10x10 .f32) (W0 (F := Ideal) m ρ c (Proc.devRef .tc main_arg6) : FVec Ideal S4x10x10 .f32) (W0 (F := Ideal) m ρ c (Proc.devRef .tc main_arg7) : FVec Ideal S4x10 .f32)) (W0 (F := Ideal) m ρ c (Proc.devRef .tc main_arg1) : IVec S4x2000000 32) (W0 (F := Ideal) m ρ c (Proc.devRef .tc main_arg2) : IVec S4x2000000 32) (invDeg4 (W0 (F := Ideal) m ρ c (Proc.devRef .tc main_arg2) : IVec S4x2000000 32))) (W0 (F := Ideal) m ρ c (Proc.devRef .tc main_arg8) : FVec Ideal S4x10x10 .f32) (W0 (F := Ideal) m ρ c (Proc.devRef .tc main_arg9) : FVec Ideal S4x10x10 .f32) (W0 (F := Ideal) m ρ c (Proc.devRef .tc main_arg10) : FVec Ideal S4x10 .f32)) (W0 (F := Ideal) m ρ c (Proc.devRef .tc main_arg4) : IVec S2000000 32)⟩] concatenates_S2000000x10_S2000000x10_S4000000x10_d0) (sitofp (F := Ideal) .f32 (constantI S_ 32 0#32)) pads_S4000000x10_S4001792x10_017920_000 h_S_)) slices_S4001792_S4000000_0) slices_S4000000_S2000000_2000000 : FVec Ideal S2000000 .f32) :=
  (K_v233 (W13 (F := Ideal) m ρ c)).trans (by
    rw [(at13_v230 m ρ c)]
    try rfl)

end

end Cert.KernelIdeal.Values

end
-- ==== Proof.MeanAtIndex.lean ====
/-
  The kernel program's mean columns read at a node and a feature: through the 40-column concatenate, the slab spread over the
  ten features, the dropped unit axis, the slice of the four stacked slabs, and two more broadcasts, down to the neighbour
  sum times one over max(degree, 1).
-/
import proofs.«163996_j25580825215696_1_alg».proof.Proof.HostStretches
import proofs.«163996_j25580825215696_1_alg».proof.Proof.CombineAtIndex

set_option maxRecDepth 16384

noncomputable section

namespace Cert.KernelIdeal.Values

open Idealize.ShloMosaic Idealize.ShloMosaic.ValueIdx Idealize.ShloMosaic.TcCoe Idealize.ShloMosaic.StableHlo
open Cert.KernelIdeal Cert.KernelIdeal.Gen Cert.KernelIdeal.Regions

/-- The host's quotient of two arrays at an index is the quotient of the entries. -/
theorem hostDivf_at {s : Shape} {φ : FTy} (a b : FVec Ideal s φ) (i : s.Idx) : Host.divf a b i = Ideal.div (a i) (b i) := rfl

/-- Relation 0's reciprocal of max(degree, 1) at node `n`, read out of the stacked slab spread over the ten features. -/
theorem slabAt0 (dst : Edges4) (n : Fin 500000) (k : Fin 10) :
    broadcastInDim S500000x10 ![0, 1] bcast_S500000x1_S500000x10_0_1 (shapeCast S500000x1 (extractStridedSlice S1x500000x1 ![0, 0, 0] (invDeg4 dst) slices_S4x500000x1_S1x500000x1_0_0_0) shapeCasts_S1x500000x1_S500000x1) (ix2 n k)
      = Ideal.div (Ideal.ofBits .f32 0x3F800000#32) (max (degOf (row0 dst) (ix1 n)) (Ideal.ofBits .f32 0x3F800000#32)) := by
  rw [broadcastInDim_apply ![0, 1] bcast_S500000x1_S500000x10_0_1 _ (ix2 n k) (ix2 n (0 : Fin 1)) (fun a => by
    match a with
    | ⟨0, _⟩ => rfl
    | ⟨1, _⟩ => rfl)]
  rw [shapeCast_1ab_ab_apply]
  rw [extractStridedSlice_apply ![0, 0, 0] (invDeg4 dst) slices_S4x500000x1_S1x500000x1_0_0_0 (ix3 (0 : Fin 1) n (0 : Fin 1)) (ix3 (0 : Fin 4) n (0 : Fin 1)) (fun a => by
    match a with
    | ⟨0, _⟩ => rfl
    | ⟨1, _⟩ => exact (Nat.zero_add _).symm
    | ⟨2, _⟩ => rfl)]
  unfold invDeg4
  rw [concatenate_apply_piece (t := S4x500000x1) (0 : Fin S4x500000x1.rank) ([⟨S1x500000x1, invSlab (row0 dst)⟩, ⟨S1x500000x1, invSlab (row1 dst)⟩, ⟨S1x500000x1, invSlab (row2 dst)⟩, ⟨S1x500000x1, invSlab (row3 dst)⟩] : List ((s : Shape) × (s.Idx → EReal))) concatenates_S1x500000x1_S1x500000x1_S1x500000x1_S1x500000x1_S4x500000x1_d0 (ix3 (0 : Fin 4) n (0 : Fin 1)) 0 (show (0 : ℕ) < 4 by omega)
    S1x500000x1 (invSlab (row0 dst)) rfl rfl 0 rfl (ix3 (0 : Fin 1) n (0 : Fin 1)) (fun b hb => by
      match b with
      | ⟨0, _⟩ => exact absurd rfl hb
      | ⟨1, _⟩ => rfl
      | ⟨2, _⟩ => rfl) rfl]
  unfold invSlab
  rw [broadcastInDim_apply ![1, 2] bcast_S500000x1_S1x500000x1_1_2 _ (ix3 (0 : Fin 1) n (0 : Fin 1)) (ix2 n (0 : Fin 1)) (fun a => by
    match a with
    | ⟨0, _⟩ => rfl
    | ⟨1, _⟩ => rfl)]
  rw [broadcastInDim_apply ![0] bcast_S500000_S500000x1_0 _ (ix2 n (0 : Fin 1)) (ix1 n) (fun a => by
    match a with
    | ⟨0, _⟩ => rfl)]
  rw [hostDivf_at]
  rw [broadcastInDim_apply ![] bcast_S_S500000 _ (ix1 n) ix0 (fun a => a.elim0), constant_apply]
  unfold degMax
  rw [maximumf_apply, broadcastInDim_apply ![] bcast_S_S500000 _ (ix1 n) ix0 (fun a => a.elim0), constant_apply]

/-- Relation 0's mean as the kernel's program forms it, at a node and feature: the neighbour sum times that reciprocal. -/
theorem meanK0_apply (h : Feat) (src dst : Edges4) (n : Fin 500000) (k : Fin 10) :
    meanK0 h src dst (invDeg4 dst) (ix2 n k)
      = nbrSum h (row0 src) (row0 dst) (ix2 n k) * Ideal.div (Ideal.ofBits .f32 0x3F800000#32) (max (degOf (row0 dst) (ix1 n)) (Ideal.ofBits .f32 0x3F800000#32)) := by
  unfold meanK0
  rw [mulf_apply, slabAt0]

/-- Column 10·0 + k of the 40 mean columns is relation 0's column k. -/
theorem meanCat_at0 (h : Feat) (src dst : Edges4) (d45 : FVec Ideal S4x500000x1 .f32) (n : Fin 500000) (k : Fin 10) :
    meanCat h src dst d45 (ix2 n (col 0 k)) = meanK0 h src dst d45 (ix2 n k) := by
  unfold meanCat
  exact concatenate_apply_piece (t := S500000x40) (1 : Fin S500000x40.rank) ([⟨S500000x10, meanK0 h src dst d45⟩, ⟨S500000x10, meanK1 h src dst d45⟩, ⟨S500000x10, meanK2 h src dst d45⟩, ⟨S500000x10, meanK3 h src dst d45⟩] : List ((s : Shape) × (s.Idx → EReal))) concatenates_S500000x10_S500000x10_S500000x10_S500000x10_S500000x40_d1 (ix2 n (col 0 k)) 0 (show (0 : ℕ) < 4 by omega)
    S500000x10 (meanK0 h src dst d45) rfl rfl 0 rfl (ix2 n k) (fun b hb => by
      match b with
      | ⟨0, _⟩ => rfl
      | ⟨1, _⟩ => exact absurd rfl hb) rfl

/-- Relation 1's reciprocal of max(degree, 1) at node `n`, read out of the stacked slab spread over the ten features. -/
theorem slabAt1 (dst : Edges4) (n : Fin 500000) (k : Fin 10) :
    broadcastInDim S500000x10 ![0, 1] bcast_S500000x1_S500000x10_0_1 (shapeCast S500000x1 (extractStridedSlice S1x500000x1 ![1, 0, 0] (invDeg4 dst) slices_S4x500000x1_S1x500000x1_1_0_0) shapeCasts_S1x500000x1_S500000x1) (ix2 n k)
      = Ideal.div (Ideal.ofBits .f32 0x3F800000#32) (max (degOf (row1 dst) (ix1 n)) (Ideal.ofBits .f32 0x3F800000#32)) := by
  rw [broadcastInDim_apply ![0, 1] bcast_S500000x1_S500000x10_0_1 _ (ix2 n k) (ix2 n (0 : Fin 1)) (fun a => by
    match a with
    | ⟨0, _⟩ => rfl
    | ⟨1, _⟩ => rfl)]
  rw [shapeCast_1ab_ab_apply]
  rw [extractStridedSlice_apply ![1, 0, 0] (invDeg4 dst) slices_S4x500000x1_S1x500000x1_1_0_0 (ix3 (0 : Fin 1) n (0 : Fin 1)) (ix3 (1 : Fin 4) n (0 : Fin 1)) (fun a => by
    match a with
    | ⟨0, _⟩ => rfl
    | ⟨1, _⟩ => exact (Nat.zero_add _).symm
    | ⟨2, _⟩ => rfl)]
  unfold invDeg4
  rw [concatenate_apply_piece (t := S4x500000x1) (0 : Fin S4x500000x1.rank) ([⟨S1x500000x1, invSlab (row0 dst)⟩, ⟨S1x500000x1, invSlab (row1 dst)⟩, ⟨S1x500000x1, invSlab (row2 dst)⟩, ⟨S1x500000x1, invSlab (row3 dst)⟩] : List ((s : Shape) × (s.Idx → EReal))) concatenates_S1x500000x1_S1x500000x1_S1x500000x1_S1x500000x1_S4x500000x1_d0 (ix3 (1 : Fin 4) n (0 : Fin 1)) 1 (show (1 : ℕ) < 4 by omega)
    S1x500000x1 (invSlab (row1 dst)) rfl rfl 1 rfl (ix3 (0 : Fin 1) n (0 : Fin 1)) (fun b hb => by
      match b with
      | ⟨0, _⟩ => exact absurd rfl hb
      | ⟨1, _⟩ => rfl
      | ⟨2, _⟩ => rfl) rfl]
  unfold invSlab
  rw [broadcastInDim_apply ![1, 2] bcast_S500000x1_S1x500000x1_1_2 _ (ix3 (0 : Fin 1) n (0 : Fin 1)) (ix2 n (0 : Fin 1)) (fun a => by
    match a with
    | ⟨0, _⟩ => rfl
    | ⟨1, _⟩ => rfl)]
  rw [broadcastInDim_apply ![0] bcast_S500000_S500000x1_0 _ (ix2 n (0 : Fin 1)) (ix1 n) (fun a => by
    match a with
    | ⟨0, _⟩ => rfl)]
  rw [hostDivf_at]
  rw [broadcastInDim_apply ![] bcast_S_S500000 _ (ix1 n) ix0 (fun a => a.elim0), constant_apply]
  unfold degMax
  rw [maximumf_apply, broadcastInDim_apply ![] bcast_S_S500000 _ (ix1 n) ix0 (fun a => a.elim0), constant_apply]

/-- Relation 1's mean as the kernel's program forms it, at a node and feature: the neighbour sum times that reciprocal. -/
theorem meanK1_apply (h : Feat) (src dst : Edges4) (n : Fin 500000) (k : Fin 10) :
    meanK1 h src dst (invDeg4 dst) (ix2 n k)
      = nbrSum h (row1 src) (row1 dst) (ix2 n k) * Ideal.div (Ideal.ofBits .f32 0x3F800000#32) (max (degOf (row1 dst) (ix1 n)) (Ideal.ofBits .f32 0x3F800000#32)) := by
  unfold meanK1
  rw [mulf_apply, slabAt1]

/-- Column 10·1 + k of the 40 mean columns is relation 1's column k. -/
theorem meanCat_at1 (h : Feat) (src dst : Edges4) (d45 : FVec Ideal S4x500000x1 .f32) (n : Fin 500000) (k : Fin 10) :
    meanCat h src dst d45 (ix2 n (col 1 k)) = meanK1 h src dst d45 (ix2 n k) := by
  unfold meanCat
  exact concatenate_apply_piece (t := S500000x40) (1 : Fin S500000x40.rank) ([⟨S500000x10, meanK0 h src dst d45⟩, ⟨S500000x10, meanK1 h src dst d45⟩, ⟨S500000x10, meanK2 h src dst d45⟩, ⟨S500000x10, meanK3 h src dst d45⟩] : List ((s : Shape) × (s.Idx → EReal))) concatenates_S500000x10_S500000x10_S500000x10_S500000x10_S500000x40_d1 (ix2 n (col 1 k)) 1 (show (1 : ℕ) < 4 by omega)
    S500000x10 (meanK1 h src dst d45) rfl rfl 10 rfl (ix2 n k) (fun b hb => by
      match b with
      | ⟨0, _⟩ => rfl
      | ⟨1, _⟩ => exact absurd rfl hb) rfl

/-- Relation 2's reciprocal of max(degree, 1) at node `n`, read out of the stacked slab spread over the ten features. -/
theorem slabAt2 (dst : Edges4) (n : Fin 500000) (k : Fin 10) :
    broadcastInDim S500000x10 ![0, 1] bcast_S500000x1_S500000x10_0_1 (shapeCast S500000x1 (extractStridedSlice S1x500000x1 ![2, 0, 0] (invDeg4 dst) slices_S4x500000x1_S1x500000x1_2_0_0) shapeCasts_S1x500000x1_S500000x1) (ix2 n k)
      = Ideal.div (Ideal.ofBits .f32 0x3F800000#32) (max (degOf (row2 dst) (ix1 n)) (Ideal.ofBits .f32 0x3F800000#32)) := by
  rw [broadcastInDim_apply ![0, 1] bcast_S500000x1_S500000x10_0_1 _ (ix2 n k) (ix2 n (0 : Fin 1)) (fun a => by
    match a with
    | ⟨0, _⟩ => rfl
    | ⟨1, _⟩ => rfl)]
  rw [shapeCast_1ab_ab_apply]
  rw [extractStridedSlice_apply ![2, 0, 0] (invDeg4 dst) slices_S4x500000x1_S1x500000x1_2_0_0 (ix3 (0 : Fin 1) n (0 : Fin 1)) (ix3 (2 : Fin 4) n (0 : Fin 1)) (fun a => by
    match a with
    | ⟨0, _⟩ => rfl
    | ⟨1, _⟩ => exact (Nat.zero_add _).symm
    | ⟨2, _⟩ => rfl)]
  unfold invDeg4
  rw [concatenate_apply_piece (t := S4x500000x1) (0 : Fin S4x500000x1.rank) ([⟨S1x500000x1, invSlab (row0 dst)⟩, ⟨S1x500000x1, invSlab (row1 dst)⟩, ⟨S1x500000x1, invSlab (row2 dst)⟩, ⟨S1x500000x1, invSlab (row3 dst)⟩] : List ((s : Shape) × (s.Idx → EReal))) concatenates_S1x500000x1_S1x500000x1_S1x500000x1_S1x500000x1_S4x500000x1_d0 (ix3 (2 : Fin 4) n (0 : Fin 1)) 2 (show (2 : ℕ) < 4 by omega)
    S1x500000x1 (invSlab (row2 dst)) rfl rfl 2 rfl (ix3 (0 : Fin 1) n (0 : Fin 1)) (fun b hb => by
      match b with
      | ⟨0, _⟩ => exact absurd rfl hb
      | ⟨1, _⟩ => rfl
      | ⟨2, _⟩ => rfl) rfl]
  unfold invSlab
  rw [broadcastInDim_apply ![1, 2] bcast_S500000x1_S1x500000x1_1_2 _ (ix3 (0 : Fin 1) n (0 : Fin 1)) (ix2 n (0 : Fin 1)) (fun a => by
    match a with
    | ⟨0, _⟩ => rfl
    | ⟨1, _⟩ => rfl)]
  rw [broadcastInDim_apply ![0] bcast_S500000_S500000x1_0 _ (ix2 n (0 : Fin 1)) (ix1 n) (fun a => by
    match a with
    | ⟨0, _⟩ => rfl)]
  rw [hostDivf_at]
  rw [broadcastInDim_apply ![] bcast_S_S500000 _ (ix1 n) ix0 (fun a => a.elim0), constant_apply]
  unfold degMax
  rw [maximumf_apply, broadcastInDim_apply ![] bcast_S_S500000 _ (ix1 n) ix0 (fun a => a.elim0), constant_apply]

/-- Relation 2's mean as the kernel's program forms it, at a node and feature: the neighbour sum times that reciprocal. -/
theorem meanK2_apply (h : Feat) (src dst : Edges4) (n : Fin 500000) (k : Fin 10) :
    meanK2 h src dst (invDeg4 dst) (ix2 n k)
      = nbrSum h (row2 src) (row2 dst) (ix2 n k) * Ideal.div (Ideal.ofBits .f32 0x3F800000#32) (max (degOf (row2 dst) (ix1 n)) (Ideal.ofBits .f32 0x3F800000#32)) := by
  unfold meanK2
  rw [mulf_apply, slabAt2]

/-- Column 10·2 + k of the 40 mean columns is relation 2's column k. -/
theorem meanCat_at2 (h : Feat) (src dst : Edges4) (d45 : FVec Ideal S4x500000x1 .f32) (n : Fin 500000) (k : Fin 10) :
    meanCat h src dst d45 (ix2 n (col 2 k)) = meanK2 h src dst d45 (ix2 n k) := by
  unfold meanCat
  exact concatenate_apply_piece (t := S500000x40) (1 : Fin S500000x40.rank) ([⟨S500000x10, meanK0 h src dst d45⟩, ⟨S500000x10, meanK1 h src dst d45⟩, ⟨S500000x10, meanK2 h src dst d45⟩, ⟨S500000x10, meanK3 h src dst d45⟩] : List ((s : Shape) × (s.Idx → EReal))) concatenates_S500000x10_S500000x10_S500000x10_S500000x10_S500000x40_d1 (ix2 n (col 2 k)) 2 (show (2 : ℕ) < 4 by omega)
    S500000x10 (meanK2 h src dst d45) rfl rfl 20 rfl (ix2 n k) (fun b hb => by
      match b with
      | ⟨0, _⟩ => rfl
      | ⟨1, _⟩ => exact absurd rfl hb) rfl

/-- Relation 3's reciprocal of max(degree, 1) at node `n`, read out of the stacked slab spread over the ten features. -/
theorem slabAt3 (dst : Edges4) (n : Fin 500000) (k : Fin 10) :
    broadcastInDim S500000x10 ![0, 1] bcast_S500000x1_S500000x10_0_1 (shapeCast S500000x1 (extractStridedSlice S1x500000x1 ![3, 0, 0] (invDeg4 dst) slices_S4x500000x1_S1x500000x1_3_0_0) shapeCasts_S1x500000x1_S500000x1) (ix2 n k)
      = Ideal.div (Ideal.ofBits .f32 0x3F800000#32) (max (degOf (row3 dst) (ix1 n)) (Ideal.ofBits .f32 0x3F800000#32)) := by
  rw [broadcastInDim_apply ![0, 1] bcast_S500000x1_S500000x10_0_1 _ (ix2 n k) (ix2 n (0 : Fin 1)) (fun a => by
    match a with
    | ⟨0, _⟩ => rfl
    | ⟨1, _⟩ => rfl)]
  rw [shapeCast_1ab_ab_apply]
  rw [extractStridedSlice_apply ![3, 0, 0] (invDeg4 dst) slices_S4x500000x1_S1x500000x1_3_0_0 (ix3 (0 : Fin 1) n (0 : Fin 1)) (ix3 (3 : Fin 4) n (0 : Fin 1)) (fun a => by
    match a with
    | ⟨0, _⟩ => rfl
    | ⟨1, _⟩ => exact (Nat.zero_add _).symm
    | ⟨2, _⟩ => rfl)]
  unfold invDeg4
  rw [concatenate_apply_piece (t := S4x500000x1) (0 : Fin S4x500000x1.rank) ([⟨S1x500000x1, invSlab (row0 dst)⟩, ⟨S1x500000x1, invSlab (row1 dst)⟩, ⟨S1x500000x1, invSlab (row2 dst)⟩, ⟨S1x500000x1, invSlab (row3 dst)⟩] : List ((s : Shape) × (s.Idx → EReal))) concatenates_S1x500000x1_S1x500000x1_S1x500000x1_S1x500000x1_S4x500000x1_d0 (ix3 (3 : Fin 4) n (0 : Fin 1)) 3 (show (3 : ℕ) < 4 by omega)
    S1x500000x1 (invSlab (row3 dst)) rfl rfl 3 rfl (ix3 (0 : Fin 1) n (0 : Fin 1)) (fun b hb => by
      match b with
      | ⟨0, _⟩ => exact absurd rfl hb
      | ⟨1, _⟩ => rfl
      | ⟨2, _⟩ => rfl) rfl]
  unfold invSlab
  rw [broadcastInDim_apply ![1, 2] bcast_S500000x1_S1x500000x1_1_2 _ (ix3 (0 : Fin 1) n (0 : Fin 1)) (ix2 n (0 : Fin 1)) (fun a => by
    match a with
    | ⟨0, _⟩ => rfl
    | ⟨1, _⟩ => rfl)]
  rw [broadcastInDim_apply ![0] bcast_S500000_S500000x1_0 _ (ix2 n (0 : Fin 1)) (ix1 n) (fun a => by
    match a with
    | ⟨0, _⟩ => rfl)]
  rw [hostDivf_at]
  rw [broadcastInDim_apply ![] bcast_S_S500000 _ (ix1 n) ix0 (fun a => a.elim0), constant_apply]
  unfold degMax
  rw [maximumf_apply, broadcastInDim_apply ![] bcast_S_S500000 _ (ix1 n) ix0 (fun a => a.elim0), constant_apply]

/-- Relation 3's mean as the kernel's program forms it, at a node and feature: the neighbour sum times that reciprocal. -/
theorem meanK3_apply (h : Feat) (src dst : Edges4) (n : Fin 500000) (k : Fin 10) :
    meanK3 h src dst (invDeg4 dst) (ix2 n k)
      = nbrSum h (row3 src) (row3 dst) (ix2 n k) * Ideal.div (Ideal.ofBits .f32 0x3F800000#32) (max (degOf (row3 dst) (ix1 n)) (Ideal.ofBits .f32 0x3F800000#32)) := by
  unfold meanK3
  rw [mulf_apply, slabAt3]

/-- Column 10·3 + k of the 40 mean columns is relation 3's column k. -/
theorem meanCat_at3 (h : Feat) (src dst : Edges4) (d45 : FVec Ideal S4x500000x1 .f32) (n : Fin 500000) (k : Fin 10) :
    meanCat h src dst d45 (ix2 n (col 3 k)) = meanK3 h src dst d45 (ix2 n k) := by
  unfold meanCat
  exact concatenate_apply_piece (t := S500000x40) (1 : Fin S500000x40.rank) ([⟨S500000x10, meanK0 h src dst d45⟩, ⟨S500000x10, meanK1 h src dst d45⟩, ⟨S500000x10, meanK2 h src dst d45⟩, ⟨S500000x10, meanK3 h src dst d45⟩] : List ((s : Shape) × (s.Idx → EReal))) concatenates_S500000x10_S500000x10_S500000x10_S500000x10_S500000x40_d1 (ix2 n (col 3 k)) 3 (show (3 : ℕ) < 4 by omega)
    S500000x10 (meanK3 h src dst d45) rfl rfl 30 rfl (ix2 n k) (fun b hb => by
      match b with
      | ⟨0, _⟩ => rfl
      | ⟨1, _⟩ => exact absurd rfl hb) rfl

end Cert.KernelIdeal.Values

end
-- ==== Proof.RefLayer.lean ====
/-
  The reference's layer, spelt as it is printed: per relation a division of the neighbour sums by max(degree, 1), two
  products with transposed weight matrices and a bias row, added in order from zero; and that structure read at a node
  and an output feature.
-/
import proofs.«163996_j25580825215696_1_alg».proof.Proof.Gen.ReferenceIdeal.Run
import proofs.«163996_j25580825215696_1_alg».proof.Proof.SageSpec
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value
import Idealize.ShloMosaic.PureOps.Ideal.Laws

set_option maxRecDepth 16384

noncomputable section

namespace Cert.ReferenceIdeal.RefValues

open Idealize.ShloMosaic Idealize.ShloMosaic.ValueIdx Idealize.ShloMosaic.TcCoe Idealize.ShloMosaic.StableHlo
open Cert.ReferenceIdeal Cert.ReferenceIdeal.Gen Cert.ReferenceIdeal.Value

abbrev Feat := FVec Ideal S500000x10 .f32
abbrev Edges4 := IVec S4x2000000 32
abbrev Edges := IVec S2000000 32
abbrev NodeVec := FVec Ideal S500000 .f32
abbrev Mats := FVec Ideal S4x10x10 .f32
abbrev Rows := FVec Ideal S4x10 .f32

def row0 (a : Edges4) : Edges :=
  shapeCast _ (extractStridedSlice S1x2000000 ![0, 0] a slices_S4x2000000_S1x2000000_0_0) shapeCasts_S1x2000000_S2000000
def row1 (a : Edges4) : Edges :=
  shapeCast _ (extractStridedSlice S1x2000000 ![1, 0] a slices_S4x2000000_S1x2000000_1_0) shapeCasts_S1x2000000_S2000000
def row2 (a : Edges4) : Edges :=
  shapeCast _ (extractStridedSlice S1x2000000 ![2, 0] a slices_S4x2000000_S1x2000000_2_0) shapeCasts_S1x2000000_S2000000
def row3 (a : Edges4) : Edges :=
  shapeCast _ (extractStridedSlice S1x2000000 ![3, 0] a slices_S4x2000000_S1x2000000_3_0) shapeCasts_S1x2000000_S2000000

def wrapIdx (raw : Edges) : Edges :=
  select (cmpi .slt raw (broadcastInDim S2000000 ![] bcast_S_S2000000 (constantI S_ 32 0#32))) (addi raw (broadcastInDim S2000000 ![] bcast_S_S2000000 (constantI S_ 32 500000#32))) raw

def gatherAt (h : Feat) (raw : Edges) : FVec Ideal S2000000x10 .f32 :=
  Host.gather gather_S500000x10_S2000000x1_S2000000x10_1_0_n_n_0_1_110 h (broadcastInDim S2000000x1 ![0] bcast_S2000000_S2000000x1_0 (wrapIdx raw))

def nbrSum (h : Feat) (srcRaw dstRaw : Edges) : Feat :=
  Host.scatterAdd scatter_S500000x10_S2000000x1_S2000000x10_1_0_0_1 (broadcastInDim S500000x10 ![] bcast_S_S500000x10 (constant S_ .f32 0x00000000#32)) (broadcastInDim S2000000x1 ![0] bcast_S2000000_S2000000x1_0 dstRaw) (gatherAt h srcRaw)

def degOf (dstRaw : Edges) : NodeVec :=
  Host.scatterAdd scatter_S500000_S2000000x1_S2000000_n_0_0_1 (broadcastInDim S500000 ![] bcast_S_S500000 (constant S_ .f32 0x00000000#32)) (broadcastInDim S2000000x1 ![0] bcast_S2000000_S2000000x1_0 dstRaw) (broadcastInDim S2000000 ![] bcast_S_S2000000 (constant S_ .f32 0x3F800000#32))

def degMax (dstRaw : Edges) : NodeVec :=
  maximumf (degOf dstRaw) (broadcastInDim S500000 ![] bcast_S_S500000 (constant S_ .f32 0x3F800000#32))

/-- The reference's mean: the neighbour sums divided by max(degree, 1), the divisor spread over the ten features. -/
def meanR (h : Feat) (srcRaw dstRaw : Edges) : Feat :=
  Host.divf (nbrSum h srcRaw dstRaw) (broadcastInDim S500000x10 ![0, 1] bcast_S500000x1_S500000x10_0_1 (broadcastInDim S500000x1 ![0] bcast_S500000_S500000x1_0 (degMax dstRaw)))

/-- Relation 0's share added to a running total. -/
def rel0 (acc h mean : Feat) (ws wn : Mats) (b : Rows) : Feat :=
  addf (addf (addf acc (Host.dotGeneral dot_S500000x10_S10x10_S500000x10_1_0_0_1_n_n none h (transpose S10x10 [1, 0] (shapeCast _ (extractStridedSlice S1x10x10 ![0, 0, 0] ws slices_S4x10x10_S1x10x10_0_0_0) shapeCasts_S1x10x10_S10x10) transposes_S10x10_S10x10_1_0))) (Host.dotGeneral dot_S500000x10_S10x10_S500000x10_1_0_0_1_n_n none mean (transpose S10x10 [1, 0] (shapeCast _ (extractStridedSlice S1x10x10 ![0, 0, 0] wn slices_S4x10x10_S1x10x10_0_0_0) shapeCasts_S1x10x10_S10x10) transposes_S10x10_S10x10_1_0))) (broadcastInDim S500000x10 ![0, 1] bcast_S1x10_S500000x10_0_1 (broadcastInDim S1x10 ![1] bcast_S10_S1x10_1 (shapeCast _ (extractStridedSlice S1x10 ![0, 0] b slices_S4x10_S1x10_0_0) shapeCasts_S1x10_S10)))
/-- Relation 1's share added to a running total. -/
def rel1 (acc h mean : Feat) (ws wn : Mats) (b : Rows) : Feat :=
  addf (addf (addf acc (Host.dotGeneral dot_S500000x10_S10x10_S500000x10_1_0_0_1_n_n none h (transpose S10x10 [1, 0] (shapeCast _ (extractStridedSlice S1x10x10 ![1, 0, 0] ws slices_S4x10x10_S1x10x10_1_0_0) shapeCasts_S1x10x10_S10x10) transposes_S10x10_S10x10_1_0))) (Host.dotGeneral dot_S500000x10_S10x10_S500000x10_1_0_0_1_n_n none mean (transpose S10x10 [1, 0] (shapeCast _ (extractStridedSlice S1x10x10 ![1, 0, 0] wn slices_S4x10x10_S1x10x10_1_0_0) shapeCasts_S1x10x10_S10x10) transposes_S10x10_S10x10_1_0))) (broadcastInDim S500000x10 ![0, 1] bcast_S1x10_S500000x10_0_1 (broadcastInDim S1x10 ![1] bcast_S10_S1x10_1 (shapeCast _ (extractStridedSlice S1x10 ![1, 0] b slices_S4x10_S1x10_1_0) shapeCasts_S1x10_S10)))
/-- Relation 2's share added to a running total. -/
def rel2 (acc h mean : Feat) (ws wn : Mats) (b : Rows) : Feat :=
  addf (addf (addf acc (Host.dotGeneral dot_S500000x10_S10x10_S500000x10_1_0_0_1_n_n none h (transpose S10x10 [1, 0] (shapeCast _ (extractStridedSlice S1x10x10 ![2, 0, 0] ws slices_S4x10x10_S1x10x10_2_0_0) shapeCasts_S1x10x10_S10x10) transposes_S10x10_S10x10_1_0))) (Host.dotGeneral dot_S500000x10_S10x10_S500000x10_1_0_0_1_n_n none mean (transpose S10x10 [1, 0] (shapeCast _ (extractStridedSlice S1x10x10 ![2, 0, 0] wn slices_S4x10x10_S1x10x10_2_0_0) shapeCasts_S1x10x10_S10x10) transposes_S10x10_S10x10_1_0))) (broadcastInDim S500000x10 ![0, 1] bcast_S1x10_S500000x10_0_1 (broadcastInDim S1x10 ![1] bcast_S10_S1x10_1 (shapeCast _ (extractStridedSlice S1x10 ![2, 0] b slices_S4x10_S1x10_2_0) shapeCasts_S1x10_S10)))
/-- Relation 3's share added to a running total. -/
def rel3 (acc h mean : Feat) (ws wn : Mats) (b : Rows) : Feat :=
  addf (addf (addf acc (Host.dotGeneral dot_S500000x10_S10x10_S500000x10_1_0_0_1_n_n none h (transpose S10x10 [1, 0] (shapeCast _ (extractStridedSlice S1x10x10 ![3, 0, 0] ws slices_S4x10x10_S1x10x10_3_0_0) shapeCasts_S1x10x10_S10x10) transposes_S10x10_S10x10_1_0))) (Host.dotGeneral dot_S500000x10_S10x10_S500000x10_1_0_0_1_n_n none mean (transpose S10x10 [1, 0] (shapeCast _ (extractStridedSlice S1x10x10 ![3, 0, 0] wn slices_S4x10x10_S1x10x10_3_0_0) shapeCasts_S1x10x10_S10x10) transposes_S10x10_S10x10_1_0))) (broadcastInDim S500000x10 ![0, 1] bcast_S1x10_S500000x10_0_1 (broadcastInDim S1x10 ![1] bcast_S10_S1x10_1 (shapeCast _ (extractStridedSlice S1x10 ![3, 0] b slices_S4x10_S1x10_3_0) shapeCasts_S1x10_S10)))

/-- The reference's layer. -/
def layerR (h : Feat) (src dst : Edges4) (ws wn : Mats) (b : Rows) : Feat :=
  rel3 (rel2 (rel1 (rel0 (broadcastInDim S500000x10 ![] bcast_S_S500000x10 (constant S_ .f32 0x00000000#32)) h (meanR h (row0 src) (row0 dst)) ws wn b)
    h (meanR h (row1 src) (row1 dst)) ws wn b) h (meanR h (row2 src) (row2 dst)) ws wn b) h (meanR h (row3 src) (row3 dst)) ws wn b

/-- The reference's scores of edges with raw end-point indices `a`, `b`. -/
def scoreR (h : Feat) (a b : Edges) : FVec Ideal S2000000 .f32 :=
  Host.reduceAdd (mulf (gatherAt h a) (gatherAt h b)) (constant S_ .f32 0x00000000#32) reducesTo_S2000000x10_S2000000_d1 h_S_

/-- The run's first-layer output is the layer of the arguments. -/
theorem res157_eq (V0 : Valuation τ sig (Elt Ideal)) :
    res_main_v157 V0 = layerR (V0 (Proc.devRef .tc main_arg0)) (V0 (Proc.devRef .tc main_arg1)) (V0 (Proc.devRef .tc main_arg2))
      (V0 (Proc.devRef .tc main_arg5)) (V0 (Proc.devRef .tc main_arg6)) (V0 (Proc.devRef .tc main_arg7)) := by
  unfold res_main_v157 res_main_v152 res_main_v74 res_main_v8 res_main_v47 res_main_v86 res_main_v125 res_main_v1
  rfl

/-- The run's second-layer output is the layer of the first-layer output. -/
theorem res315_eq (V0 : Valuation τ sig (Elt Ideal)) :
    res_main_v315 V0 = layerR (res_main_v157 V0) (V0 (Proc.devRef .tc main_arg1)) (V0 (Proc.devRef .tc main_arg2))
      (V0 (Proc.devRef .tc main_arg8)) (V0 (Proc.devRef .tc main_arg9)) (V0 (Proc.devRef .tc main_arg10)) := by
  unfold res_main_v315 res_main_v310 res_main_v232 res_main_v166 res_main_v205 res_main_v244 res_main_v283 res_main_v159
  rfl

/-! ## The layer read at a node and an output feature -/

theorem dot_all (lhs : (⟨2, ![500000, 10]⟩ : Shape).Idx → EReal) (rhs : (⟨2, ![10, 10]⟩ : Shape).Idx → EReal) (p : Fin 500000) (q : Fin 10) :
    (∑ k : Cert.ReferenceIdeal.dot_S500000x10_S10x10_S500000x10_1_0_0_1_n_n.contr.Idx, lhs (Cert.ReferenceIdeal.dot_S500000x10_S10x10_S500000x10_1_0_0_1_n_n.lhsIdx (ix2 p q) k) * rhs (Cert.ReferenceIdeal.dot_S500000x10_S10x10_S500000x10_1_0_0_1_n_n.rhsIdx (ix2 p q) k))
    = ∑ k : Fin 10, lhs (ix2 p k) * rhs (ix2 k q) := by
  rw [← Equiv.sum_comp (contrEquiv1 Cert.ReferenceIdeal.dot_S500000x10_S10x10_S500000x10_1_0_0_1_n_n 10 rfl rfl).symm]
  refine Finset.sum_congr rfl fun k _ => ?_
  congr 2
  · funext a; match a with
    | ⟨0, _⟩ => rfl
    | ⟨1, _⟩ => exact Fin.ext ((Cert.ReferenceIdeal.dot_S500000x10_S10x10_S500000x10_1_0_0_1_n_n.lhsIdx_val_of_single (cl := ⟨1, by decide⟩) rfl (ix2 p q) _).trans
        (contrEquiv1_symm_val Cert.ReferenceIdeal.dot_S500000x10_S10x10_S500000x10_1_0_0_1_n_n 10 rfl rfl k))
  · funext a; match a with
    | ⟨0, _⟩ => exact Fin.ext ((Cert.ReferenceIdeal.dot_S500000x10_S10x10_S500000x10_1_0_0_1_n_n.rhsIdx_val_of_single (cr := ⟨0, by decide⟩) rfl (ix2 p q) _).trans
        (contrEquiv1_symm_val Cert.ReferenceIdeal.dot_S500000x10_S10x10_S500000x10_1_0_0_1_n_n 10 rfl rfl k))
    | ⟨1, _⟩ => rfl

/-- A product of the features with the transpose of a 10×10 matrix: row `n` against row `j` of the matrix. -/
theorem dotT (lhs : Feat) (w : FVec Ideal S10x10 .f32) (n : Fin 500000) (j : Fin 10) :
    Host.dotGeneral dot_S500000x10_S10x10_S500000x10_1_0_0_1_n_n none lhs (transpose S10x10 [1, 0] w transposes_S10x10_S10x10_1_0) (ix2 n j)
      = ∑ k : Fin 10, lhs (ix2 n k) * w (ix2 j k) := by
  simp only [Host.dotGeneral]
  rw [Ideal.dotGeneral_apply, dot_all]
  refine Finset.sum_congr rfl fun k _ => ?_
  rw [transpose_ix2_apply]

/-- Matrix 0 of a stack of four, its unit axis dropped: entry (j, k). -/
theorem matAt0 (ws : Mats) (j k : Fin 10) :
    shapeCast S10x10 (extractStridedSlice S1x10x10 ![0, 0, 0] ws slices_S4x10x10_S1x10x10_0_0_0) shapeCasts_S1x10x10_S10x10 (ix2 j k) = ws (ix3 (0 : Fin 4) j k) := by
  rw [shapeCast_1ab_ab_apply]
  refine extractStridedSlice_apply _ _ _ _ (ix3 (0 : Fin 4) j k) fun a => ?_
  match a with
  | ⟨0, _⟩ => rfl
  | ⟨1, _⟩ => exact (Nat.zero_add _).symm
  | ⟨2, _⟩ => exact (Nat.zero_add _).symm

/-- Bias row 0 spread over the nodes: entry j. -/
theorem biasAt0 (b : Rows) (n : Fin 500000) (j : Fin 10) :
    broadcastInDim S500000x10 ![0, 1] bcast_S1x10_S500000x10_0_1 (broadcastInDim S1x10 ![1] bcast_S10_S1x10_1
      (shapeCast S10 (extractStridedSlice S1x10 ![0, 0] b slices_S4x10_S1x10_0_0) shapeCasts_S1x10_S10)) (ix2 n j) = b (ix2 (0 : Fin 4) j) := by
  rw [broadcastInDim_oneRow_apply]
  rw [broadcastInDim_apply ![1] bcast_S10_S1x10_1 _ (ix2 (0 : Fin 1) j) (ix1 j) (fun a => by
    match a with
    | ⟨0, _⟩ => rfl)]
  rw [shapeCast_1a_a_apply]
  exact slice2_axis0_apply 0 b slices_S4x10_S1x10_0_0 (0 : Fin 1) j (0 : Fin 4) rfl

/-- Relation 0's share at a node and feature. -/
theorem rel0_apply (acc h mean : Feat) (ws wn : Mats) (b : Rows) (n : Fin 500000) (j : Fin 10) :
    rel0 acc h mean ws wn b (ix2 n j)
      = Cert.Sage.relStep (fun k => h (ix2 n k)) (fun k => mean (ix2 n k)) (fun k => ws (ix3 (0 : Fin 4) j k)) (fun k => wn (ix3 (0 : Fin 4) j k)) (b (ix2 (0 : Fin 4) j)) (acc (ix2 n j)) := by
  unfold rel0
  simp only [addf_apply]
  rw [dotT, dotT, biasAt0]
  simp only [matAt0]
  rfl

/-- Matrix 1 of a stack of four, its unit axis dropped: entry (j, k). -/
theorem matAt1 (ws : Mats) (j k : Fin 10) :
    shapeCast S10x10 (extractStridedSlice S1x10x10 ![1, 0, 0] ws slices_S4x10x10_S1x10x10_1_0_0) shapeCasts_S1x10x10_S10x10 (ix2 j k) = ws (ix3 (1 : Fin 4) j k) := by
  rw [shapeCast_1ab_ab_apply]
  refine extractStridedSlice_apply _ _ _ _ (ix3 (1 : Fin 4) j k) fun a => ?_
  match a with
  | ⟨0, _⟩ => rfl
  | ⟨1, _⟩ => exact (Nat.zero_add _).symm
  | ⟨2, _⟩ => exact (Nat.zero_add _).symm

/-- Bias row 1 spread over the nodes: entry j. -/
theorem biasAt1 (b : Rows) (n : Fin 500000) (j : Fin 10) :
    broadcastInDim S500000x10 ![0, 1] bcast_S1x10_S500000x10_0_1 (broadcastInDim S1x10 ![1] bcast_S10_S1x10_1
      (shapeCast S10 (extractStridedSlice S1x10 ![1, 0] b slices_S4x10_S1x10_1_0) shapeCasts_S1x10_S10)) (ix2 n j) = b (ix2 (1 : Fin 4) j) := by
  rw [broadcastInDim_oneRow_apply]
  rw [broadcastInDim_apply ![1] bcast_S10_S1x10_1 _ (ix2 (0 : Fin 1) j) (ix1 j) (fun a => by
    match a with
    | ⟨0, _⟩ => rfl)]
  rw [shapeCast_1a_a_apply]
  exact slice2_axis0_apply 1 b slices_S4x10_S1x10_1_0 (0 : Fin 1) j (1 : Fin 4) rfl

/-- Relation 1's share at a node and feature. -/
theorem rel1_apply (acc h mean : Feat) (ws wn : Mats) (b : Rows) (n : Fin 500000) (j : Fin 10) :
    rel1 acc h mean ws wn b (ix2 n j)
      = Cert.Sage.relStep (fun k => h (ix2 n k)) (fun k => mean (ix2 n k)) (fun k => ws (ix3 (1 : Fin 4) j k)) (fun k => wn (ix3 (1 : Fin 4) j k)) (b (ix2 (1 : Fin 4) j)) (acc (ix2 n j)) := by
  unfold rel1
  simp only [addf_apply]
  rw [dotT, dotT, biasAt1]
  simp only [matAt1]
  rfl

/-- Matrix 2 of a stack of four, its unit axis dropped: entry (j, k). -/
theorem matAt2 (ws : Mats) (j k : Fin 10) :
    shapeCast S10x10 (extractStridedSlice S1x10x10 ![2, 0, 0] ws slices_S4x10x10_S1x10x10_2_0_0) shapeCasts_S1x10x10_S10x10 (ix2 j k) = ws (ix3 (2 : Fin 4) j k) := by
  rw [shapeCast_1ab_ab_apply]
  refine extractStridedSlice_apply _ _ _ _ (ix3 (2 : Fin 4) j k) fun a => ?_
  match a with
  | ⟨0, _⟩ => rfl
  | ⟨1, _⟩ => exact (Nat.zero_add _).symm
  | ⟨2, _⟩ => exact (Nat.zero_add _).symm

/-- Bias row 2 spread over the nodes: entry j. -/
theorem biasAt2 (b : Rows) (n : Fin 500000) (j : Fin 10) :
    broadcastInDim S500000x10 ![0, 1] bcast_S1x10_S500000x10_0_1 (broadcastInDim S1x10 ![1] bcast_S10_S1x10_1
      (shapeCast S10 (extractStridedSlice S1x10 ![2, 0] b slices_S4x10_S1x10_2_0) shapeCasts_S1x10_S10)) (ix2 n j) = b (ix2 (2 : Fin 4) j) := by
  rw [broadcastInDim_oneRow_apply]
  rw [broadcastInDim_apply ![1] bcast_S10_S1x10_1 _ (ix2 (0 : Fin 1) j) (ix1 j) (fun a => by
    match a with
    | ⟨0, _⟩ => rfl)]
  rw [shapeCast_1a_a_apply]
  exact slice2_axis0_apply 2 b slices_S4x10_S1x10_2_0 (0 : Fin 1) j (2 : Fin 4) rfl

/-- Relation 2's share at a node and feature. -/
theorem rel2_apply (acc h mean : Feat) (ws wn : Mats) (b : Rows) (n : Fin 500000) (j : Fin 10) :
    rel2 acc h mean ws wn b (ix2 n j)
      = Cert.Sage.relStep (fun k => h (ix2 n k)) (fun k => mean (ix2 n k)) (fun k => ws (ix3 (2 : Fin 4) j k)) (fun k => wn (ix3 (2 : Fin 4) j k)) (b (ix2 (2 : Fin 4) j)) (acc (ix2 n j)) := by
  unfold rel2
  simp only [addf_apply]
  rw [dotT, dotT, biasAt2]
  simp only [matAt2]
  rfl

/-- Matrix 3 of a stack of four, its unit axis dropped: entry (j, k). -/
theorem matAt3 (ws : Mats) (j k : Fin 10) :
    shapeCast S10x10 (extractStridedSlice S1x10x10 ![3, 0, 0] ws slices_S4x10x10_S1x10x10_3_0_0) shapeCasts_S1x10x10_S10x10 (ix2 j k) = ws (ix3 (3 : Fin 4) j k) := by
  rw [shapeCast_1ab_ab_apply]
  refine extractStridedSlice_apply _ _ _ _ (ix3 (3 : Fin 4) j k) fun a => ?_
  match a with
  | ⟨0, _⟩ => rfl
  | ⟨1, _⟩ => exact (Nat.zero_add _).symm
  | ⟨2, _⟩ => exact (Nat.zero_add _).symm

/-- Bias row 3 spread over the nodes: entry j. -/
theorem biasAt3 (b : Rows) (n : Fin 500000) (j : Fin 10) :
    broadcastInDim S500000x10 ![0, 1] bcast_S1x10_S500000x10_0_1 (broadcastInDim S1x10 ![1] bcast_S10_S1x10_1
      (shapeCast S10 (extractStridedSlice S1x10 ![3, 0] b slices_S4x10_S1x10_3_0) shapeCasts_S1x10_S10)) (ix2 n j) = b (ix2 (3 : Fin 4) j) := by
  rw [broadcastInDim_oneRow_apply]
  rw [broadcastInDim_apply ![1] bcast_S10_S1x10_1 _ (ix2 (0 : Fin 1) j) (ix1 j) (fun a => by
    match a with
    | ⟨0, _⟩ => rfl)]
  rw [shapeCast_1a_a_apply]
  exact slice2_axis0_apply 3 b slices_S4x10_S1x10_3_0 (0 : Fin 1) j (3 : Fin 4) rfl

/-- Relation 3's share at a node and feature. -/
theorem rel3_apply (acc h mean : Feat) (ws wn : Mats) (b : Rows) (n : Fin 500000) (j : Fin 10) :
    rel3 acc h mean ws wn b (ix2 n j)
      = Cert.Sage.relStep (fun k => h (ix2 n k)) (fun k => mean (ix2 n k)) (fun k => ws (ix3 (3 : Fin 4) j k)) (fun k => wn (ix3 (3 : Fin 4) j k)) (b (ix2 (3 : Fin 4) j)) (acc (ix2 n j)) := by
  unfold rel3
  simp only [addf_apply]
  rw [dotT, dotT, biasAt3]
  simp only [matAt3]
  rfl

/-- The host's quotient of two arrays at an index is the quotient of the entries. -/
theorem hostDivf_at {s : Shape} {φ : FTy} (a b : FVec Ideal s φ) (i : s.Idx) : Host.divf a b i = Ideal.div (a i) (b i) := rfl

/-- The reference's mean at a node and feature: the neighbour sum over max(degree, 1). -/
theorem meanR_apply (h : Feat) (s d : Edges) (n : Fin 500000) (k : Fin 10) :
    meanR h s d (ix2 n k) = Ideal.div (nbrSum h s d (ix2 n k)) (max (degOf d (ix1 n)) (Ideal.ofBits .f32 0x3F800000#32)) := by
  unfold meanR
  rw [hostDivf_at]
  rw [broadcastInDim_apply ![0, 1] bcast_S500000x1_S500000x10_0_1 _ (ix2 n k) (ix2 n (0 : Fin 1)) (fun a => by
    match a with
    | ⟨0, _⟩ => rfl
    | ⟨1, _⟩ => rfl)]
  rw [broadcastInDim_apply ![0] bcast_S500000_S500000x1_0 _ (ix2 n (0 : Fin 1)) (ix1 n) (fun a => by
    match a with
    | ⟨0, _⟩ => rfl)]
  unfold degMax
  rw [maximumf_apply]
  rw [broadcastInDim_apply ![] bcast_S_S500000 _ (ix1 n) ix0 (fun a => a.elim0)]
  rw [constant_apply]

/-- The reference's layer at a node and feature: the node formula with the quotient means. -/
theorem layerR_apply (h : Feat) (src dst : Edges4) (ws wn : Mats) (b : Rows) (n : Fin 500000) (j : Fin 10) :
    layerR h src dst ws wn b (ix2 n j)
      = Cert.Sage.nodeOut (fun k => h (ix2 n k))
          (fun r k => match r with
            | ⟨0, _⟩ => meanR h (row0 src) (row0 dst) (ix2 n k)
            | ⟨1, _⟩ => meanR h (row1 src) (row1 dst) (ix2 n k)
            | ⟨2, _⟩ => meanR h (row2 src) (row2 dst) (ix2 n k)
            | ⟨3, _⟩ => meanR h (row3 src) (row3 dst) (ix2 n k))
          (fun r k => ws (ix3 r j k)) (fun r k => wn (ix3 r j k)) (fun r => b (ix2 r j)) := by
  unfold layerR
  rw [rel3_apply, rel2_apply, rel1_apply, rel0_apply]
  rw [broadcastInDim_apply ![] bcast_S_S500000x10 _ (ix2 n j) ix0 (fun a => a.elim0), constant_apply, Ideal.ofBits_zero_f32]
  unfold Cert.Sage.nodeOut
  rfl

/-- The reference's score of edge `e`: the sum over the ten features of the products of the two gathered rows. -/
theorem scoreR_apply (h : Feat) (a b : Edges) (e : Fin 2000000) :
    scoreR h a b (ix1 e) = ∑ k : Fin 10, gatherAt h a (ix2 e k) * gatherAt h b (ix2 e k) := by
  unfold scoreR
  rw [hostReduceAdd_apply, Ideal.hostReduceAdd_single reducesTo_S2000000x10_S2000000_d1 (by decide : S2000000x10.Reduces [1] S2000000), constant_apply, Ideal.ofBits_zero_f32, zero_add]
  refine Finset.sum_congr rfl fun k _ => ?_
  rw [show Shape.Reduces.lift (by decide : S2000000x10.Reduces [1] S2000000) (ix1 e) k = ix2 e k from by
    funext a
    match a with
    | ⟨0, _⟩ => rfl
    | ⟨1, _⟩ => rfl]
  rfl

end Cert.ReferenceIdeal.RefValues

end
-- ==== Proof.ScoreAtIndex.lean ====
/-
  The kernel program's scores at an edge: the two slices pick an entry of the score vector, whose row of the padded
  concatenation is, below 2000000, the row of the first gathered array and, from 2000000 on, of the second.
-/
import proofs.«163996_j25580825215696_1_alg».proof.Proof.HostStretches
import proofs.«163996_j25580825215696_1_alg».proof.Proof.ScoreArray

set_option maxRecDepth 16384

noncomputable section

namespace Cert.KernelIdeal.Values

open Idealize.ShloMosaic Idealize.ShloMosaic.ValueIdx Idealize.ShloMosaic.TcCoe Idealize.ShloMosaic.StableHlo
open Cert.KernelIdeal Cert.KernelIdeal.Gen Cert.KernelIdeal.Regions

/-- Below the first array's length, a row of the padded concatenation is the first array's row. -/
theorem padCat_left (G1 G2 : FVec Ideal S2000000x10 .f32) (z : FVec Ideal S_ .f32) (e : Fin 2000000) (k : Fin 10) :
    pad S4001792x10 ![0, 0] ![1792, 0] ![0, 0] (concatenate S4000000x10 0 [⟨S2000000x10, G1⟩, ⟨S2000000x10, G2⟩] concatenates_S2000000x10_S2000000x10_S4000000x10_d0) z pads_S4000000x10_S4001792x10_017920_000 h_S_
      (ix2 (⟨e.val, by have := e.isLt; omega⟩ : Fin 4001792) k) = G1 (ix2 e k) := by
  rw [pad_apply_of_inside ![0, 0] ![1792, 0] ![0, 0] _ z pads_S4000000x10_S4001792x10_017920_000 h_S_ (ix2 (⟨e.val, by have := e.isLt; omega⟩ : Fin 4001792) k)
    (ix2 (⟨e.val, by have := e.isLt; omega⟩ : Fin 4000000) k) (fun a => by
      match a with
      | ⟨0, _⟩ => show e.val = 0 + e.val * (0 + 1); omega
      | ⟨1, _⟩ => show k.val = 0 + k.val * (0 + 1); omega)]
  exact concatenate_pair_apply_left (t := S4000000x10) (0 : Fin S4000000x10.rank) G1 G2 concatenates_S2000000x10_S2000000x10_S4000000x10_d0 _ rfl (ix2 e k) (fun b => by
    match b with
    | ⟨0, _⟩ => rfl
    | ⟨1, _⟩ => rfl)

/-- From the first array's length on, it is the second array's row. -/
theorem padCat_right (G1 G2 : FVec Ideal S2000000x10 .f32) (z : FVec Ideal S_ .f32) (e : Fin 2000000) (k : Fin 10) :
    pad S4001792x10 ![0, 0] ![1792, 0] ![0, 0] (concatenate S4000000x10 0 [⟨S2000000x10, G1⟩, ⟨S2000000x10, G2⟩] concatenates_S2000000x10_S2000000x10_S4000000x10_d0) z pads_S4000000x10_S4001792x10_017920_000 h_S_
      (ix2 (⟨2000000 + e.val, by have := e.isLt; omega⟩ : Fin 4001792) k) = G2 (ix2 e k) := by
  rw [pad_apply_of_inside ![0, 0] ![1792, 0] ![0, 0] _ z pads_S4000000x10_S4001792x10_017920_000 h_S_ (ix2 (⟨2000000 + e.val, by have := e.isLt; omega⟩ : Fin 4001792) k)
    (ix2 (⟨2000000 + e.val, by have := e.isLt; omega⟩ : Fin 4000000) k) (fun a => by
      match a with
      | ⟨0, _⟩ => show 2000000 + e.val = 0 + (2000000 + e.val) * (0 + 1); omega
      | ⟨1, _⟩ => show k.val = 0 + k.val * (0 + 1); omega)]
  exact concatenate_pair_apply_right (t := S4000000x10) (0 : Fin S4000000x10.rank) G1 G2 concatenates_S2000000x10_S2000000x10_S4000000x10_d0 _ rfl rfl (ix2 e k) (fun b hb => by
    match b with
    | ⟨0, _⟩ => exact absurd rfl hb
    | ⟨1, _⟩ => rfl) (by show e.val + 2000000 = 2000000 + e.val; omega)

/-- The first 2000000 scores: entry `e` of the score vector. -/
theorem scoreFirst (P Q : S4001792x10.Idx → EReal) (e : Fin 2000000) :
    extractStridedSlice S2000000 ![0] (extractStridedSlice S4000000 ![0] (scoreK P Q) slices_S4001792_S4000000_0) slices_S4000000_S2000000_0 (ix1 e)
      = ∑ k : Fin 10, P (ix2 (⟨e.val, by have := e.isLt; omega⟩ : Fin 4001792) k) * Q (ix2 (⟨e.val, by have := e.isLt; omega⟩ : Fin 4001792) k) := by
  rw [extractStridedSlice_apply ![0] _ slices_S4000000_S2000000_0 (ix1 e) (ix1 (⟨e.val, by have := e.isLt; omega⟩ : Fin 4000000)) (fun a => by
    match a with
    | ⟨0, _⟩ => exact (Nat.zero_add _).symm)]
  rw [extractStridedSlice_apply ![0] _ slices_S4001792_S4000000_0 (ix1 (⟨e.val, by have := e.isLt; omega⟩ : Fin 4000000)) (ix1 (⟨e.val, by have := e.isLt; omega⟩ : Fin 4001792)) (fun a => by
    match a with
    | ⟨0, _⟩ => exact (Nat.zero_add _).symm)]
  rfl

/-- The next 2000000 scores: entry `2000000 + e` of the score vector. -/
theorem scoreSecond (P Q : S4001792x10.Idx → EReal) (e : Fin 2000000) :
    extractStridedSlice S2000000 ![2000000] (extractStridedSlice S4000000 ![0] (scoreK P Q) slices_S4001792_S4000000_0) slices_S4000000_S2000000_2000000 (ix1 e)
      = ∑ k : Fin 10, P (ix2 (⟨2000000 + e.val, by have := e.isLt; omega⟩ : Fin 4001792) k) * Q (ix2 (⟨2000000 + e.val, by have := e.isLt; omega⟩ : Fin 4001792) k) := by
  rw [extractStridedSlice_apply ![2000000] _ slices_S4000000_S2000000_2000000 (ix1 e) (ix1 (⟨2000000 + e.val, by have := e.isLt; omega⟩ : Fin 4000000)) (fun a => by
    match a with
    | ⟨0, _⟩ => rfl)]
  rw [extractStridedSlice_apply ![0] _ slices_S4001792_S4000000_0 (ix1 (⟨2000000 + e.val, by have := e.isLt; omega⟩ : Fin 4000000)) (ix1 (⟨2000000 + e.val, by have := e.isLt; omega⟩ : Fin 4001792)) (fun a => by
    match a with
    | ⟨0, _⟩ => exact (Nat.zero_add _).symm)]
  rfl

end Cert.KernelIdeal.Values

end
-- ==== Proof.LayerEq.lean ====
/-
  The kernel's program and the reference compute the same functions of the arguments: the reciprocal law that joins the
  two spellings of a mean, one layer, and the two score vectors.
-/
import proofs.«163996_j25580825215696_1_alg».proof.Proof.MeanAtIndex
import proofs.«163996_j25580825215696_1_alg».proof.Proof.CombineArray
import proofs.«163996_j25580825215696_1_alg».proof.Proof.RefLayer
import proofs.«163996_j25580825215696_1_alg».proof.Proof.ScoreAtIndex
import Idealize.ShloMosaic.PureOps.IdealRules

set_option maxRecDepth 16384

noncomputable section

namespace Cert.Sage.Bridge

open Idealize.ShloMosaic Idealize.ShloMosaic.ValueIdx
open Cert.KernelIdeal Cert.KernelIdeal.Gen

/-- On the extended reals, multiplying by one over max(d, 1) is dividing by max(d, 1): the maximum is at least one, so
    it is not zero, and both sides are then the product with its inverse. -/
theorem mul_recip_eq_div (x d : EReal) :
    x * Ideal.div (Ideal.ofBits .f32 0x3F800000#32) (max d (Ideal.ofBits .f32 0x3F800000#32))
      = Ideal.div x (max d (Ideal.ofBits .f32 0x3F800000#32)) := by
  have h1 : Ideal.ofBits .f32 0x3F800000#32 = 1 := IdealRules.sign_bit.ideal_onePat .f32
  rw [h1]
  have hne : max d 1 ≠ 0 := ne_of_gt (lt_of_lt_of_le zero_lt_one (le_max_right d 1))
  unfold Ideal.div
  rw [if_neg hne, if_neg hne, one_mul]

/-! ## The shared chains are the same functions in the two programs -/

theorem row0_eq (a : Cert.KernelIdeal.Values.Edges4) : Cert.KernelIdeal.Values.row0 a = Cert.ReferenceIdeal.RefValues.row0 a := rfl
theorem row1_eq (a : Cert.KernelIdeal.Values.Edges4) : Cert.KernelIdeal.Values.row1 a = Cert.ReferenceIdeal.RefValues.row1 a := rfl
theorem row2_eq (a : Cert.KernelIdeal.Values.Edges4) : Cert.KernelIdeal.Values.row2 a = Cert.ReferenceIdeal.RefValues.row2 a := rfl
theorem row3_eq (a : Cert.KernelIdeal.Values.Edges4) : Cert.KernelIdeal.Values.row3 a = Cert.ReferenceIdeal.RefValues.row3 a := rfl
theorem nbrSum_eq (h : Cert.KernelIdeal.Values.Feat) (s d : Cert.KernelIdeal.Values.Edges) :
    Cert.KernelIdeal.Values.nbrSum h s d = Cert.ReferenceIdeal.RefValues.nbrSum h s d := rfl
theorem degOf_eq (d : Cert.KernelIdeal.Values.Edges) : Cert.KernelIdeal.Values.degOf d = Cert.ReferenceIdeal.RefValues.degOf d := rfl

theorem gatherAt_eq (h : Cert.KernelIdeal.Values.Feat) (a : Cert.KernelIdeal.Values.Edges) : Cert.KernelIdeal.Values.gatherAt h a = Cert.ReferenceIdeal.RefValues.gatherAt h a := rfl

/-! ## One layer -/

/-- A layer of the kernel's program — the blocked combination of the features with the reciprocal-degree means — is the
    reference's layer: entry by entry both are the node formula, and the two means agree by the law above. -/
theorem layer_eq (h : Cert.KernelIdeal.Values.Feat) (src dst : Cert.KernelIdeal.Values.Edges4) (ws wn : FVec Ideal S4x10x10 .f32) (b : FVec Ideal S4x10 .f32) :
    Cert.KernelIdeal.Values.layerK h (Cert.KernelIdeal.Values.meanCat h src dst (Cert.KernelIdeal.Values.invDeg4 dst)) ws wn b = Cert.ReferenceIdeal.RefValues.layerR h src dst ws wn b := by
  funext i
  obtain ⟨n, j, rfl⟩ : ∃ (n : Fin 500000) (j : Fin 10), i = ix2 n j := ⟨i 0, i 1, eq_ix2 i⟩
  rw [Cert.ReferenceIdeal.RefValues.layerR_apply]
  show Cert.KernelIdeal.Values.layerAt h (Cert.KernelIdeal.Values.meanCat h src dst (Cert.KernelIdeal.Values.invDeg4 dst)) ws wn b n j = _
  unfold Cert.KernelIdeal.Values.layerAt
  congr 1
  funext r k
  match r with
  | ⟨0, _⟩ =>
    show Cert.KernelIdeal.Values.meanCat h src dst (Cert.KernelIdeal.Values.invDeg4 dst) (ix2 n (Cert.KernelIdeal.Values.col 0 k)) = Cert.ReferenceIdeal.RefValues.meanR h (Cert.ReferenceIdeal.RefValues.row0 src) (Cert.ReferenceIdeal.RefValues.row0 dst) (ix2 n k)
    rw [Cert.KernelIdeal.Values.meanCat_at0, Cert.KernelIdeal.Values.meanK0_apply, Cert.ReferenceIdeal.RefValues.meanR_apply, mul_recip_eq_div, row0_eq, row0_eq, nbrSum_eq, degOf_eq]
  | ⟨1, _⟩ =>
    show Cert.KernelIdeal.Values.meanCat h src dst (Cert.KernelIdeal.Values.invDeg4 dst) (ix2 n (Cert.KernelIdeal.Values.col 1 k)) = Cert.ReferenceIdeal.RefValues.meanR h (Cert.ReferenceIdeal.RefValues.row1 src) (Cert.ReferenceIdeal.RefValues.row1 dst) (ix2 n k)
    rw [Cert.KernelIdeal.Values.meanCat_at1, Cert.KernelIdeal.Values.meanK1_apply, Cert.ReferenceIdeal.RefValues.meanR_apply, mul_recip_eq_div, row1_eq, row1_eq, nbrSum_eq, degOf_eq]
  | ⟨2, _⟩ =>
    show Cert.KernelIdeal.Values.meanCat h src dst (Cert.KernelIdeal.Values.invDeg4 dst) (ix2 n (Cert.KernelIdeal.Values.col 2 k)) = Cert.ReferenceIdeal.RefValues.meanR h (Cert.ReferenceIdeal.RefValues.row2 src) (Cert.ReferenceIdeal.RefValues.row2 dst) (ix2 n k)
    rw [Cert.KernelIdeal.Values.meanCat_at2, Cert.KernelIdeal.Values.meanK2_apply, Cert.ReferenceIdeal.RefValues.meanR_apply, mul_recip_eq_div, row2_eq, row2_eq, nbrSum_eq, degOf_eq]
  | ⟨3, _⟩ =>
    show Cert.KernelIdeal.Values.meanCat h src dst (Cert.KernelIdeal.Values.invDeg4 dst) (ix2 n (Cert.KernelIdeal.Values.col 3 k)) = Cert.ReferenceIdeal.RefValues.meanR h (Cert.ReferenceIdeal.RefValues.row3 src) (Cert.ReferenceIdeal.RefValues.row3 dst) (ix2 n k)
    rw [Cert.KernelIdeal.Values.meanCat_at3, Cert.KernelIdeal.Values.meanK3_apply, Cert.ReferenceIdeal.RefValues.meanR_apply, mul_recip_eq_div, row3_eq, row3_eq, nbrSum_eq, degOf_eq]

/-! ## The scores -/

/-- The first 2000000 entries of the kernel's score vector are the reference's scores of the first edge list. -/
theorem score_first (H : Cert.KernelIdeal.Values.Feat) (a1 a2 : Cert.KernelIdeal.Values.Edges4) (a3 a4 : Cert.KernelIdeal.Values.Edges) :
    extractStridedSlice S2000000 ![0] (extractStridedSlice S4000000 ![0] (Cert.KernelIdeal.Values.scoreK (pad S4001792x10 ![0, 0] ![1792, 0] ![0, 0] (concatenate S4000000x10 0 [⟨S2000000x10, Cert.KernelIdeal.Values.gatherAt H (Cert.KernelIdeal.Values.row0 a1)⟩, ⟨S2000000x10, Cert.KernelIdeal.Values.gatherAt H a3⟩] concatenates_S2000000x10_S2000000x10_S4000000x10_d0) (sitofp (F := Ideal) .f32 (constantI S_ 32 0#32)) pads_S4000000x10_S4001792x10_017920_000 h_S_) (pad S4001792x10 ![0, 0] ![1792, 0] ![0, 0] (concatenate S4000000x10 0 [⟨S2000000x10, Cert.KernelIdeal.Values.gatherAt H (Cert.KernelIdeal.Values.row0 a2)⟩, ⟨S2000000x10, Cert.KernelIdeal.Values.gatherAt H a4⟩] concatenates_S2000000x10_S2000000x10_S4000000x10_d0) (sitofp (F := Ideal) .f32 (constantI S_ 32 0#32)) pads_S4000000x10_S4001792x10_017920_000 h_S_)) slices_S4001792_S4000000_0) slices_S4000000_S2000000_0
      = Cert.ReferenceIdeal.RefValues.scoreR H (Cert.ReferenceIdeal.RefValues.row0 a1) (Cert.ReferenceIdeal.RefValues.row0 a2) := by
  funext i
  obtain ⟨e, rfl⟩ : ∃ e : Fin 2000000, i = ix1 e := ⟨i 0, eq_ix1 i⟩
  rw [Cert.KernelIdeal.Values.scoreFirst, Cert.ReferenceIdeal.RefValues.scoreR_apply]
  refine Finset.sum_congr rfl fun k _ => ?_
  rw [Cert.KernelIdeal.Values.padCat_left, Cert.KernelIdeal.Values.padCat_left, gatherAt_eq, gatherAt_eq, row0_eq, row0_eq]

/-- The next 2000000 are the reference's scores of the second edge list. -/
theorem score_second (H : Cert.KernelIdeal.Values.Feat) (a1 a2 : Cert.KernelIdeal.Values.Edges4) (a3 a4 : Cert.KernelIdeal.Values.Edges) :
    extractStridedSlice S2000000 ![2000000] (extractStridedSlice S4000000 ![0] (Cert.KernelIdeal.Values.scoreK (pad S4001792x10 ![0, 0] ![1792, 0] ![0, 0] (concatenate S4000000x10 0 [⟨S2000000x10, Cert.KernelIdeal.Values.gatherAt H (Cert.KernelIdeal.Values.row0 a1)⟩, ⟨S2000000x10, Cert.KernelIdeal.Values.gatherAt H a3⟩] concatenates_S2000000x10_S2000000x10_S4000000x10_d0) (sitofp (F := Ideal) .f32 (constantI S_ 32 0#32)) pads_S4000000x10_S4001792x10_017920_000 h_S_) (pad S4001792x10 ![0, 0] ![1792, 0] ![0, 0] (concatenate S4000000x10 0 [⟨S2000000x10, Cert.KernelIdeal.Values.gatherAt H (Cert.KernelIdeal.Values.row0 a2)⟩, ⟨S2000000x10, Cert.KernelIdeal.Values.gatherAt H a4⟩] concatenates_S2000000x10_S2000000x10_S4000000x10_d0) (sitofp (F := Ideal) .f32 (constantI S_ 32 0#32)) pads_S4000000x10_S4001792x10_017920_000 h_S_)) slices_S4001792_S4000000_0) slices_S4000000_S2000000_2000000
      = Cert.ReferenceIdeal.RefValues.scoreR H a3 a4 := by
  funext i
  obtain ⟨e, rfl⟩ : ∃ e : Fin 2000000, i = ix1 e := ⟨i 0, eq_ix1 i⟩
  rw [Cert.KernelIdeal.Values.scoreSecond, Cert.ReferenceIdeal.RefValues.scoreR_apply]
  refine Finset.sum_congr rfl fun k _ => ?_
  rw [Cert.KernelIdeal.Values.padCat_right, Cert.KernelIdeal.Values.padCat_right, gatherAt_eq, gatherAt_eq]

end Cert.Sage.Bridge

end
-- ==== Proof.Algebraic.lean ====
/-
  The two idealized programs, run from memories that agree on the arguments, end with equal results.

  The kernel program's run leaves every buffer at the contents its items compose; its two results, walked back through the
  items, are slices of the blocked scores of the twice-applied blocked layer. The reference's run leaves its two results at
  its host operations' composed terms, which are the scores of its twice-applied layer. One layer of the kernel's program is
  one layer of the reference, so the two agree.
-/
import proofs.«163996_j25580825215696_1_alg».proof.Defs
import proofs.«163996_j25580825215696_1_alg».proof.Proof.Gen.KernelIdeal
import proofs.«163996_j25580825215696_1_alg».proof.Proof.Gen.ReferenceIdeal
import proofs.«163996_j25580825215696_1_alg».proof.Proof.Gen.ReferenceIdeal.Run
import proofs.«163996_j25580825215696_1_alg».proof.Proof.Gen.Pre_finite_inputs
import proofs.«163996_j25580825215696_1_alg».proof.Proof.IdealRun
import proofs.«163996_j25580825215696_1_alg».proof.Proof.KernelValue
import proofs.«163996_j25580825215696_1_alg».proof.Proof.LayerEq

set_option maxRecDepth 16384

noncomputable section

namespace Cert.Proof

open Idealize.ShloMosaic Idealize.SL.Sem Idealize.ShloMosaic.TcCoe Idealize.ShloMosaic.StableHlo

section
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The reference's first result, from a memory agreeing with the kernel program's on the arguments, is the kernel
    program's first result. -/
theorem ref_first (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValues.scoreR (Cert.ReferenceIdeal.Value.res_main_v315 (launchContents m' c)) (Cert.ReferenceIdeal.Value.res_main_v317 (launchContents m' c)) (Cert.ReferenceIdeal.Value.res_main_v326 (launchContents m' c))
      = Cert.KernelIdeal.Regions.W14 (F := Ideal) m ρ c (Proc.devRef .tc Cert.KernelIdeal.main_v232) := by
  rw [Cert.KernelIdeal.Values.at14_v232 m ρ c, Cert.Sage.Bridge.score_first, Cert.Sage.Bridge.layer_eq, Cert.Sage.Bridge.layer_eq]
  rw [Cert.ReferenceIdeal.RefValues.res315_eq, Cert.ReferenceIdeal.RefValues.res157_eq]
  show Cert.ReferenceIdeal.RefValues.scoreR (Cert.ReferenceIdeal.RefValues.layerR (Cert.ReferenceIdeal.RefValues.layerR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))
      (Cert.ReferenceIdeal.RefValues.row0 (m' ((c.tc : Thread Cert.ReferenceIdeal.nD Cert.ReferenceIdeal.τ).loc Cert.ReferenceIdeal.main_arg1))) (Cert.ReferenceIdeal.RefValues.row0 (m' ((c.tc : Thread Cert.ReferenceIdeal.nD Cert.ReferenceIdeal.τ).loc Cert.ReferenceIdeal.main_arg2))) = _
  rw [h0, h1, h2, h5, h6, h7, h8, h9, h10]

/-- The same for the second result. -/
theorem ref_second (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValues.scoreR (Cert.ReferenceIdeal.Value.res_main_v315 (launchContents m' c)) (launchContents m' c (Proc.devRef .tc Cert.ReferenceIdeal.main_arg3)) (launchContents m' c (Proc.devRef .tc Cert.ReferenceIdeal.main_arg4))
      = Cert.KernelIdeal.Regions.W14 (F := Ideal) m ρ c (Proc.devRef .tc Cert.KernelIdeal.main_v233) := by
  rw [Cert.KernelIdeal.Values.at14_v233 m ρ c, Cert.Sage.Bridge.score_second, Cert.Sage.Bridge.layer_eq, Cert.Sage.Bridge.layer_eq]
  rw [Cert.ReferenceIdeal.RefValues.res315_eq, Cert.ReferenceIdeal.RefValues.res157_eq]
  show Cert.ReferenceIdeal.RefValues.scoreR (Cert.ReferenceIdeal.RefValues.layerR (Cert.ReferenceIdeal.RefValues.layerR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [h0, h1, h2, h3, h4, h5, h6, h7, h8, h9, h10]

end

/-- At the extended reals the two programs, from memories agreeing on the arguments, both run to the end with the same two
    score vectors and their arguments unchanged. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Regions.W14 (F := Ideal) m ρ c (Proc.devRef .tc Cert.KernelIdeal.main_v232),
    fun c => Cert.KernelIdeal.Regions.W14 (F := Ideal) m ρ c (Proc.devRef .tc Cert.KernelIdeal.main_v233), ?_, ?_⟩
  · refine (θ_run Cert.KernelIdeal.defs _ _).mono (fun r h c => ⟨h c _ (Cert.KernelIdeal.Regions.mem_uc Cert.KernelIdeal.main_v232 (by decide)), h c _ (Cert.KernelIdeal.Regions.mem_uc Cert.KernelIdeal.main_v233 (by decide)),
      (h c _ (Cert.KernelIdeal.Regions.mem_uc Cert.KernelIdeal.main_arg0 (by decide))).trans (Cert.KernelIdeal.Regions.W14_main_arg0 m ρ c),
      (h c _ (Cert.KernelIdeal.Regions.mem_uc Cert.KernelIdeal.main_arg1 (by decide))).trans (Cert.KernelIdeal.Regions.W14_main_arg1 m ρ c),
      (h c _ (Cert.KernelIdeal.Regions.mem_uc Cert.KernelIdeal.main_arg2 (by decide))).trans (Cert.KernelIdeal.Regions.W14_main_arg2 m ρ c),
      (h c _ (Cert.KernelIdeal.Regions.mem_uc Cert.KernelIdeal.main_arg3 (by decide))).trans (Cert.KernelIdeal.Regions.W14_main_arg3 m ρ c),
      (h c _ (Cert.KernelIdeal.Regions.mem_uc Cert.KernelIdeal.main_arg4 (by decide))).trans (Cert.KernelIdeal.Regions.W14_main_arg4 m ρ c),
      (h c _ (Cert.KernelIdeal.Regions.mem_uc Cert.KernelIdeal.main_arg5 (by decide))).trans (Cert.KernelIdeal.Regions.W14_main_arg5 m ρ c),
      (h c _ (Cert.KernelIdeal.Regions.mem_uc Cert.KernelIdeal.main_arg6 (by decide))).trans (Cert.KernelIdeal.Regions.W14_main_arg6 m ρ c),
      (h c _ (Cert.KernelIdeal.Regions.mem_uc Cert.KernelIdeal.main_arg7 (by decide))).trans (Cert.KernelIdeal.Regions.W14_main_arg7 m ρ c),
      (h c _ (Cert.KernelIdeal.Regions.mem_uc Cert.KernelIdeal.main_arg8 (by decide))).trans (Cert.KernelIdeal.Regions.W14_main_arg8 m ρ c),
      (h c _ (Cert.KernelIdeal.Regions.mem_uc Cert.KernelIdeal.main_arg9 (by decide))).trans (Cert.KernelIdeal.Regions.W14_main_arg9 m ρ c),
      (h c _ (Cert.KernelIdeal.Regions.mem_uc Cert.KernelIdeal.main_arg10 (by decide))).trans (Cert.KernelIdeal.Regions.W14_main_arg10 m ρ c)⟩)
      (Cert.KernelIdeal.Regions.run_all (F := Ideal) m ρ)
  · refine (θ_run Cert.ReferenceIdeal.defs _ _).mono (fun r h c => ?_) (Cert.ReferenceIdeal.Value.run (F := Ideal) m' ρ')
    obtain ⟨g0, g1, g2, g3, g4, g5, g6, g7, g8, g9, g10⟩ := hagree c
    exact ⟨(h c).1.trans (ref_first m ρ m' c g0 g1 g2 g3 g4 g5 g6 g7 g8 g9 g10),
      (h c).2.1.trans (ref_second m ρ m' c g0 g1 g2 g3 g4 g5 g6 g7 g8 g9 g10), (h c).2.2⟩

end Cert.Proof

end
-- ==== Proof.lean ====
/-
  Two graph-convolution layers followed by dot-product edge scores, against the plain jnp reference.

  Each layer sends node features h to the sum over the four relations of h · W_selfᵀ + mean · W_neighᵀ + bias, where a
  node's mean is the sum of its in-neighbours' features divided by max(in-degree, 1). The kernel's program multiplies
  the neighbour sums by the reciprocal 1 / max(degree, 1), computed once, and hands them to a blocked kernel that adds up
  the eight small matrix products and four biases for 5000 nodes at a time; the reference divides. On the extended
  reals x · (1 / d) and x / d agree whenever d ≠ 0, and max(degree, 1) ≥ 1 is never zero, so the two agree at every
  entry with nothing assumed of the inputs. The scores are the row sums of products of gathered end-point features,
  computed by the kernel in blocks of 4096 edges over a zero-padded array and cut back to size.

  The three frames: each kernel program's run is assembled from its three kernel regions and the host stretches between
  them; the reference's is its host run with the results dropped.
-/
import proofs.«163996_j25580825215696_1_alg».proof.Defs
import proofs.«163996_j25580825215696_1_alg».proof.Proof.Gen.Kernel
import proofs.«163996_j25580825215696_1_alg».proof.Proof.Gen.KernelIdeal
import proofs.«163996_j25580825215696_1_alg».proof.Proof.Gen.ReferenceIdeal
import proofs.«163996_j25580825215696_1_alg».proof.Proof.Gen.ReferenceIdeal.Run
import proofs.«163996_j25580825215696_1_alg».proof.Proof.Gen.Pre_finite_inputs
import proofs.«163996_j25580825215696_1_alg».proof.Proof.BitsRun
import proofs.«163996_j25580825215696_1_alg».proof.Proof.IdealRun
import proofs.«163996_j25580825215696_1_alg».proof.Proof.Algebraic
import Idealize.ShloMosaic.Adequacy
import Idealize.ShloMosaic.Init

noncomputable section

namespace Cert.Proof

open Idealize.ShloMosaic Idealize.SL.Sem

/-- The word-level kernel program runs to its end, faults nowhere and leaves its eleven arguments as launched. -/
theorem frame_kernel : Cert.frame_Kernel (hKernel := Cert.Kernel.Gen.facts) (hPre_finite_inputs := Cert.Pre_finite_inputs.Gen.facts) :=
  fun m ρ _ => Cert.Kernel.Regions.frame (F := Bits) m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Regions.frame (F := Ideal) m ρ

/-- The reference is host operations only: its run, with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
